-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v141)) (v1 : (c : Dev Cert.KernelIdeal.nD) → Buf (Elt Ideal) ((c.tc : Thread Cert.KernelIdeal.nD Cert.KernelIdeal.τ).loc Cert.KernelIdeal.main_v130)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v141) = v0 c
          ∧ r.2.mem ((c.tc : Thread Cert.KernelIdeal.nD Cert.KernelIdeal.τ).loc Cert.KernelIdeal.main_v130) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v243) = v0 c
          ∧ r.2.mem ((c.tc : Thread Cert.ReferenceIdeal.nD Cert.ReferenceIdeal.τ).loc Cert.ReferenceIdeal.main_v221) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x3 : Shape := ⟨2, ![50000, 3]⟩
abbrev S2x800000 : Shape := ⟨2, ![2, 800000]⟩
abbrev S3x256 : Shape := ⟨2, ![3, 256]⟩
abbrev S256 : Shape := ⟨1, ![256]⟩
abbrev S6x256x256 : Shape := ⟨3, ![6, 256, 256]⟩
abbrev S6x256 : Shape := ⟨2, ![6, 256]⟩
abbrev S256x3 : Shape := ⟨2, ![256, 3]⟩
abbrev S3 : Shape := ⟨1, ![3]⟩
abbrev S_ : Shape := ⟨0, ![]⟩

class Facts : Prop where
  bcast_S_S50000x3 : S_.BroadcastsInDim S50000x3 (![] : Fin 0 → Fin S50000x3.rank)
  reducesTo_S50000x3_S_d0_1 : S50000x3.ReducesTo [0, 1] S_
  h_S_ : 0 < S_.numel
  bcast_S_S3x256 : S_.BroadcastsInDim S3x256 (![] : Fin 0 → Fin S3x256.rank)
  reducesTo_S3x256_S_d0_1 : S3x256.ReducesTo [0, 1] S_
  bcast_S_S256 : S_.BroadcastsInDim S256 (![] : Fin 0 → Fin S256.rank)
  reducesTo_S256_S_d0 : S256.ReducesTo [0] S_
  bcast_S_S6x256x256 : S_.BroadcastsInDim S6x256x256 (![] : Fin 0 → Fin S6x256x256.rank)
  reducesTo_S6x256x256_S_d0_1_2 : S6x256x256.ReducesTo [0, 1, 2] S_
  bcast_S_S6x256 : S_.BroadcastsInDim S6x256 (![] : Fin 0 → Fin S6x256.rank)
  reducesTo_S6x256_S_d0_1 : S6x256.ReducesTo [0, 1] S_
  bcast_S_S256x3 : S_.BroadcastsInDim S256x3 (![] : Fin 0 → Fin S256x3.rank)
  reducesTo_S256x3_S_d0_1 : S256x3.ReducesTo [0, 1] S_
  bcast_S_S3 : S_.BroadcastsInDim S3 (![] : Fin 0 → Fin S3.rank)
  reducesTo_S3_S_d0 : S3.ReducesTo [0] S_

variable [Facts]

def fn_part2 {F : FTy → Type} [FloatOps F] (main_arg8 : FVec F S256x3 .f32) (main_arg9 : FVec F S256x3 .f32) (main_arg10 : FVec F S3 .f32) (main_v33 : IVec S_ 1) : IVec S_ 1 :=
  let main_v34 : FVec F S256x3 .f32 := Host.absf main_arg8
  let main_cst_12 : FVec F S_ .f32 := constant S_ .f32 0x7F800000#32
  let main_v35 : FVec F S256x3 .f32 := broadcastInDim S256x3 ![] bcast_S_S256x3 main_cst_12
  let main_v36 : IVec S256x3 1 := cmpf .olt main_v34 main_v35
  let main_c_13 : IVec S_ 1 := constantI S_ 1 1#1
  let main_v37 : IVec S_ 1 := (fun x v => Host.reduce IntOp.andi x v reducesTo_S256x3_S_d0_1 h_S_) main_v36 main_c_13
  let main_v38 : IVec S_ 1 := andi main_v33 main_v37
  let main_v39 : FVec F S256x3 .f32 := Host.absf main_arg9
  let main_cst_14 : FVec F S_ .f32 := constant S_ .f32 0x7F800000#32
  let main_v40 : FVec F S256x3 .f32 := broadcastInDim S256x3 ![] bcast_S_S256x3 main_cst_14
  let main_v41 : IVec S256x3 1 := cmpf .olt main_v39 main_v40
  let main_c_15 : IVec S_ 1 := constantI S_ 1 1#1
  let main_v42 : IVec S_ 1 := (fun x v => Host.reduce IntOp.andi x v reducesTo_S256x3_S_d0_1 h_S_) main_v41 main_c_15
  let main_v43 : IVec S_ 1 := andi main_v38 main_v42
  let main_v44 : FVec F S3 .f32 := Host.absf main_arg10
  let main_cst_16 : FVec F S_ .f32 := constant S_ .f32 0x7F800000#32
  let main_v45 : FVec F S3 .f32 := broadcastInDim S3 ![] bcast_S_S3 main_cst_16
  let main_v46 : IVec S3 1 := cmpf .olt main_v44 main_v45
  let main_c_17 : IVec S_ 1 := constantI S_ 1 1#1
  let main_v47 : IVec S_ 1 := (fun x v => Host.reduce IntOp.andi x v reducesTo_S3_S_d0 h_S_) main_v46 main_c_17
  let main_v48 : IVec S_ 1 := andi main_v43 main_v47
  main_v48

def fn_part1 {F : FTy → Type} [FloatOps F] (main_arg5 : FVec F S6x256x256 .f32) (main_arg6 : FVec F S6x256x256 .f32) (main_arg7 : FVec F S6x256 .f32) (main_arg8 : FVec F S256x3 .f32) (main_arg9 : FVec F S256x3 .f32) (main_arg10 : FVec F S3 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S6x256x256 .f32 := Host.absf main_arg5
  let main_cst_6 : FVec F S_ .f32 := constant S_ .f32 0x7F800000#32
  let main_v20 : FVec F S6x256x256 .f32 := broadcastInDim S6x256x256 ![] bcast_S_S6x256x256 main_cst_6
  let main_v21 : IVec S6x256x256 1 := cmpf .olt main_v19 main_v20
  let main_c_7 : IVec S_ 1 := constantI S_ 1 1#1
  let main_v22 : IVec S_ 1 := (fun x v => Host.reduce IntOp.andi x v reducesTo_S6x256x256_S_d0_1_2 h_S_) main_v21 main_c_7
  let main_v23 : IVec S_ 1 := andi main_v18 main_v22
  let main_v24 : FVec F S6x256x256 .f32 := Host.absf main_arg6
  let main_cst_8 : FVec F S_ .f32 := constant S_ .f32 0x7F800000#32
  let main_v25 : FVec F S6x256x256 .f32 := broadcastInDim S6x256x256 ![] bcast_S_S6x256x256 main_cst_8
  let main_v26 : IVec S6x256x256 1 := cmpf .olt main_v24 main_v25
  let main_c_9 : IVec S_ 1 := constantI S_ 1 1#1
  let main_v27 : IVec S_ 1 := (fun x v => Host.reduce IntOp.andi x v reducesTo_S6x256x256_S_d0_1_2 h_S_) main_v26 main_c_9
  let main_v28 : IVec S_ 1 := andi main_v23 main_v27
  let main_v29 : FVec F S6x256 .f32 := Host.absf main_arg7
  let main_cst_10 : FVec F S_ .f32 := constant S_ .f32 0x7F800000#32
  let main_v30 : FVec F S6x256 .f32 := broadcastInDim S6x256 ![] bcast_S_S6x256 main_cst_10
  let main_v31 : IVec S6x256 1 := cmpf .olt main_v29 main_v30
  let main_c_11 : IVec S_ 1 := constantI S_ 1 1#1
  let main_v32 : IVec S_ 1 := (fun x v => Host.reduce IntOp.andi x v reducesTo_S6x256_S_d0_1 h_S_) main_v31 main_c_11
  let main_v33 : IVec S_ 1 := andi main_v28 main_v32
  fn_part2 (F := F) main_arg8 main_arg9 main_arg10 main_v33

def fn {F : FTy → Type} [FloatOps F] (main_arg0 : FVec F S50000x3 .f32) (main_arg1 : IVec S2x800000 32) (main_arg2 : FVec F S3x256 .f32) (main_arg3 : FVec F S3x256 .f32) (main_arg4 : FVec F S256 .f32) (main_arg5 : FVec F S6x256x256 .f32) (main_arg6 : FVec F S6x256x256 .f32) (main_arg7 : FVec F S6x256 .f32) (main_arg8 : FVec F S256x3 .f32) (main_arg9 : FVec F S256x3 .f32) (main_arg10 : FVec F S3 .f32) : IVec S_ 1 :=
  let main_v0 : FVec F S50000x3 .f32 := Host.absf main_arg0
  let main_cst : FVec F S_ .f32 := constant S_ .f32 0x7F800000#32
  let main_v1 : FVec F S50000x3 .f32 := broadcastInDim S50000x3 ![] bcast_S_S50000x3 main_cst
  let main_v2 : IVec S50000x3 1 := cmpf .olt main_v0 main_v1
  let main_c : IVec S_ 1 := constantI S_ 1 1#1
  let main_v3 : IVec S_ 1 := (fun x v => Host.reduce IntOp.andi x v reducesTo_S50000x3_S_d0_1 h_S_) main_v2 main_c
  let main_v4 : FVec F S3x256 .f32 := Host.absf main_arg2
  let main_cst_0 : FVec F S_ .f32 := constant S_ .f32 0x7F800000#32
  let main_v5 : FVec F S3x256 .f32 := broadcastInDim S3x256 ![] bcast_S_S3x256 main_cst_0
  let main_v6 : IVec S3x256 1 := cmpf .olt main_v4 main_v5
  let main_c_1 : IVec S_ 1 := constantI S_ 1 1#1
  let main_v7 : IVec S_ 1 := (fun x v => Host.reduce IntOp.andi x v reducesTo_S3x256_S_d0_1 h_S_) main_v6 main_c_1
  let main_v8 : IVec S_ 1 := andi main_v3 main_v7
  let main_v9 : FVec F S3x256 .f32 := Host.absf main_arg3
  let main_cst_2 : FVec F S_ .f32 := constant S_ .f32 0x7F800000#32
  let main_v10 : FVec F S3x256 .f32 := broadcastInDim S3x256 ![] bcast_S_S3x256 main_cst_2
  let main_v11 : IVec S3x256 1 := cmpf .olt main_v9 main_v10
  let main_c_3 : IVec S_ 1 := constantI S_ 1 1#1
  let main_v12 : IVec S_ 1 := (fun x v => Host.reduce IntOp.andi x v reducesTo_S3x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_arg7 main_arg8 main_arg9 main_arg10 main_v13 main_v16
-- ==== Kernel.lean ====
abbrev S50000x3 : Shape := ⟨2, ![50000, 3]⟩
abbrev S2x800000 : Shape := ⟨2, ![2, 800000]⟩
abbrev S3x256 : Shape := ⟨2, ![3, 256]⟩
abbrev S256 : Shape := ⟨1, ![256]⟩
abbrev S6x256x256 : Shape := ⟨3, ![6, 256, 256]⟩
abbrev S6x256 : Shape := ⟨2, ![6, 256]⟩
abbrev S256x3 : Shape := ⟨2, ![256, 3]⟩
abbrev S3 : Shape := ⟨1, ![3]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S1x1 : Shape := ⟨2, ![1, 1]⟩
abbrev S800000x3 : Shape := ⟨2, ![800000, 3]⟩
abbrev S50000x256 : Shape := ⟨2, ![50000, 256]⟩
abbrev S2000x3 : Shape := ⟨2, ![2000, 3]⟩
abbrev S2000x1 : Shape := ⟨2, ![2000, 1]⟩
abbrev S2000x256 : Shape := ⟨2, ![2000, 256]⟩
abbrev S1x256 : Shape := ⟨2, ![1, 256]⟩
abbrev S1x256x256 : Shape := ⟨3, ![1, 256, 256]⟩
abbrev S256x256 : Shape := ⟨2, ![256, 256]⟩
abbrev S800000x256 : Shape := ⟨2, ![800000, 256]⟩
abbrev S1x3 : Shape := ⟨2, ![1, 3]⟩

abbrev nBuf : Space → Nat
  | .hbm => 183
  | .vmem => 102
  | .smem => 0
  | _ => 0

abbrev hbmTy0_0 (i : Nat) : BufTy := match i % 128 with
  | 0 => ⟨S50000x3, .f32⟩
  | 1 => ⟨S2x800000, .i32⟩
  | 2 => ⟨S3x256, .f32⟩
  | 3 => ⟨S3x256, .f32⟩
  | 4 => ⟨S256, .f32⟩
  | 5 => ⟨S6x256x256, .f32⟩
  | 6 => ⟨S6x256x256, .f32⟩
  | 7 => ⟨S6x256, .f32⟩
  | 8 => ⟨S256x3, .f32⟩
  | 9 => ⟨S256x3, .f32⟩
  | 10 => ⟨S3, .f32⟩
  | 11 => ⟨S1x800000, .i32⟩
  | 12 => ⟨S800000, .i32⟩
  | 13 => ⟨S1x800000, .i32⟩
  | 14 => ⟨S800000, .i32⟩
  | 15 => ⟨S_, .f32⟩
  | 16 => ⟨S800000, .f32⟩
  | 17 => ⟨S_, .f32⟩
  | 18 => ⟨S50000, .f32⟩
  | 19 => ⟨S800000x1, .i32⟩
  | 20 => ⟨S50000, .f32⟩
  | 21 => ⟨S_, .f32⟩
  | 22 => ⟨S_, .f32⟩
  | 23 => ⟨S_, .f32⟩
  | 24 => ⟨S_, .f32⟩
  | 25 => ⟨S_, .f32⟩
  | 26 => ⟨S_, .f32⟩
  | 27 => ⟨S50000, .f32⟩
  | 28 => ⟨S50000, .f32⟩
  | 29 => ⟨S_, .f32⟩
  | 30 => ⟨S50000, .f32⟩
  | 31 => ⟨S50000, .f32⟩
  | 32 => ⟨S50000x1, .f32⟩
  | 33 => ⟨S_, .f32⟩
  | 34 => ⟨S1x1, .f32⟩
  | 35 => ⟨S_, .i32⟩
  | 36 => ⟨S800000, .i32⟩
  | 37 => ⟨S800000, .i1⟩
  | 38 => ⟨S_, .i32⟩
  | 39 => ⟨S800000, .i32⟩
  | 40 => ⟨S800000, .i32⟩
  | 41 => ⟨S800000, .i32⟩
  | 42 => ⟨S800000x1, .i32⟩
  | 43 => ⟨S800000x3, .f32⟩
  | 44 => ⟨S_, .f32⟩
  | 45 => ⟨S50000x3, .f32⟩
  | 46 => ⟨S800000x1, .i32⟩
  | 47 => ⟨S50000x3, .f32⟩
  | 48 => ⟨S50000x256, .f32⟩
  | 49 => ⟨S1x256x256, .f32⟩
  | 50 => ⟨S256x256, .f32⟩
  | 51 => ⟨S1x256x256, .f32⟩
  | 52 => ⟨S256x256, .f32⟩
  | 53 => ⟨S1x256, .f32⟩
  | 54 => ⟨S256, .f32⟩
  | 55 => ⟨S_, .i32⟩
  | 56 => ⟨S800000, .i32⟩
  | 57 => ⟨S800000, .i1⟩
  | 58 => ⟨S_, .i32⟩
  | 59 => ⟨S800000, .i32⟩
  | 60 => ⟨S800000, .i32⟩
  | 61 => ⟨S800000, .i32⟩
  | 62 => ⟨S800000x1, .i32⟩
  | 63 => ⟨S800000x256, .f32⟩
  | 64 => ⟨S_, .f32⟩
  | 65 => ⟨S50000x256, .f32⟩
  | 66 => ⟨S800000x1, .i32⟩
  | 67 => ⟨S50000x256, .f32⟩
  | 68 => ⟨S50000x256, .f32⟩
  | 69 => ⟨S1x256x256, .f32⟩
  | 70 => ⟨S256x256, .f32⟩
  | 71 => ⟨S1x256x256, .f32⟩
  | 72 => ⟨S256x256, .f32⟩
  | 73 => ⟨S1x256, .f32⟩
  | 74 => ⟨S256, .f32⟩
  | 75 => ⟨S_, .i32⟩
  | 76 => ⟨S800000, .i32⟩
  | 77 => ⟨S800000, .i1⟩
  | 78 => ⟨S_, .i32⟩
  | 79 => ⟨S800000, .i32⟩
  | 80 => ⟨S800000, .i32⟩
  | 81 => ⟨S800000, .i32⟩
  | 82 => ⟨S800000x1, .i32⟩
  | 83 => ⟨S800000x256, .f32⟩
  | 84 => ⟨S_, .f32⟩
  | 85 => ⟨S50000x256, .f32⟩
  | 86 => ⟨S800000x1, .i32⟩
  | 87 => ⟨S50000x256, .f32⟩
  | 88 => ⟨S50000x256, .f32⟩
  | 89 => ⟨S1x256x256, .f32⟩
  | 90 => ⟨S256x256, .f32⟩
  | 91 => ⟨S1x256x256, .f32⟩
  | 92 => ⟨S256x256, .f32⟩
  | 93 => ⟨S1x256, .f32⟩
  | 94 => ⟨S256, .f32⟩
  | 95 => ⟨S_, .i32⟩
  | 96 => ⟨S800000, .i32⟩
  | 97 => ⟨S800000, .i1⟩
  | 98 => ⟨S_, .i32⟩
  | 99 => ⟨S800000, .i32⟩
  | 100 => ⟨S800000, .i32⟩
  | 101 => ⟨S800000, .i32⟩
  | 102 => ⟨S800000x1, .i32⟩
  | 103 => ⟨S800000x256, .f32⟩
  | 104 => ⟨S_, .f32⟩
  | 105 => ⟨S50000x256, .f32⟩
  | 106 => ⟨S800000x1, .i32⟩
  | 107 => ⟨S50000x256, .f32⟩
  | 108 => ⟨S50000x256, .f32⟩
  | 109 => ⟨S1x256x256, .f32⟩
  | 110 => ⟨S256x256, .f32⟩
  | 111 => ⟨S1x256x256, .f32⟩
  | 112 => ⟨S256x256, .f32⟩
  | 113 => ⟨S1x256, .f32⟩
  | 114 => ⟨S256, .f32⟩
  | 115 => ⟨S_, .i32⟩
  | 116 => ⟨S800000, .i32⟩
  | 117 => ⟨S800000, .i1⟩
  | 118 => ⟨S_, .i32⟩
  | 119 => ⟨S800000, .i32⟩
  | 120 => ⟨S800000, .i32⟩
  | 121 => ⟨S800000, .i32⟩
  | 122 => ⟨S800000x1, .i32⟩
  | 123 => ⟨S800000x256, .f32⟩
  | 124 => ⟨S_, .f32⟩
  | 125 => ⟨S50000x256, .f32⟩
  | 126 => ⟨S800000x1, .i32⟩
  | 127 => ⟨S50000x256, .f32⟩
  | _ => ⟨S50000x3, .f32⟩

abbrev hbmTy0_1 (i : Nat) : BufTy := match i % 128 with
  | 0 => ⟨S50000x256, .f32⟩
  | 1 => ⟨S1x256x256, .f32⟩
  | 2 => ⟨S256x256, .f32⟩
  | 3 => ⟨S1x256x256, .f32⟩
  | 4 => ⟨S256x256, .f32⟩
  | 5 => ⟨S1x256, .f32⟩
  | 6 => ⟨S256, .f32⟩
  | 7 => ⟨S_, .i32⟩
  | 8 => ⟨S800000, .i32⟩
  | 9 => ⟨S800000, .i1⟩
  | 10 => ⟨S_, .i32⟩
  | 11 => ⟨S800000, .i32⟩
  | 12 => ⟨S800000, .i32⟩
  | 13 => ⟨S800000, .i32⟩
  | 14 => ⟨S800000x1, .i32⟩
  | 15 => ⟨S800000x256, .f32⟩
  | 16 => ⟨S_, .f32⟩
  | 17 => ⟨S50000x256, .f32⟩
  | 18 => ⟨S800000x1, .i32⟩
  | 19 => ⟨S50000x256, .f32⟩
  | 20 => ⟨S50000x256, .f32⟩
  | 21 => ⟨S1x256x256, .f32⟩
  | 22 => ⟨S256x256, .f32⟩
  | 23 => ⟨S1x256x256, .f32⟩
  | 24 => ⟨S256x256, .f32⟩
  | 25 => ⟨S1x256, .f32⟩
  | 26 => ⟨S256, .f32⟩
  | 27 => ⟨S_, .i32⟩
  | 28 => ⟨S800000, .i32⟩
  | 29 => ⟨S800000, .i1⟩
  | 30 => ⟨S_, .i32⟩
  | 31 => ⟨S800000, .i32⟩
  | 32 => ⟨S800000, .i32⟩
  | 33 => ⟨S800000, .i32⟩
  | 34 => ⟨S800000x1, .i32⟩
  | 35 => ⟨S800000x256, .f32⟩
  | 36 => ⟨S_, .f32⟩
  | 37 => ⟨S50000x256, .f32⟩
  | 38 => ⟨S800000x1, .i32⟩
  | 39 => ⟨S50000x256, .f32⟩
  | 40 => ⟨S50000x256, .f32⟩
  | 41 => ⟨S_, .i32⟩
  | 42 => ⟨S800000, .i32⟩
  | 43 => ⟨S800000, .i1⟩
  | 44 => ⟨S_, .i32⟩
  | 45 => ⟨S800000, .i32⟩
  | 46 => ⟨S800000, .i32⟩
  | 47 => ⟨S800000, .i32⟩
  | 48 => ⟨S800000x1, .i32⟩
  | 49 => ⟨S800000x256, .f32⟩
  | 50 => ⟨S_, .f32⟩
  | 51 => ⟨S50000x256, .f32⟩
  | 52 => ⟨S800000x1, .i32⟩
  | 53 => ⟨S50000x256, .f32⟩
  | 54 => ⟨S50000x3, .f32⟩
  | _ => ⟨S50000x3, .f32⟩

abbrev hbmTy (i : Nat) : BufTy := match i / 128 with
  | 0 => hbmTy0_0 i
  | 1 => hbmTy0_1 i
  | _ => ⟨S50000x3, .f32⟩

abbrev bufTy : (tb : Table) → Fin (tcTables nBuf tb) → BufTy
  | .hbm, ⟨i, _⟩ => hbmTy i
  | .local _ .vmem, ⟨0, _⟩ => ⟨S2000x3, .f32⟩
  | .local _ .vmem, ⟨1, _⟩ => ⟨S2000x3, .f32⟩
  | .local _ .vmem, ⟨2, _⟩ => ⟨S2000x3, .f32⟩
  | .local _ .vmem, ⟨3, _⟩ => ⟨S2000x3, .f32⟩
  | .local _ .vmem, ⟨4, _⟩ => ⟨S2000x1, .f32⟩
  | .local _ .vmem, ⟨5, _⟩ => ⟨S2000x1, .f32⟩
  | .local _ .vmem, ⟨6, _⟩ => ⟨S1x1, .f32⟩
  | .local _ .vmem, ⟨7, _⟩ => ⟨S3x256, .f32⟩
  | .local _ .vmem, ⟨8, _⟩ => ⟨S3x256, .f32⟩
  | .local _ .vmem, ⟨9, _⟩ => ⟨S256, .f32⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S2000x256, .f32⟩
  | .local _ .vmem, ⟨14, _⟩ => ⟨S2000x256, .f32⟩
  | .local _ .vmem, ⟨15, _⟩ => ⟨S2000x256, .f32⟩
  | .local _ .vmem, ⟨16, _⟩ => ⟨S2000x1, .f32⟩
  | .local _ .vmem, ⟨17, _⟩ => ⟨S2000x1, .f32⟩
  | .local _ .vmem, ⟨18, _⟩ => ⟨S1x1, .f32⟩
  | .local _ .vmem, ⟨19, _⟩ => ⟨S256x256, .f32⟩
  | .local _ .vmem, ⟨20, _⟩ => ⟨S256x256, .f32⟩
  | .local _ .vmem, ⟨21, _⟩ => ⟨S256, .f32⟩
  | .local _ .vmem, ⟨22, _⟩ => ⟨S2000x256, .f32⟩
  | .local _ .vmem, ⟨23, _⟩ => ⟨S2000x256, .f32⟩
  | .local _ .vmem, ⟨24, _⟩ => ⟨S2000x256, .f32⟩
  | .local _ .vmem, ⟨25, _⟩ => ⟨S2000x256, .f32⟩
  | .local _ .vmem, ⟨26, _⟩ => ⟨S2000x256, .f32⟩
  | .local _ .vmem, ⟨27, _⟩ => ⟨S2000x256, .f32⟩
  | .local _ .vmem, ⟨28, _⟩ => ⟨S2000x1, .f32⟩
  | .local _ .vmem, ⟨29, _⟩ => ⟨S2000x1, .f32⟩
  | .local _ .vmem, ⟨30, _⟩ => ⟨S1x1, .f32⟩
  | .local _ .vmem, ⟨31, _⟩ => ⟨S256x256, .f32⟩
  | .local _ .vmem, ⟨32, _⟩ => ⟨S256x256, .f32⟩
  | .local _ .vmem, ⟨33, _⟩ => ⟨S256, .f32⟩
  | .local _ .vmem, ⟨34, _⟩ => ⟨S2000x256, .f32⟩
  | .local _ .vmem, ⟨35, _⟩ => ⟨S2000x256, .f32⟩
  | .local _ .vmem, ⟨36, _⟩ => ⟨S2000x256, .f32⟩
  | .local _ .vmem, ⟨37, _⟩ => ⟨S2000x256, .f32⟩
  | .local _ .vmem, ⟨38, _⟩ => ⟨S2000x256, .f32⟩
  | .local _ .vmem, ⟨39, _⟩ => ⟨S2000x256, .f32⟩
  | .local _ .vmem, ⟨40, _⟩ => ⟨S2000x256, .f32⟩
  | .local _ .vmem, ⟨41, _⟩ => ⟨S2000x256, .f32⟩
  | .local _ .vmem, ⟨42, _⟩ => ⟨S2000x1, .f32⟩
  | .local _ .vmem, ⟨43, _⟩ => ⟨S2000x1, .f32⟩
  | .local _ .vmem, ⟨44, _⟩ => ⟨S1x1, .f32⟩
  | .local _ .vmem, ⟨45, _⟩ => ⟨S256x256, .f32⟩
  | .local _ .vmem, ⟨46, _⟩ => ⟨S256x256, .f32⟩
  | .local _ .vmem, ⟨47, _⟩ => ⟨S256, .f32⟩
  | .local _ .vmem, ⟨48, _⟩ => ⟨S2000x256, .f32⟩
  | .local _ .vmem, ⟨49, _⟩ => ⟨S2000x256, .f32⟩
  | .local _ .vmem, ⟨50, _⟩ => ⟨S2000x256, .f32⟩
  | .local _ .vmem, ⟨51, _⟩ => ⟨S2000x256, .f32⟩
  | .local _ .vmem, ⟨52, _⟩ => ⟨S2000x256, .f32⟩
  | .local _ .vmem, ⟨53, _⟩ => ⟨S2000x256, .f32⟩
  | .local _ .vmem, ⟨54, _⟩ => ⟨S2000x1, .f32⟩
  | .local _ .vmem, ⟨55, _⟩ => ⟨S2000x1, .f32⟩
  | .local _ .vmem, ⟨56, _⟩ => ⟨S1x1, .f32⟩
  | .local _ .vmem, ⟨57, _⟩ => ⟨S256x256, .f32⟩
  | .local _ .vmem, ⟨58, _⟩ => ⟨S256x256, .f32⟩
  | .local _ .vmem, ⟨59, _⟩ => ⟨S256, .f32⟩
  | .local _ .vmem, ⟨60, _⟩ => ⟨S2000x256, .f32⟩
  | .local _ .vmem, ⟨61, _⟩ => ⟨S2000x256, .f32⟩
  | .local _ .vmem, ⟨62, _⟩ => ⟨S2000x256, .f32⟩
  | .local _ .vmem, ⟨63, _⟩ => ⟨S2000x256, .f32⟩
  | .local _ .vmem, ⟨64, _⟩ => ⟨S2000x256, .f32⟩
  | .local _ .vmem, ⟨65, _⟩ => ⟨S2000x256, .f32⟩
  | .local _ .vmem, ⟨66, _⟩ => ⟨S2000x256, .f32⟩
  | .local _ .vmem, ⟨67, _⟩ => ⟨S2000x256, .f32⟩
  | .local _ .vmem, ⟨68, _⟩ => ⟨S2000x1, .f32⟩
  | .local _ .vmem, ⟨69, _⟩ => ⟨S2000x1, .f32⟩
  | .local _ .vmem, ⟨70, _⟩ => ⟨S1x1, .f32⟩
  | .local _ .vmem, ⟨71, _⟩ => ⟨S256x256, .f32⟩
  | .local _ .vmem, ⟨72, _⟩ => ⟨S256x256, .f32⟩
  | .local _ .vmem, ⟨73, _⟩ => ⟨S256, .f32⟩
  | .local _ .vmem, ⟨74, _⟩ => ⟨S2000x256, .f32⟩
  | .local _ .vmem, ⟨75, _⟩ => ⟨S2000x256, .f32⟩
  | .local _ .vmem, ⟨76, _⟩ => ⟨S2000x256, .f32⟩
  | .local _ .vmem, ⟨77, _⟩ => ⟨S2000x256, .f32⟩
  | .local _ .vmem, ⟨78, _⟩ => ⟨S2000x256, .f32⟩
  | .local _ .vmem, ⟨79, _⟩ => ⟨S2000x256, .f32⟩
  | .local _ .vmem, ⟨80, _⟩ => ⟨S2000x1, .f32⟩
  | .local _ .vmem, ⟨81, _⟩ => ⟨S2000x1, .f32⟩
  | .local _ .vmem, ⟨82, _⟩ => ⟨S1x1, .f32⟩
  | .local _ .vmem, ⟨83, _⟩ => ⟨S256x256, .f32⟩
  | .local _ .vmem, ⟨84, _⟩ => ⟨S256x256, .f32⟩
  | .local _ .vmem, ⟨85, _⟩ => ⟨S256, .f32⟩
  | .local _ .vmem, ⟨86, _⟩ => ⟨S2000x256, .f32⟩
  | .local _ .vmem, ⟨87, _⟩ => ⟨S2000x256, .f32⟩
  | .local _ .vmem, ⟨88, _⟩ => ⟨S2000x256, .f32⟩
  | .local _ .vmem, ⟨89, _⟩ => ⟨S2000x256, .f32⟩
  | .local _ .vmem, ⟨90, _⟩ => ⟨S2000x256, .f32⟩
  | .local _ .vmem, ⟨91, _⟩ => ⟨S2000x256, .f32⟩
  | .local _ .vmem, ⟨92, _⟩ => ⟨S2000x256, .f32⟩
  | .local _ .vmem, ⟨93, _⟩ => ⟨S2000x256, .f32⟩
  | .local _ .vmem, ⟨94, _⟩ => ⟨S2000x1, .f32⟩
  | .local _ .vmem, ⟨95, _⟩ => ⟨S2000x1, .f32⟩
  | .local _ .vmem, ⟨96, _⟩ => ⟨S1x1, .f32⟩
  | .local _ .vmem, ⟨97, _⟩ => ⟨S256x3, .f32⟩
  | .local _ .vmem, ⟨98, _⟩ => ⟨S256x3, .f32⟩
  | .local _ .vmem, ⟨99, _⟩ => ⟨S3, .f32⟩
  | .local _ .vmem, ⟨100, _⟩ => ⟨S2000x3, .f32⟩
  | .local _ .vmem, ⟨101, _⟩ => ⟨S2000x3, .f32⟩
  | _, _ => ⟨S50000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | _, _ => false

abbrev semScoped : Fin 0 → Bool
  | ⟨_, h⟩ => absurd h (Nat.not_lt_zero _)

abbrev dmaSemScoped : Fin 102 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | _ => false

abbrev sig : RefSig :=
  ofTc nBuf bufTy 0 102 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_cst_2 : Ref sig .tc := ⟨.hbm, 23, rfl⟩
abbrev main_v9 : Ref sig .tc := ⟨.hbm, 24, rfl⟩
abbrev main_cst_3 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst_4 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_c : Ref sig .tc := ⟨.hbm, 35, rfl⟩
abbrev main_v18 : Ref sig .tc := ⟨.hbm, 36, rfl⟩
abbrev main_v19 : Ref sig .tc := ⟨.hbm, 37, rfl⟩
abbrev main_c_5 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_6 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_c_7 : Ref sig .tc := ⟨.hbm, 55, rfl⟩
abbrev main_v35 : Ref sig .tc := ⟨.hbm, 56, rfl⟩
abbrev main_v36 : Ref sig .tc := ⟨.hbm, 57, rfl⟩
abbrev main_c_8 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_9 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_c_10 : Ref sig .tc := ⟨.hbm, 75, rfl⟩
abbrev main_v52 : Ref sig .tc := ⟨.hbm, 76, rfl⟩
abbrev main_v53 : Ref sig .tc := ⟨.hbm, 77, rfl⟩
abbrev main_c_11 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_12 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_c_13 : Ref sig .tc := ⟨.hbm, 95, rfl⟩
abbrev main_v69 : Ref sig .tc := ⟨.hbm, 96, rfl⟩
abbrev main_v70 : Ref sig .tc := ⟨.hbm, 97, rfl⟩
abbrev main_c_14 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_cst_15 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_c_16 : Ref sig .tc := ⟨.hbm, 115, rfl⟩
abbrev main_v86 : Ref sig .tc := ⟨.hbm, 116, rfl⟩
abbrev main_v87 : Ref sig .tc := ⟨.hbm, 117, rfl⟩
abbrev main_c_17 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_cst_18 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_c_19 : Ref sig .tc := ⟨.hbm, 135, rfl⟩
abbrev main_v103 : Ref sig .tc := ⟨.hbm, 136, rfl⟩
abbrev main_v104 : Ref sig .tc := ⟨.hbm, 137, rfl⟩
abbrev main_c_20 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_cst_21 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_c_22 : Ref sig .tc := ⟨.hbm, 155, rfl⟩
abbrev main_v120 : Ref sig .tc := ⟨.hbm, 156, rfl⟩
abbrev main_v121 : Ref sig .tc := ⟨.hbm, 157, rfl⟩
abbrev main_c_23 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩
abbrev main_cst_24 : Ref sig .tc := ⟨.hbm, 164, rfl⟩
abbrev main_v127 : Ref sig .tc := ⟨.hbm, 165, rfl⟩
abbrev main_v128 : Ref sig .tc := ⟨.hbm, 166, rfl⟩
abbrev main_v129 : Ref sig .tc := ⟨.hbm, 167, rfl⟩
abbrev main_v130 : Ref sig .tc := ⟨.hbm, 168, rfl⟩
abbrev main_c_25 : Ref sig .tc := ⟨.hbm, 169, rfl⟩
abbrev main_v131 : Ref sig .tc := ⟨.hbm, 170, rfl⟩
abbrev main_v132 : Ref sig .tc := ⟨.hbm, 171, rfl⟩
abbrev main_c_26 : Ref sig .tc := ⟨.hbm, 172, rfl⟩
abbrev main_v133 : Ref sig .tc := ⟨.hbm, 173, rfl⟩
abbrev main_v134 : Ref sig .tc := ⟨.hbm, 174, rfl⟩
abbrev main_v135 : Ref sig .tc := ⟨.hbm, 175, rfl⟩
abbrev main_v136 : Ref sig .tc := ⟨.hbm, 176, rfl⟩
abbrev main_v137 : Ref sig .tc := ⟨.hbm, 177, rfl⟩
abbrev main_cst_27 : Ref sig .tc := ⟨.hbm, 178, rfl⟩
abbrev main_v138 : Ref sig .tc := ⟨.hbm, 179, rfl⟩
abbrev main_v139 : Ref sig .tc := ⟨.hbm, 180, rfl⟩
abbrev main_v140 : Ref sig .tc := ⟨.hbm, 181, rfl⟩
abbrev main_v141 : Ref sig .tc := ⟨.hbm, 182, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg7_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg2_1 : Ref sig .tc := ⟨.vmem, 29, rfl⟩
abbrev cc2_stg3_0 : Ref sig .tc := ⟨.vmem, 30, rfl⟩
abbrev cc2_stg4_0 : Ref sig .tc := ⟨.vmem, 31, rfl⟩
abbrev cc2_stg5_0 : Ref sig .tc := ⟨.vmem, 32, rfl⟩
abbrev cc2_stg6_0 : Ref sig .tc := ⟨.vmem, 33, rfl⟩
abbrev cc2_stg7_0 : Ref sig .tc := ⟨.vmem, 34, rfl⟩
abbrev cc2_stg7_1 : Ref sig .tc := ⟨.vmem, 35, rfl⟩
abbrev cc2_stg8_0 : Ref sig .tc := ⟨.vmem, 36, rfl⟩
abbrev cc2_stg8_1 : Ref sig .tc := ⟨.vmem, 37, rfl⟩
abbrev cc3_stg0_0 : Ref sig .tc := ⟨.vmem, 38, rfl⟩
abbrev cc3_stg0_1 : Ref sig .tc := ⟨.vmem, 39, rfl⟩
abbrev cc3_stg1_0 : Ref sig .tc := ⟨.vmem, 40, rfl⟩
abbrev cc3_stg1_1 : Ref sig .tc := ⟨.vmem, 41, rfl⟩
abbrev cc3_stg2_0 : Ref sig .tc := ⟨.vmem, 42, rfl⟩
abbrev cc3_stg2_1 : Ref sig .tc := ⟨.vmem, 43, rfl⟩
abbrev cc3_stg3_0 : Ref sig .tc := ⟨.vmem, 44, rfl⟩
abbrev cc3_stg4_0 : Ref sig .tc := ⟨.vmem, 45, rfl⟩
abbrev cc3_stg5_0 : Ref sig .tc := ⟨.vmem, 46, rfl⟩
abbrev cc3_stg6_0 : Ref sig .tc := ⟨.vmem, 47, rfl⟩
abbrev cc3_stg7_0 : Ref sig .tc := ⟨.vmem, 48, rfl⟩
abbrev cc3_stg7_1 : Ref sig .tc := ⟨.vmem, 49, rfl⟩
abbrev cc4_stg0_0 : Ref sig .tc := ⟨.vmem, 50, rfl⟩
abbrev cc4_stg0_1 : Ref sig .tc := ⟨.vmem, 51, rfl⟩
abbrev cc4_stg1_0 : Ref sig .tc := ⟨.vmem, 52, rfl⟩
abbrev cc4_stg1_1 : Ref sig .tc := ⟨.vmem, 53, rfl⟩
abbrev cc4_stg2_0 : Ref sig .tc := ⟨.vmem, 54, rfl⟩
abbrev cc4_stg2_1 : Ref sig .tc := ⟨.vmem, 55, rfl⟩
abbrev cc4_stg3_0 : Ref sig .tc := ⟨.vmem, 56, rfl⟩
abbrev cc4_stg4_0 : Ref sig .tc := ⟨.vmem, 57, rfl⟩
abbrev cc4_stg5_0 : Ref sig .tc := ⟨.vmem, 58, rfl⟩
abbrev cc4_stg6_0 : Ref sig .tc := ⟨.vmem, 59, rfl⟩
abbrev cc4_stg7_0 : Ref sig .tc := ⟨.vmem, 60, rfl⟩
abbrev cc4_stg7_1 : Ref sig .tc := ⟨.vmem, 61, rfl⟩
abbrev cc4_stg8_0 : Ref sig .tc := ⟨.vmem, 62, rfl⟩
abbrev cc4_stg8_1 : Ref sig .tc := ⟨.vmem, 63, rfl⟩
abbrev cc5_stg0_0 : Ref sig .tc := ⟨.vmem, 64, rfl⟩
abbrev cc5_stg0_1 : Ref sig .tc := ⟨.vmem, 65, rfl⟩
abbrev cc5_stg1_0 : Ref sig .tc := ⟨.vmem, 66, rfl⟩
abbrev cc5_stg1_1 : Ref sig .tc := ⟨.vmem, 67, rfl⟩
abbrev cc5_stg2_0 : Ref sig .tc := ⟨.vmem, 68, rfl⟩
abbrev cc5_stg2_1 : Ref sig .tc := ⟨.vmem, 69, rfl⟩
abbrev cc5_stg3_0 : Ref sig .tc := ⟨.vmem, 70, rfl⟩
abbrev cc5_stg4_0 : Ref sig .tc := ⟨.vmem, 71, rfl⟩
abbrev cc5_stg5_0 : Ref sig .tc := ⟨.vmem, 72, rfl⟩
abbrev cc5_stg6_0 : Ref sig .tc := ⟨.vmem, 73, rfl⟩
abbrev cc5_stg7_0 : Ref sig .tc := ⟨.vmem, 74, rfl⟩
abbrev cc5_stg7_1 : Ref sig .tc := ⟨.vmem, 75, rfl⟩
abbrev cc6_stg0_0 : Ref sig .tc := ⟨.vmem, 76, rfl⟩
abbrev cc6_stg0_1 : Ref sig .tc := ⟨.vmem, 77, rfl⟩
abbrev cc6_stg1_0 : Ref sig .tc := ⟨.vmem, 78, rfl⟩
abbrev cc6_stg1_1 : Ref sig .tc := ⟨.vmem, 79, rfl⟩
abbrev cc6_stg2_0 : Ref sig .tc := ⟨.vmem, 80, rfl⟩
abbrev cc6_stg2_1 : Ref sig .tc := ⟨.vmem, 81, rfl⟩
abbrev cc6_stg3_0 : Ref sig .tc := ⟨.vmem, 82, rfl⟩
abbrev cc6_stg4_0 : Ref sig .tc := ⟨.vmem, 83, rfl⟩
abbrev cc6_stg5_0 : Ref sig .tc := ⟨.vmem, 84, rfl⟩
abbrev cc6_stg6_0 : Ref sig .tc := ⟨.vmem, 85, rfl⟩
abbrev cc6_stg7_0 : Ref sig .tc := ⟨.vmem, 86, rfl⟩
abbrev cc6_stg7_1 : Ref sig .tc := ⟨.vmem, 87, rfl⟩
abbrev cc6_stg8_0 : Ref sig .tc := ⟨.vmem, 88, rfl⟩
abbrev cc6_stg8_1 : Ref sig .tc := ⟨.vmem, 89, rfl⟩
abbrev cc7_stg0_0 : Ref sig .tc := ⟨.vmem, 90, rfl⟩
abbrev cc7_stg0_1 : Ref sig .tc := ⟨.vmem, 91, rfl⟩
abbrev cc7_stg1_0 : Ref sig .tc := ⟨.vmem, 92, rfl⟩
abbrev cc7_stg1_1 : Ref sig .tc := ⟨.vmem, 93, rfl⟩
abbrev cc7_stg2_0 : Ref sig .tc := ⟨.vmem, 94, rfl⟩
abbrev cc7_stg2_1 : Ref sig .tc := ⟨.vmem, 95, rfl⟩
abbrev cc7_stg3_0 : Ref sig .tc := ⟨.vmem, 96, rfl⟩
abbrev cc7_stg4_0 : Ref sig .tc := ⟨.vmem, 97, rfl⟩
abbrev cc7_stg5_0 : Ref sig .tc := ⟨.vmem, 98, rfl⟩
abbrev cc7_stg6_0 : Ref sig .tc := ⟨.vmem, 99, rfl⟩
abbrev cc7_stg7_0 : Ref sig .tc := ⟨.vmem, 100, rfl⟩
abbrev cc7_stg7_1 : Ref sig .tc := ⟨.vmem, 101, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem4_0 : DmaSem sig := 19
abbrev cc1_sem5_0 : DmaSem sig := 20
abbrev cc1_sem6_0 : DmaSem sig := 21
abbrev cc1_sem7_0 : DmaSem sig := 22
abbrev cc1_sem7_1 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem2_1 : DmaSem sig := 29
abbrev cc2_sem3_0 : DmaSem sig := 30
abbrev cc2_sem4_0 : DmaSem sig := 31
abbrev cc2_sem5_0 : DmaSem sig := 32
abbrev cc2_sem6_0 : DmaSem sig := 33
abbrev cc2_sem7_0 : DmaSem sig := 34
abbrev cc2_sem7_1 : DmaSem sig := 35
abbrev cc2_sem8_0 : DmaSem sig := 36
abbrev cc2_sem8_1 : DmaSem sig := 37
abbrev cc3_sem0_0 : DmaSem sig := 38
abbrev cc3_sem0_1 : DmaSem sig := 39
abbrev cc3_sem1_0 : DmaSem sig := 40
abbrev cc3_sem1_1 : DmaSem sig := 41
abbrev cc3_sem2_0 : DmaSem sig := 42
abbrev cc3_sem2_1 : DmaSem sig := 43
abbrev cc3_sem3_0 : DmaSem sig := 44
abbrev cc3_sem4_0 : DmaSem sig := 45
abbrev cc3_sem5_0 : DmaSem sig := 46
abbrev cc3_sem6_0 : DmaSem sig := 47
abbrev cc3_sem7_0 : DmaSem sig := 48
abbrev cc3_sem7_1 : DmaSem sig := 49
abbrev cc4_sem0_0 : DmaSem sig := 50
abbrev cc4_sem0_1 : DmaSem sig := 51
abbrev cc4_sem1_0 : DmaSem sig := 52
abbrev cc4_sem1_1 : DmaSem sig := 53
abbrev cc4_sem2_0 : DmaSem sig := 54
abbrev cc4_sem2_1 : DmaSem sig := 55
abbrev cc4_sem3_0 : DmaSem sig := 56
abbrev cc4_sem4_0 : DmaSem sig := 57
abbrev cc4_sem5_0 : DmaSem sig := 58
abbrev cc4_sem6_0 : DmaSem sig := 59
abbrev cc4_sem7_0 : DmaSem sig := 60
abbrev cc4_sem7_1 : DmaSem sig := 61
abbrev cc4_sem8_0 : DmaSem sig := 62
abbrev cc4_sem8_1 : DmaSem sig := 63
abbrev cc5_sem0_0 : DmaSem sig := 64
abbrev cc5_sem0_1 : DmaSem sig := 65
abbrev cc5_sem1_0 : DmaSem sig := 66
abbrev cc5_sem1_1 : DmaSem sig := 67
abbrev cc5_sem2_0 : DmaSem sig := 68
abbrev cc5_sem2_1 : DmaSem sig := 69
abbrev cc5_sem3_0 : DmaSem sig := 70
abbrev cc5_sem4_0 : DmaSem sig := 71
abbrev cc5_sem5_0 : DmaSem sig := 72
abbrev cc5_sem6_0 : DmaSem sig := 73
abbrev cc5_sem7_0 : DmaSem sig := 74
abbrev cc5_sem7_1 : DmaSem sig := 75
abbrev cc6_sem0_0 : DmaSem sig := 76
abbrev cc6_sem0_1 : DmaSem sig := 77
abbrev cc6_sem1_0 : DmaSem sig := 78
abbrev cc6_sem1_1 : DmaSem sig := 79
abbrev cc6_sem2_0 : DmaSem sig := 80
abbrev cc6_sem2_1 : DmaSem sig := 81
abbrev cc6_sem3_0 : DmaSem sig := 82
abbrev cc6_sem4_0 : DmaSem sig := 83
abbrev cc6_sem5_0 : DmaSem sig := 84
abbrev cc6_sem6_0 : DmaSem sig := 85
abbrev cc6_sem7_0 : DmaSem sig := 86
abbrev cc6_sem7_1 : DmaSem sig := 87
abbrev cc6_sem8_0 : DmaSem sig := 88
abbrev cc6_sem8_1 : DmaSem sig := 89
abbrev cc7_sem0_0 : DmaSem sig := 90
abbrev cc7_sem0_1 : DmaSem sig := 91
abbrev cc7_sem1_0 : DmaSem sig := 92
abbrev cc7_sem1_1 : DmaSem sig := 93
abbrev cc7_sem2_0 : DmaSem sig := 94
abbrev cc7_sem2_1 : DmaSem sig := 95
abbrev cc7_sem3_0 : DmaSem sig := 96
abbrev cc7_sem4_0 : DmaSem sig := 97
abbrev cc7_sem5_0 : DmaSem sig := 98
abbrev cc7_sem6_0 : DmaSem sig := 99
abbrev cc7_sem7_0 : DmaSem sig := 100
abbrev cc7_sem7_1 : DmaSem sig := 101

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2000x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S2000x256 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S256x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S256x256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S256 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S2000x256 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S2000x256 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x1 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S256x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S256x256 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S256 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S2000x256 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_8 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x256 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S2000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S1x1 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S256x256 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S256x256 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S256 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 2 → Memref sig .tc .vmem S2000x256 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev stage4_8 : Fin 2 → Memref sig .tc .vmem S2000x256 .f32 := fun | 0 => Memref.whole cc4_stg8_0 | 1 => Memref.whole cc4_stg8_1 | ⟨_ + 2, h⟩ => absurd h (Nat.not_lt.2 (Nat.le_add_left _ _))
abbrev sem4_8 : Fin 2 → DmaSem sig := fun | 0 => cc4_sem8_0 | 1 => cc4_sem8_1 | ⟨_ + 2, h⟩ => absurd h (Nat.not_lt.2 (Nat.le_add_left _ _))
abbrev reads4_8 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_7 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x256 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x256 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S2000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x1 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S256x256 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S256x256 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S256 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 2 → Memref sig .tc .vmem S2000x256 .f32 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_7 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_8 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x256 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S2000x256 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S2000x1 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 1 → Memref sig .tc .vmem S1x1 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S256x256 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S256x256 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S256 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 2 → Memref sig .tc .vmem S2000x256 .f32 := fun | 0 => Memref.whole cc6_stg7_0 | 1 => Memref.whole cc6_stg7_1 | ⟨_ + 2, h⟩ => absurd h (Nat.not_lt.2 (Nat.le_add_left _ _))
abbrev sem6_7 : Fin 2 → DmaSem sig := fun | 0 => cc6_sem7_0 | 1 => cc6_sem7_1 | ⟨_ + 2, h⟩ => absurd h (Nat.not_lt.2 (Nat.le_add_left _ _))
abbrev reads6_7 : Fin grid6.rank → Bool := ![true]

abbrev stage6_8 : Fin 2 → Memref sig .tc .vmem S2000x256 .f32 := fun | 0 => Memref.whole cc6_stg8_0 | 1 => Memref.whole cc6_stg8_1 | ⟨_ + 2, h⟩ => absurd h (Nat.not_lt.2 (Nat.le_add_left _ _))
abbrev sem6_8 : Fin 2 → DmaSem sig := fun | 0 => cc6_sem8_0 | 1 => cc6_sem8_1 | ⟨_ + 2, h⟩ => absurd h (Nat.not_lt.2 (Nat.le_add_left _ _))
abbrev reads6_8 : Fin grid6.rank → Bool := ![true]

abbrev grid7 : Pipeline.Grid := ⟨1, ![25], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 1 → Nat :=
  let arg0 : BitVec 32 := BitVec.ofNat 32 (i 0).val
  let c0_i32 : BitVec 32 := 0#32
  let c0_i32_0 : BitVec 32 := 0#32
  ![c0_i32.toNat]

def cc7_transform_7 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S2000x256 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S2000x256 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S2000x1 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 1 → Memref sig .tc .vmem S1x1 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S256x3 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S256x3 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 1 → Memref sig .tc .vmem S3 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![false]

abbrev stage7_7 : Fin 2 → Memref sig .tc .vmem S2000x3 .f32 := fun | 0 => Memref.whole cc7_stg7_0 | 1 => Memref.whole cc7_stg7_1 | ⟨_ + 2, h⟩ => absurd h (Nat.not_lt.2 (Nat.le_add_left _ _))
abbrev sem7_7 : Fin 2 → DmaSem sig := fun | 0 => cc7_sem7_0 | 1 => cc7_sem7_1 | ⟨_ + 2, h⟩ => absurd h (Nat.not_lt.2 (Nat.le_add_left _ _))
abbrev reads7_7 : Fin grid7.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  reducesTo_S50000_S_d0 : S50000.ReducesTo [0] S_
  h_S_ : 0 < S_.numel
  shapeCasts_S50000_S50000x1 : S50000.ShapeCasts S50000x1
  shapeCasts_S_S1x1 : S_.ShapeCasts S1x1
  bcast_S_S50000x3 : S_.BroadcastsInDim S50000x3 (![] : Fin 0 → Fin S50000x3.rank)
  inb_S2000x3_S2000x3_0_0 : ∀ a, (![0, 0] : Fin 2 → Nat) a + S2000x3.size a ≤ S2000x3.size a
  h_S2000x3 : 0 < S2000x3.numel
  shapeCasts_S2000x3_S2000x3 : S2000x3.ShapeCasts S2000x3
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  broadcasts_S2000x1_S2000x3 : S2000x1.Broadcasts S2000x3
  bitsLt_bf16_f32 : FTy.bits .bf16 < FTy.bits .f32
  inb_S3x256_S3x256_0_0 : ∀ a, (![0, 0] : Fin 2 → Nat) a + S3x256.size a ≤ S3x256.size a
  h_S3x256 : 0 < S3x256.numel
  inb_S256_S256_0 : ∀ a, (![0] : Fin 1 → Nat) a + S256.size a ≤ S256.size a
  h_S256 : 0 < S256.numel
  shapeCasts_S256_S1x256 : S256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  slices_S6x256x256_S1x256x256_0_0_0 : S6x256x256.Slices ![0, 0, 0] S1x256x256
  shapeCasts_S1x256x256_S256x256 : S1x256x256.ShapeCasts S256x256
  slices_S6x256_S1x256_0_0 : S6x256.Slices ![0, 0] S1x256
  shapeCasts_S1x256_S256 : S1x256.ShapeCasts S256
  bcast_S_S50000x256 : S_.BroadcastsInDim S50000x256 (![] : Fin 0 → Fin S50000x256.rank)
  shapeCasts_S2000x256_S2000x256 : S2000x256.ShapeCasts S2000x256
  broadcasts_S2000x1_S2000x256 : S2000x1.Broadcasts S2000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  shapeCasts_S256_S256 : S256.ShapeCasts S256
  slices_S6x256x256_S1x256x256_1_0_0 : S6x256x256.Slices ![1, 0, 0] S1x256x256
  slices_S6x256_S1x256_1_0 : S6x256.Slices ![1, 0] S1x256
  slices_S6x256x256_S1x256x256_2_0_0 : S6x256x256.Slices ![2, 0, 0] S1x256x256
  slices_S6x256_S1x256_2_0 : S6x256.Slices ![2, 0] S1x256
  slices_S6x256x256_S1x256x256_3_0_0 : S6x256x256.Slices ![3, 0, 0] S1x256x256
  slices_S6x256_S1x256_3_0 : S6x256.Slices ![3, 0] S1x256
  slices_S6x256x256_S1x256x256_4_0_0 : S6x256x256.Slices ![4, 0, 0] S1x256x256
  slices_S6x256_S1x256_4_0 : S6x256.Slices ![4, 0] S1x256
  slices_S6x256x256_S1x256x256_5_0_0 : S6x256x256.Slices ![5, 0, 0] S1x256x256
  slices_S6x256_S1x256_5_0 : S6x256.Slices ![5, 0] S1x256
  inb_S256x3_S256x3_0_0 : ∀ a, (![0, 0] : Fin 2 → Nat) a + S256x3.size a ≤ S256x3.size a
  h_S256x3 : 0 < S256x3.numel
  inb_S3_S3_0 : ∀ a, (![0] : Fin 1 → Nat) a + S3.size a ≤ S3.size a
  h_S3 : 0 < S3.numel
  shapeCasts_S3_S1x3 : S3.ShapeCasts S1x3
  broadcasts_S1x3_S2000x3 : S1x3.Broadcasts S2000x3
  scatter_S50000_S800000x1_S800000_n_0_0_1_wf : ScatterDims.WF S50000 S800000x1 S800000 [] [0] [0] 1
  gather_S50000x3_S800000x1_S800000x3_1_0_n_n_0_1_13_wf : GatherDims.WF S50000x3 S800000x1 S800000x3 [1] [0] [] [0] [] 1 ![1, 3]
  scatter_S50000x3_S800000x1_S800000x3_1_0_0_1_wf : ScatterDims.WF S50000x3 S800000x1 S800000x3 [1] [0] [0] 1
  dot_S2000x3_S3x256_S2000x256_1_0_0_1_n_n_wf : DotDims.WF S2000x3 S3x256 S2000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x256_S256x256_S2000x256_1_0_0_1_n_n_wf : DotDims.WF S2000x256 S256x256 S2000x256 [1] [0] [0] [1] [] []
  dot_S2000x256_S256x3_S2000x3_1_0_0_1_n_n_wf : DotDims.WF S2000x256 S256x3 S2000x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x3.size a ≤ S50000x3.size a
  hwx0_0 : ∀ i : grid0.Coords, EltTy.bits .f32 = 32 ∨ (Rect.block (s := S50000x3) S2000x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x3.size a ≤ S50000x3.size a
  hwx0_1 : ∀ i : grid0.Coords, EltTy.bits .f32 = 32 ∨ (Rect.block (s := S50000x3) S2000x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S50000x1.size a
  hwx0_2 : ∀ i : grid0.Coords, EltTy.bits .f32 = 32 ∨ (Rect.block (s := S50000x1) S2000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S3x256.size a ≤ S3x256.size a
  hwx0_4 : ∀ i : grid0.Coords, EltTy.bits .f32 = 32 ∨ (Rect.block (s := S3x256) S3x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S3x256.size a ≤ S3x256.size a
  hwx0_5 : ∀ i : grid0.Coords, EltTy.bits .f32 = 32 ∨ (Rect.block (s := S3x256) S3x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256.size a ≤ S256.size a
  hwx0_6 : ∀ i : grid0.Coords, EltTy.bits .f32 = 32 ∨ (Rect.block (s := S256) S256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2000x256.size a ≤ S50000x256.size a
  hwx0_7 : ∀ i : grid0.Coords, EltTy.bits .f32 = 32 ∨ (Rect.block (s := S50000x256) S2000x256.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S50000x256.size a
  hwx1_1 : ∀ i : grid1.Coords, EltTy.bits .f32 = 32 ∨ (Rect.block (s := S50000x256) S2000x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S50000x1.size a
  hwx1_2 : ∀ i : grid1.Coords, EltTy.bits .f32 = 32 ∨ (Rect.block (s := S50000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1.size a ≤ S1x1.size a
  hwx1_3 : ∀ i : grid1.Coords, EltTy.bits .f32 = 32 ∨ (Rect.block (s := S1x1) S1x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x256.size a ≤ S256x256.size a
  hwx1_4 : ∀ i : grid1.Coords, EltTy.bits .f32 = 32 ∨ (Rect.block (s := S256x256) S256x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256x256.size a ≤ S256x256.size a
  hwx1_5 : ∀ i : grid1.Coords, EltTy.bits .f32 = 32 ∨ (Rect.block (s := S256x256) S256x256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S256.size a ≤ S256.size a
  hwx1_6 : ∀ i : grid1.Coords, EltTy.bits .f32 = 32 ∨ (Rect.block (s := S256) S256.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2000x256.size a ≤ S50000x256.size a
  hwx1_7 : ∀ i : grid1.Coords, EltTy.bits .f32 = 32 ∨ (Rect.block (s := S50000x256) S2000x256.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x256.size a ≤ S50000x256.size a
  hwx2_1 : ∀ i : grid2.Coords, EltTy.bits .f32 = 32 ∨ (Rect.block (s := S50000x256) S2000x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x1.size a ≤ S50000x1.size a
  hwx2_2 : ∀ i : grid2.Coords, EltTy.bits .f32 = 32 ∨ (Rect.block (s := S50000x1) S2000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x1.size a ≤ S1x1.size a
  hwx2_3 : ∀ i : grid2.Coords, EltTy.bits .f32 = 32 ∨ (Rect.block (s := S1x1) S1x1.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S256x256.size a ≤ S256x256.size a
  hwx2_4 : ∀ i : grid2.Coords, EltTy.bits .f32 = 32 ∨ (Rect.block (s := S256x256) S256x256.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S256x256.size a ≤ S256x256.size a
  hwx2_5 : ∀ i : grid2.Coords, EltTy.bits .f32 = 32 ∨ (Rect.block (s := S256x256) S256x256.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S256.size a ≤ S256.size a
  hwx2_6 : ∀ i : grid2.Coords, EltTy.bits .f32 = 32 ∨ (Rect.block (s := S256) S256.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S2000x256.size a ≤ S50000x256.size a
  hwx2_7 : ∀ i : grid2.Coords, EltTy.bits .f32 = 32 ∨ (Rect.block (s := S50000x256) S2000x256.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S2000x256.size a ≤ S50000x256.size a
  hwx2_8 : ∀ i : grid2.Coords, EltTy.bits .f32 = 32 ∨ (Rect.block (s := S50000x256) S2000x256.size (cc2_transform_8 i) (hinb2_8 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S50000x256.size a
  hwx3_0 : ∀ i : grid3.Coords, EltTy.bits .f32 = 32 ∨ (Rect.block (s := S50000x256) S2000x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x256.size a ≤ S50000x256.size a
  hwx3_1 : ∀ i : grid3.Coords, EltTy.bits .f32 = 32 ∨ (Rect.block (s := S50000x256) S2000x256.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x1.size a ≤ S50000x1.size a
  hwx3_2 : ∀ i : grid3.Coords, EltTy.bits .f32 = 32 ∨ (Rect.block (s := S50000x1) S2000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x1.size a ≤ S1x1.size a
  hwx3_3 : ∀ i : grid3.Coords, EltTy.bits .f32 = 32 ∨ (Rect.block (s := S1x1) S1x1.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S256x256.size a ≤ S256x256.size a
  hwx3_4 : ∀ i : grid3.Coords, EltTy.bits .f32 = 32 ∨ (Rect.block (s := S256x256) S256x256.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S256x256.size a ≤ S256x256.size a
  hwx3_5 : ∀ i : grid3.Coords, EltTy.bits .f32 = 32 ∨ (Rect.block (s := S256x256) S256x256.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S256.size a ≤ S256.size a
  hwx3_6 : ∀ i : grid3.Coords, EltTy.bits .f32 = 32 ∨ (Rect.block (s := S256) S256.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S2000x256.size a ≤ S50000x256.size a
  hwx3_7 : ∀ i : grid3.Coords, EltTy.bits .f32 = 32 ∨ (Rect.block (s := S50000x256) S2000x256.size (cc3_transform_7 i) (hinb3_7 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x256.size a ≤ S50000x256.size a
  hwx4_0 : ∀ i : grid4.Coords, EltTy.bits .f32 = 32 ∨ (Rect.block (s := S50000x256) S2000x256.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x256.size a ≤ S50000x256.size a
  hwx4_1 : ∀ i : grid4.Coords, EltTy.bits .f32 = 32 ∨ (Rect.block (s := S50000x256) S2000x256.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x1.size a ≤ S50000x1.size a
  hwx4_2 : ∀ i : grid4.Coords, EltTy.bits .f32 = 32 ∨ (Rect.block (s := S50000x1) S2000x1.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x1.size a ≤ S1x1.size a
  hwx4_3 : ∀ i : grid4.Coords, EltTy.bits .f32 = 32 ∨ (Rect.block (s := S1x1) S1x1.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S256x256.size a ≤ S256x256.size a
  hwx4_4 : ∀ i : grid4.Coords, EltTy.bits .f32 = 32 ∨ (Rect.block (s := S256x256) S256x256.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S256x256.size a ≤ S256x256.size a
  hwx4_5 : ∀ i : grid4.Coords, EltTy.bits .f32 = 32 ∨ (Rect.block (s := S256x256) S256x256.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S256.size a ≤ S256.size a
  hwx4_6 : ∀ i : grid4.Coords, EltTy.bits .f32 = 32 ∨ (Rect.block (s := S256) S256.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S2000x256.size a ≤ S50000x256.size a
  hwx4_7 : ∀ i : grid4.Coords, EltTy.bits .f32 = 32 ∨ (Rect.block (s := S50000x256) S2000x256.size (cc4_transform_7 i) (hinb4_7 i)).WholeWords (EltTy.packing .f32)
  hstage4_8 : ∀ j, (stage4_8 j).IsWhole
  nbuf4_8 : grid4.bufCount reads4_8 false = 2
  hreads4_8 : ∀ i i' : grid4.Coords, (∀ a, reads4_8 a = true → i a = i' a) → cc4_transform_8 i = cc4_transform_8 i'
  hinb4_8 : ∀ (i : grid4.Coords) a, (cc4_transform_8 i a + 1) * S2000x256.size a ≤ S50000x256.size a
  hwx4_8 : ∀ i : grid4.Coords, EltTy.bits .f32 = 32 ∨ (Rect.block (s := S50000x256) S2000x256.size (cc4_transform_8 i) (hinb4_8 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x256.size a ≤ S50000x256.size a
  hwx5_0 : ∀ i : grid5.Coords, EltTy.bits .f32 = 32 ∨ (Rect.block (s := S50000x256) S2000x256.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x256.size a ≤ S50000x256.size a
  hwx5_1 : ∀ i : grid5.Coords, EltTy.bits .f32 = 32 ∨ (Rect.block (s := S50000x256) S2000x256.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x1.size a ≤ S50000x1.size a
  hwx5_2 : ∀ i : grid5.Coords, EltTy.bits .f32 = 32 ∨ (Rect.block (s := S50000x1) S2000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x1.size a ≤ S1x1.size a
  hwx5_3 : ∀ i : grid5.Coords, EltTy.bits .f32 = 32 ∨ (Rect.block (s := S1x1) S1x1.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S256x256.size a ≤ S256x256.size a
  hwx5_4 : ∀ i : grid5.Coords, EltTy.bits .f32 = 32 ∨ (Rect.block (s := S256x256) S256x256.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S256x256.size a ≤ S256x256.size a
  hwx5_5 : ∀ i : grid5.Coords, EltTy.bits .f32 = 32 ∨ (Rect.block (s := S256x256) S256x256.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S256.size a ≤ S256.size a
  hwx5_6 : ∀ i : grid5.Coords, EltTy.bits .f32 = 32 ∨ (Rect.block (s := S256) S256.size (cc5_transform_6 i) (hinb5_6 i)).WholeWords (EltTy.packing .f32)
  hstage5_7 : ∀ j, (stage5_7 j).IsWhole
  nbuf5_7 : grid5.bufCount reads5_7 false = 2
  hreads5_7 : ∀ i i' : grid5.Coords, (∀ a, reads5_7 a = true → i a = i' a) → cc5_transform_7 i = cc5_transform_7 i'
  hinb5_7 : ∀ (i : grid5.Coords) a, (cc5_transform_7 i a + 1) * S2000x256.size a ≤ S50000x256.size a
  hwx5_7 : ∀ i : grid5.Coords, EltTy.bits .f32 = 32 ∨ (Rect.block (s := S50000x256) S2000x256.size (cc5_transform_7 i) (hinb5_7 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x256.size a ≤ S50000x256.size a
  hwx6_0 : ∀ i : grid6.Coords, EltTy.bits .f32 = 32 ∨ (Rect.block (s := S50000x256) S2000x256.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S2000x256.size a ≤ S50000x256.size a
  hwx6_1 : ∀ i : grid6.Coords, EltTy.bits .f32 = 32 ∨ (Rect.block (s := S50000x256) S2000x256.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S2000x1.size a ≤ S50000x1.size a
  hwx6_2 : ∀ i : grid6.Coords, EltTy.bits .f32 = 32 ∨ (Rect.block (s := S50000x1) S2000x1.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x1.size a ≤ S1x1.size a
  hwx6_3 : ∀ i : grid6.Coords, EltTy.bits .f32 = 32 ∨ (Rect.block (s := S1x1) S1x1.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S256x256.size a ≤ S256x256.size a
  hwx6_4 : ∀ i : grid6.Coords, EltTy.bits .f32 = 32 ∨ (Rect.block (s := S256x256) S256x256.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S256x256.size a ≤ S256x256.size a
  hwx6_5 : ∀ i : grid6.Coords, EltTy.bits .f32 = 32 ∨ (Rect.block (s := S256x256) S256x256.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S256.size a ≤ S256.size a
  hwx6_6 : ∀ i : grid6.Coords, EltTy.bits .f32 = 32 ∨ (Rect.block (s := S256) S256.size (cc6_transform_6 i) (hinb6_6 i)).WholeWords (EltTy.packing .f32)
  hstage6_7 : ∀ j, (stage6_7 j).IsWhole
  nbuf6_7 : grid6.bufCount reads6_7 false = 2
  hreads6_7 : ∀ i i' : grid6.Coords, (∀ a, reads6_7 a = true → i a = i' a) → cc6_transform_7 i = cc6_transform_7 i'
  hinb6_7 : ∀ (i : grid6.Coords) a, (cc6_transform_7 i a + 1) * S2000x256.size a ≤ S50000x256.size a
  hwx6_7 : ∀ i : grid6.Coords, EltTy.bits .f32 = 32 ∨ (Rect.block (s := S50000x256) S2000x256.size (cc6_transform_7 i) (hinb6_7 i)).WholeWords (EltTy.packing .f32)
  hstage6_8 : ∀ j, (stage6_8 j).IsWhole
  nbuf6_8 : grid6.bufCount reads6_8 false = 2
  hreads6_8 : ∀ i i' : grid6.Coords, (∀ a, reads6_8 a = true → i a = i' a) → cc6_transform_8 i = cc6_transform_8 i'
  hinb6_8 : ∀ (i : grid6.Coords) a, (cc6_transform_8 i a + 1) * S2000x256.size a ≤ S50000x256.size a
  hwx6_8 : ∀ i : grid6.Coords, EltTy.bits .f32 = 32 ∨ (Rect.block (s := S50000x256) S2000x256.size (cc6_transform_8 i) (hinb6_8 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x256.size a ≤ S50000x256.size a
  hwx7_0 : ∀ i : grid7.Coords, EltTy.bits .f32 = 32 ∨ (Rect.block (s := S50000x256) S2000x256.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S2000x256.size a ≤ S50000x256.size a
  hwx7_1 : ∀ i : grid7.Coords, EltTy.bits .f32 = 32 ∨ (Rect.block (s := S50000x256) S2000x256.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S2000x1.size a ≤ S50000x1.size a
  hwx7_2 : ∀ i : grid7.Coords, EltTy.bits .f32 = 32 ∨ (Rect.block (s := S50000x1) S2000x1.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x1.size a ≤ S1x1.size a
  hwx7_3 : ∀ i : grid7.Coords, EltTy.bits .f32 = 32 ∨ (Rect.block (s := S1x1) S1x1.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S256x3.size a ≤ S256x3.size a
  hwx7_4 : ∀ i : grid7.Coords, EltTy.bits .f32 = 32 ∨ (Rect.block (s := S256x3) S256x3.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S256x3.size a ≤ S256x3.size a
  hwx7_5 : ∀ i : grid7.Coords, EltTy.bits .f32 = 32 ∨ (Rect.block (s := S256x3) S256x3.size (cc7_transform_5 i) (hinb7_5 i)).WholeWords (EltTy.packing .f32)
  hstage7_6 : ∀ j, (stage7_6 j).IsWhole
  nbuf7_6 : grid7.bufCount reads7_6 true = 1
  hreads7_6 : ∀ i i' : grid7.Coords, (∀ a, reads7_6 a = true → i a = i' a) → cc7_transform_6 i = cc7_transform_6 i'
  hinb7_6 : ∀ (i : grid7.Coords) a, (cc7_transform_6 i a + 1) * S3.size a ≤ S3.size a
  hwx7_6 : ∀ i : grid7.Coords, EltTy.bits .f32 = 32 ∨ (Rect.block (s := S3) S3.size (cc7_transform_6 i) (hinb7_6 i)).WholeWords (EltTy.packing .f32)
  hstage7_7 : ∀ j, (stage7_7 j).IsWhole
  nbuf7_7 : grid7.bufCount reads7_7 false = 2
  hreads7_7 : ∀ i i' : grid7.Coords, (∀ a, reads7_7 a = true → i a = i' a) → cc7_transform_7 i = cc7_transform_7 i'
  hinb7_7 : ∀ (i : grid7.Coords) a, (cc7_transform_7 i a + 1) * S2000x3.size a ≤ S50000x3.size a
  hwx7_7 : ∀ i : grid7.Coords, EltTy.bits .f32 = 32 ∨ (Rect.block (s := S50000x3) S2000x3.size (cc7_transform_7 i) (hinb7_7 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x3_S800000x1_S800000x3_1_0_n_n_0_1_13 : GatherDims S50000x3 S800000x1 S800000x3 where
  offsetDims := [1]
  collapsedSliceDims := [0]
  operandBatchingDims := []
  startIndicesBatchingDims := []
  startIndexMap := [0]
  indexVectorDim := 1
  sliceSizes := ![1, 3]
  wf := gather_S50000x3_S800000x1_S800000x3_1_0_n_n_0_1_13_wf
def scatter_S50000x3_S800000x1_S800000x3_1_0_0_1 : ScatterDims S50000x3 S800000x1 S800000x3 where
  updateWindowDims := [1]
  insertedWindowDims := [0]
  scatterDimsToOperandDims := [0]
  indexVectorDim := 1
  wf := scatter_S50000x3_S800000x1_S800000x3_1_0_0_1_wf
def dot_S2000x3_S3x256_S2000x256_1_0_0_1_n_n : DotDims S2000x3 S3x256 S2000x256 where
  lhsContracting := [1]
  rhsContracting := [0]
  lhsNonContracting := [0]
  rhsNonContracting := [1]
  lhsBatch := []
  rhsBatch := []
  wf := dot_S2000x3_S3x256_S2000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S2000x256_S256x3_S2000x3_1_0_0_1_n_n : DotDims S2000x256 S256x3 S2000x3 where
  lhsContracting := [1]
  rhsContracting := [0]
  lhsNonContracting := [0]
  rhsNonContracting := [1]
  lhsBatch := []
  rhsBatch := []
  wf := dot_S2000x256_S256x3_S2000x3_1_0_0_1_n_n_wf

abbrev win0_0 : Pipeline.Window sig grid0 :=
  Pipeline.Window.ofSpec (Memref.whole main_arg0) S2000x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v27) S2000x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v17) S1x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S3x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg3) S3x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg4) S256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v28) S2000x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v28) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v15) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v17) S1x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v30) S256x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v32) S256x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v34) S256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v45) S2000x256.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v45) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v61) S2000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v15) S2000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v17) S1x1.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v47) S256x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v49) S256x256.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v51) S256.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v28) S2000x256.size cc2_transform_7 reads2_7 false false 2 stage2_7 sem2_7
    hrank2 hreads2_7 hinb2_7 nbuf2_7 (Memref.isWhole_whole _) hwx2_7 hstage2_7

abbrev win2_8 : Pipeline.Window sig grid2 :=
  Pipeline.Window.ofSpec (Memref.whole main_v62) S2000x256.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

abbrev win3_0 : Pipeline.Window sig grid3 :=
  Pipeline.Window.ofSpec (Memref.whole main_v62) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v78) S2000x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v15) S2000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v17) S1x1.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v64) S256x256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v66) S256x256.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v68) S256.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v79) S2000x256.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

abbrev win4_0 : Pipeline.Window sig grid4 :=
  Pipeline.Window.ofSpec (Memref.whole main_v79) S2000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v95) S2000x256.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v15) S2000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v17) S1x1.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v81) S256x256.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v83) S256x256.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v85) S256.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v62) S2000x256.size cc4_transform_7 reads4_7 false false 2 stage4_7 sem4_7
    hrank4 hreads4_7 hinb4_7 nbuf4_7 (Memref.isWhole_whole _) hwx4_7 hstage4_7

abbrev win4_8 : Pipeline.Window sig grid4 :=
  Pipeline.Window.ofSpec (Memref.whole main_v96) S2000x256.size cc4_transform_8 reads4_8 true false 2 stage4_8 sem4_8
    hrank4 hreads4_8 hinb4_8 nbuf4_8 (Memref.isWhole_whole _) hwx4_8 hstage4_8

abbrev win4 : Fin 9 → Pipeline.Window sig grid4 := fun | 0 => win4_0 | 1 => win4_1 | 2 => win4_2 | 3 => win4_3 | 4 => win4_4 | 5 => win4_5 | 6 => win4_6 | 7 => win4_7 | 8 => win4_8 | ⟨_ + 9, h⟩ => absurd h (Nat.not_lt.2 (Nat.le_add_left _ _))
abbrev spec4 : Fin 9 → Pipeline.WinSpec sig grid4.rank := fun w => (win4 w).toWinSpec

abbrev win5_0 : Pipeline.Window sig grid5 :=
  Pipeline.Window.ofSpec (Memref.whole main_v96) S2000x256.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v112) S2000x256.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v15) S2000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v17) S1x1.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v98) S256x256.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v100) S256x256.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v102) S256.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v113) S2000x256.size cc5_transform_7 reads5_7 true false 2 stage5_7 sem5_7
    hrank5 hreads5_7 hinb5_7 nbuf5_7 (Memref.isWhole_whole _) hwx5_7 hstage5_7

abbrev win5 : Fin 8 → Pipeline.Window sig grid5 := fun | 0 => win5_0 | 1 => win5_1 | 2 => win5_2 | 3 => win5_3 | 4 => win5_4 | 5 => win5_5 | 6 => win5_6 | 7 => win5_7 | ⟨_ + 8, h⟩ => absurd h (Nat.not_lt.2 (Nat.le_add_left _ _))
abbrev spec5 : Fin 8 → Pipeline.WinSpec sig grid5.rank := fun w => (win5 w).toWinSpec

abbrev win6_0 : Pipeline.Window sig grid6 :=
  Pipeline.Window.ofSpec (Memref.whole main_v113) S2000x256.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v129) S2000x256.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v15) S2000x1.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v17) S1x1.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v115) S256x256.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v117) S256x256.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v119) S256.size cc6_transform_6 reads6_6 false true 1 stage6_6 sem6_6
    hrank6 hreads6_6 hinb6_6 nbuf6_6 (Memref.isWhole_whole _) hwx6_6 hstage6_6

abbrev win6_7 : Pipeline.Window sig grid6 :=
  Pipeline.Window.ofSpec (Memref.whole main_v96) S2000x256.size cc6_transform_7 reads6_7 false false 2 stage6_7 sem6_7
    hrank6 hreads6_7 hinb6_7 nbuf6_7 (Memref.isWhole_whole _) hwx6_7 hstage6_7

abbrev win6_8 : Pipeline.Window sig grid6 :=
  Pipeline.Window.ofSpec (Memref.whole main_v130) S2000x256.size cc6_transform_8 reads6_8 true false 2 stage6_8 sem6_8
    hrank6 hreads6_8 hinb6_8 nbuf6_8 (Memref.isWhole_whole _) hwx6_8 hstage6_8

abbrev win6 : Fin 9 → Pipeline.Window sig grid6 := fun | 0 => win6_0 | 1 => win6_1 | 2 => win6_2 | 3 => win6_3 | 4 => win6_4 | 5 => win6_5 | 6 => win6_6 | 7 => win6_7 | 8 => win6_8 | ⟨_ + 9, h⟩ => absurd h (Nat.not_lt.2 (Nat.le_add_left _ _))
abbrev spec6 : Fin 9 → Pipeline.WinSpec sig grid6.rank := fun w => (win6 w).toWinSpec

abbrev win7_0 : Pipeline.Window sig grid7 :=
  Pipeline.Window.ofSpec (Memref.whole main_v130) S2000x256.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v140) S2000x256.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v15) S2000x1.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v17) S1x1.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_arg8) S256x3.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_arg9) S256x3.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_arg10) S3.size cc7_transform_6 reads7_6 false true 1 stage7_6 sem7_6
    hrank7 hreads7_6 hinb7_6 nbuf7_6 (Memref.isWhole_whole _) hwx7_6 hstage7_6

abbrev win7_7 : Pipeline.Window sig grid7 :=
  Pipeline.Window.ofSpec (Memref.whole main_v141) S2000x3.size cc7_transform_7 reads7_7 true false 2 stage7_7 sem7_7
    hrank7 hreads7_7 hinb7_7 nbuf7_7 (Memref.isWhole_whole _) hwx7_7 hstage7_7

abbrev win7 : Fin 8 → Pipeline.Window sig grid7 := fun | 0 => win7_0 | 1 => win7_1 | 2 => win7_2 | 3 => win7_3 | 4 => win7_4 | 5 => win7_5 | 6 => win7_6 | 7 => win7_7 | ⟨_ + 8, h⟩ => absurd h (Nat.not_lt.2 (Nat.le_add_left _ _))
abbrev spec7 : Fin 8 → Pipeline.WinSpec sig grid7.rank := fun w => (win7 w).toWinSpec

class Facts : Prop extends Facts₀ where

variable [Facts]
-- ==== ReferenceIdeal.lean ====
abbrev S50000x3 : Shape := ⟨2, ![50000, 3]⟩
abbrev S2x800000 : Shape := ⟨2, ![2, 800000]⟩
abbrev S3x256 : Shape := ⟨2, ![3, 256]⟩
abbrev S256 : Shape := ⟨1, ![256]⟩
abbrev S6x256x256 : Shape := ⟨3, ![6, 256, 256]⟩
abbrev S6x256 : Shape := ⟨2, ![6, 256]⟩
abbrev S256x3 : Shape := ⟨2, ![256, 3]⟩
abbrev S3 : Shape := ⟨1, ![3]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x3 : Shape := ⟨2, ![800000, 3]⟩
abbrev S50000x1 : Shape := ⟨2, ![50000, 1]⟩
abbrev S50000x256 : Shape := ⟨2, ![50000, 256]⟩
abbrev S1x256 : Shape := ⟨2, ![1, 256]⟩
abbrev S1x256x256 : Shape := ⟨3, ![1, 256, 256]⟩
abbrev S256x256 : Shape := ⟨2, ![256, 256]⟩
abbrev S800000x256 : Shape := ⟨2, ![800000, 256]⟩
abbrev S1x3 : Shape := ⟨2, ![1, 3]⟩

abbrev nBuf : Space → Nat
  | .hbm => 302
  | .vmem => 0
  | .smem => 0
  | _ => 0

abbrev hbmTy0_0 (i : Nat) : BufTy := match i % 128 with
  | 0 => ⟨S50000x3, .f32⟩
  | 1 => ⟨S2x800000, .i32⟩
  | 2 => ⟨S3x256, .f32⟩
  | 3 => ⟨S3x256, .f32⟩
  | 4 => ⟨S256, .f32⟩
  | 5 => ⟨S6x256x256, .f32⟩
  | 6 => ⟨S6x256x256, .f32⟩
  | 7 => ⟨S6x256, .f32⟩
  | 8 => ⟨S256x3, .f32⟩
  | 9 => ⟨S256x3, .f32⟩
  | 10 => ⟨S3, .f32⟩
  | 11 => ⟨S1x800000, .i32⟩
  | 12 => ⟨S800000, .i32⟩
  | 13 => ⟨S1x800000, .i32⟩
  | 14 => ⟨S800000, .i32⟩
  | 15 => ⟨S_, .f32⟩
  | 16 => ⟨S800000, .f32⟩
  | 17 => ⟨S_, .f32⟩
  | 18 => ⟨S50000, .f32⟩
  | 19 => ⟨S800000x1, .i32⟩
  | 20 => ⟨S50000, .f32⟩
  | 21 => ⟨S_, .f32⟩
  | 22 => ⟨S_, .f32⟩
  | 23 => ⟨S_, .f32⟩
  | 24 => ⟨S_, .f32⟩
  | 25 => ⟨S_, .f32⟩
  | 26 => ⟨S_, .f32⟩
  | 27 => ⟨S50000, .f32⟩
  | 28 => ⟨S50000, .f32⟩
  | 29 => ⟨S_, .f32⟩
  | 30 => ⟨S50000, .f32⟩
  | 31 => ⟨S50000, .f32⟩
  | 32 => ⟨S_, .f32⟩
  | 33 => ⟨S_, .i32⟩
  | 34 => ⟨S800000, .i32⟩
  | 35 => ⟨S800000, .i1⟩
  | 36 => ⟨S_, .i32⟩
  | 37 => ⟨S800000, .i32⟩
  | 38 => ⟨S800000, .i32⟩
  | 39 => ⟨S800000, .i32⟩
  | 40 => ⟨S800000x1, .i32⟩
  | 41 => ⟨S800000x3, .f32⟩
  | 42 => ⟨S_, .f32⟩
  | 43 => ⟨S50000x3, .f32⟩
  | 44 => ⟨S800000x1, .i32⟩
  | 45 => ⟨S50000x3, .f32⟩
  | 46 => ⟨S50000x3, .f32⟩
  | 47 => ⟨S50000x3, .f32⟩
  | 48 => ⟨S50000x1, .f32⟩
  | 49 => ⟨S50000x3, .f32⟩
  | 50 => ⟨S50000x3, .f32⟩
  | 51 => ⟨S50000x3, .f32⟩
  | 52 => ⟨S50000x256, .f32⟩
  | 53 => ⟨S50000x256, .f32⟩
  | 54 => ⟨S50000x256, .f32⟩
  | 55 => ⟨S1x256, .f32⟩
  | 56 => ⟨S50000x256, .f32⟩
  | 57 => ⟨S50000x256, .f32⟩
  | 58 => ⟨S_, .f32⟩
  | 59 => ⟨S50000x256, .f32⟩
  | 60 => ⟨S50000x256, .f32⟩
  | 61 => ⟨S1x256x256, .f32⟩
  | 62 => ⟨S256x256, .f32⟩
  | 63 => ⟨S1x256x256, .f32⟩
  | 64 => ⟨S256x256, .f32⟩
  | 65 => ⟨S1x256, .f32⟩
  | 66 => ⟨S256, .f32⟩
  | 67 => ⟨S_, .i32⟩
  | 68 => ⟨S800000, .i32⟩
  | 69 => ⟨S800000, .i1⟩
  | 70 => ⟨S_, .i32⟩
  | 71 => ⟨S800000, .i32⟩
  | 72 => ⟨S800000, .i32⟩
  | 73 => ⟨S800000, .i32⟩
  | 74 => ⟨S800000x1, .i32⟩
  | 75 => ⟨S800000x256, .f32⟩
  | 76 => ⟨S_, .f32⟩
  | 77 => ⟨S50000x256, .f32⟩
  | 78 => ⟨S800000x1, .i32⟩
  | 79 => ⟨S50000x256, .f32⟩
  | 80 => ⟨S50000x256, .f32⟩
  | 81 => ⟨S50000x256, .f32⟩
  | 82 => ⟨S50000x1, .f32⟩
  | 83 => ⟨S50000x256, .f32⟩
  | 84 => ⟨S50000x256, .f32⟩
  | 85 => ⟨S50000x256, .f32⟩
  | 86 => ⟨S50000x256, .f32⟩
  | 87 => ⟨S50000x256, .f32⟩
  | 88 => ⟨S50000x256, .f32⟩
  | 89 => ⟨S1x256, .f32⟩
  | 90 => ⟨S50000x256, .f32⟩
  | 91 => ⟨S50000x256, .f32⟩
  | 92 => ⟨S_, .f32⟩
  | 93 => ⟨S50000x256, .f32⟩
  | 94 => ⟨S50000x256, .f32⟩
  | 95 => ⟨S1x256x256, .f32⟩
  | 96 => ⟨S256x256, .f32⟩
  | 97 => ⟨S1x256x256, .f32⟩
  | 98 => ⟨S256x256, .f32⟩
  | 99 => ⟨S1x256, .f32⟩
  | 100 => ⟨S256, .f32⟩
  | 101 => ⟨S_, .i32⟩
  | 102 => ⟨S800000, .i32⟩
  | 103 => ⟨S800000, .i1⟩
  | 104 => ⟨S_, .i32⟩
  | 105 => ⟨S800000, .i32⟩
  | 106 => ⟨S800000, .i32⟩
  | 107 => ⟨S800000, .i32⟩
  | 108 => ⟨S800000x1, .i32⟩
  | 109 => ⟨S800000x256, .f32⟩
  | 110 => ⟨S_, .f32⟩
  | 111 => ⟨S50000x256, .f32⟩
  | 112 => ⟨S800000x1, .i32⟩
  | 113 => ⟨S50000x256, .f32⟩
  | 114 => ⟨S50000x256, .f32⟩
  | 115 => ⟨S50000x256, .f32⟩
  | 116 => ⟨S50000x1, .f32⟩
  | 117 => ⟨S50000x256, .f32⟩
  | 118 => ⟨S50000x256, .f32⟩
  | 119 => ⟨S50000x256, .f32⟩
  | 120 => ⟨S50000x256, .f32⟩
  | 121 => ⟨S50000x256, .f32⟩
  | 122 => ⟨S50000x256, .f32⟩
  | 123 => ⟨S1x256, .f32⟩
  | 124 => ⟨S50000x256, .f32⟩
  | 125 => ⟨S50000x256, .f32⟩
  | 126 => ⟨S_, .f32⟩
  | 127 => ⟨S50000x256, .f32⟩
  | _ => ⟨S50000x3, .f32⟩

abbrev hbmTy0_1 (i : Nat) : BufTy := match i % 128 with
  | 0 => ⟨S50000x256, .f32⟩
  | 1 => ⟨S50000x256, .f32⟩
  | 2 => ⟨S_, .f32⟩
  | 3 => ⟨S50000x256, .f32⟩
  | 4 => ⟨S50000x256, .f32⟩
  | 5 => ⟨S1x256x256, .f32⟩
  | 6 => ⟨S256x256, .f32⟩
  | 7 => ⟨S1x256x256, .f32⟩
  | 8 => ⟨S256x256, .f32⟩
  | 9 => ⟨S1x256, .f32⟩
  | 10 => ⟨S256, .f32⟩
  | 11 => ⟨S_, .i32⟩
  | 12 => ⟨S800000, .i32⟩
  | 13 => ⟨S800000, .i1⟩
  | 14 => ⟨S_, .i32⟩
  | 15 => ⟨S800000, .i32⟩
  | 16 => ⟨S800000, .i32⟩
  | 17 => ⟨S800000, .i32⟩
  | 18 => ⟨S800000x1, .i32⟩
  | 19 => ⟨S800000x256, .f32⟩
  | 20 => ⟨S_, .f32⟩
  | 21 => ⟨S50000x256, .f32⟩
  | 22 => ⟨S800000x1, .i32⟩
  | 23 => ⟨S50000x256, .f32⟩
  | 24 => ⟨S50000x256, .f32⟩
  | 25 => ⟨S50000x256, .f32⟩
  | 26 => ⟨S50000x1, .f32⟩
  | 27 => ⟨S50000x256, .f32⟩
  | 28 => ⟨S50000x256, .f32⟩
  | 29 => ⟨S50000x256, .f32⟩
  | 30 => ⟨S50000x256, .f32⟩
  | 31 => ⟨S50000x256, .f32⟩
  | 32 => ⟨S50000x256, .f32⟩
  | 33 => ⟨S1x256, .f32⟩
  | 34 => ⟨S50000x256, .f32⟩
  | 35 => ⟨S50000x256, .f32⟩
  | 36 => ⟨S_, .f32⟩
  | 37 => ⟨S50000x256, .f32⟩
  | 38 => ⟨S50000x256, .f32⟩
  | 39 => ⟨S1x256x256, .f32⟩
  | 40 => ⟨S256x256, .f32⟩
  | 41 => ⟨S1x256x256, .f32⟩
  | 42 => ⟨S256x256, .f32⟩
  | 43 => ⟨S1x256, .f32⟩
  | 44 => ⟨S256, .f32⟩
  | 45 => ⟨S_, .i32⟩
  | 46 => ⟨S800000, .i32⟩
  | 47 => ⟨S800000, .i1⟩
  | 48 => ⟨S_, .i32⟩
  | 49 => ⟨S800000, .i32⟩
  | 50 => ⟨S800000, .i32⟩
  | 51 => ⟨S800000, .i32⟩
  | 52 => ⟨S800000x1, .i32⟩
  | 53 => ⟨S800000x256, .f32⟩
  | 54 => ⟨S_, .f32⟩
  | 55 => ⟨S50000x256, .f32⟩
  | 56 => ⟨S800000x1, .i32⟩
  | 57 => ⟨S50000x256, .f32⟩
  | 58 => ⟨S50000x256, .f32⟩
  | 59 => ⟨S50000x256, .f32⟩
  | 60 => ⟨S50000x1, .f32⟩
  | 61 => ⟨S50000x256, .f32⟩
  | 62 => ⟨S50000x256, .f32⟩
  | 63 => ⟨S50000x256, .f32⟩
  | 64 => ⟨S50000x256, .f32⟩
  | 65 => ⟨S50000x256, .f32⟩
  | 66 => ⟨S50000x256, .f32⟩
  | 67 => ⟨S1x256, .f32⟩
  | 68 => ⟨S50000x256, .f32⟩
  | 69 => ⟨S50000x256, .f32⟩
  | 70 => ⟨S_, .f32⟩
  | 71 => ⟨S50000x256, .f32⟩
  | 72 => ⟨S50000x256, .f32⟩
  | 73 => ⟨S50000x256, .f32⟩
  | 74 => ⟨S_, .f32⟩
  | 75 => ⟨S50000x256, .f32⟩
  | 76 => ⟨S50000x256, .f32⟩
  | 77 => ⟨S1x256x256, .f32⟩
  | 78 => ⟨S256x256, .f32⟩
  | 79 => ⟨S1x256x256, .f32⟩
  | 80 => ⟨S256x256, .f32⟩
  | 81 => ⟨S1x256, .f32⟩
  | 82 => ⟨S256, .f32⟩
  | 83 => ⟨S_, .i32⟩
  | 84 => ⟨S800000, .i32⟩
  | 85 => ⟨S800000, .i1⟩
  | 86 => ⟨S_, .i32⟩
  | 87 => ⟨S800000, .i32⟩
  | 88 => ⟨S800000, .i32⟩
  | 89 => ⟨S800000, .i32⟩
  | 90 => ⟨S800000x1, .i32⟩
  | 91 => ⟨S800000x256, .f32⟩
  | 92 => ⟨S_, .f32⟩
  | 93 => ⟨S50000x256, .f32⟩
  | 94 => ⟨S800000x1, .i32⟩
  | 95 => ⟨S50000x256, .f32⟩
  | 96 => ⟨S50000x256, .f32⟩
  | 97 => ⟨S50000x256, .f32⟩
  | 98 => ⟨S50000x1, .f32⟩
  | 99 => ⟨S50000x256, .f32⟩
  | 100 => ⟨S50000x256, .f32⟩
  | 101 => ⟨S50000x256, .f32⟩
  | 102 => ⟨S50000x256, .f32⟩
  | 103 => ⟨S50000x256, .f32⟩
  | 104 => ⟨S50000x256, .f32⟩
  | 105 => ⟨S1x256, .f32⟩
  | 106 => ⟨S50000x256, .f32⟩
  | 107 => ⟨S50000x256, .f32⟩
  | 108 => ⟨S_, .f32⟩
  | 109 => ⟨S50000x256, .f32⟩
  | 110 => ⟨S50000x256, .f32⟩
  | 111 => ⟨S1x256x256, .f32⟩
  | 112 => ⟨S256x256, .f32⟩
  | 113 => ⟨S1x256x256, .f32⟩
  | 114 => ⟨S256x256, .f32⟩
  | 115 => ⟨S1x256, .f32⟩
  | 116 => ⟨S256, .f32⟩
  | 117 => ⟨S_, .i32⟩
  | 118 => ⟨S800000, .i32⟩
  | 119 => ⟨S800000, .i1⟩
  | 120 => ⟨S_, .i32⟩
  | 121 => ⟨S800000, .i32⟩
  | 122 => ⟨S800000, .i32⟩
  | 123 => ⟨S800000, .i32⟩
  | 124 => ⟨S800000x1, .i32⟩
  | 125 => ⟨S800000x256, .f32⟩
  | 126 => ⟨S_, .f32⟩
  | 127 => ⟨S50000x256, .f32⟩
  | _ => ⟨S50000x3, .f32⟩

abbrev hbmTy0_2 (i : Nat) : BufTy := match i % 128 with
  | 0 => ⟨S800000x1, .i32⟩
  | 1 => ⟨S50000x256, .f32⟩
  | 2 => ⟨S50000x256, .f32⟩
  | 3 => ⟨S50000x256, .f32⟩
  | 4 => ⟨S50000x1, .f32⟩
  | 5 => ⟨S50000x256, .f32⟩
  | 6 => ⟨S50000x256, .f32⟩
  | 7 => ⟨S50000x256, .f32⟩
  | 8 => ⟨S50000x256, .f32⟩
  | 9 => ⟨S50000x256, .f32⟩
  | 10 => ⟨S50000x256, .f32⟩
  | 11 => ⟨S1x256, .f32⟩
  | 12 => ⟨S50000x256, .f32⟩
  | 13 => ⟨S50000x256, .f32⟩
  | 14 => ⟨S_, .f32⟩
  | 15 => ⟨S50000x256, .f32⟩
  | 16 => ⟨S50000x256, .f32⟩
  | 17 => ⟨S50000x256, .f32⟩
  | 18 => ⟨S_, .f32⟩
  | 19 => ⟨S50000x256, .f32⟩
  | 20 => ⟨S50000x256, .f32⟩
  | 21 => ⟨S_, .i32⟩
  | 22 => ⟨S800000, .i32⟩
  | 23 => ⟨S800000, .i1⟩
  | 24 => ⟨S_, .i32⟩
  | 25 => ⟨S800000, .i32⟩
  | 26 => ⟨S800000, .i32⟩
  | 27 => ⟨S800000, .i32⟩
  | 28 => ⟨S800000x1, .i32⟩
  | 29 => ⟨S800000x256, .f32⟩
  | 30 => ⟨S_, .f32⟩
  | 31 => ⟨S50000x256, .f32⟩
  | 32 => ⟨S800000x1, .i32⟩
  | 33 => ⟨S50000x256, .f32⟩
  | 34 => ⟨S50000x256, .f32⟩
  | 35 => ⟨S50000x256, .f32⟩
  | 36 => ⟨S50000x1, .f32⟩
  | 37 => ⟨S50000x256, .f32⟩
  | 38 => ⟨S50000x256, .f32⟩
  | 39 => ⟨S50000x256, .f32⟩
  | 40 => ⟨S50000x3, .f32⟩
  | 41 => ⟨S50000x3, .f32⟩
  | 42 => ⟨S50000x3, .f32⟩
  | 43 => ⟨S1x3, .f32⟩
  | 44 => ⟨S50000x3, .f32⟩
  | 45 => ⟨S50000x3, .f32⟩
  | _ => ⟨S50000x3, .f32⟩

abbrev hbmTy (i : Nat) : BufTy := match i / 128 with
  | 0 => hbmTy0_0 i
  | 1 => hbmTy0_1 i
  | 2 => hbmTy0_2 i
  | _ => ⟨S50000x3, .f32⟩

abbrev bufTy : (tb : Table) → Fin (tcTables nBuf tb) → BufTy
  | .hbm, ⟨i, _⟩ => hbmTy i
  | _, _ => ⟨S50000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_cst_2 : Ref sig .tc := ⟨.hbm, 23, rfl⟩
abbrev main_v9 : Ref sig .tc := ⟨.hbm, 24, rfl⟩
abbrev main_cst_3 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst_4 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_c : Ref sig .tc := ⟨.hbm, 33, rfl⟩
abbrev main_v16 : Ref sig .tc := ⟨.hbm, 34, rfl⟩
abbrev main_v17 : Ref sig .tc := ⟨.hbm, 35, rfl⟩
abbrev main_c_5 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_cst_6 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_call0_cst : Ref sig .tc := ⟨.hbm, 58, rfl⟩
abbrev main_call0_v0 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_c_7 : Ref sig .tc := ⟨.hbm, 67, rfl⟩
abbrev main_v45 : Ref sig .tc := ⟨.hbm, 68, rfl⟩
abbrev main_v46 : Ref sig .tc := ⟨.hbm, 69, rfl⟩
abbrev main_c_8 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_cst_9 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_call1_cst : Ref sig .tc := ⟨.hbm, 92, rfl⟩
abbrev main_call1_v0 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_c_10 : Ref sig .tc := ⟨.hbm, 101, rfl⟩
abbrev main_v74 : Ref sig .tc := ⟨.hbm, 102, rfl⟩
abbrev main_v75 : Ref sig .tc := ⟨.hbm, 103, rfl⟩
abbrev main_c_11 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_cst_12 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_call2_cst : Ref sig .tc := ⟨.hbm, 126, rfl⟩
abbrev main_call2_v0 : Ref sig .tc := ⟨.hbm, 127, rfl⟩
abbrev main_v96 : Ref sig .tc := ⟨.hbm, 128, rfl⟩
abbrev main_v97 : Ref sig .tc := ⟨.hbm, 129, rfl⟩
abbrev main_cst_13 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_c_14 : Ref sig .tc := ⟨.hbm, 139, rfl⟩
abbrev main_v106 : Ref sig .tc := ⟨.hbm, 140, rfl⟩
abbrev main_v107 : Ref sig .tc := ⟨.hbm, 141, rfl⟩
abbrev main_c_15 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_cst_16 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_v125 : Ref sig .tc := ⟨.hbm, 161, rfl⟩
abbrev main_v126 : Ref sig .tc := ⟨.hbm, 162, rfl⟩
abbrev main_v127 : Ref sig .tc := ⟨.hbm, 163, rfl⟩
abbrev main_call3_cst : Ref sig .tc := ⟨.hbm, 164, rfl⟩
abbrev main_call3_v0 : Ref sig .tc := ⟨.hbm, 165, rfl⟩
abbrev main_v128 : Ref sig .tc := ⟨.hbm, 166, rfl⟩
abbrev main_v129 : Ref sig .tc := ⟨.hbm, 167, rfl⟩
abbrev main_v130 : Ref sig .tc := ⟨.hbm, 168, rfl⟩
abbrev main_v131 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩
abbrev main_c_17 : Ref sig .tc := ⟨.hbm, 173, rfl⟩
abbrev main_v135 : Ref sig .tc := ⟨.hbm, 174, rfl⟩
abbrev main_v136 : Ref sig .tc := ⟨.hbm, 175, rfl⟩
abbrev main_c_18 : Ref sig .tc := ⟨.hbm, 176, rfl⟩
abbrev main_v137 : Ref sig .tc := ⟨.hbm, 177, rfl⟩
abbrev main_v138 : Ref sig .tc := ⟨.hbm, 178, rfl⟩
abbrev main_v139 : Ref sig .tc := ⟨.hbm, 179, rfl⟩
abbrev main_v140 : Ref sig .tc := ⟨.hbm, 180, rfl⟩
abbrev main_v141 : Ref sig .tc := ⟨.hbm, 181, rfl⟩
abbrev main_cst_19 : Ref sig .tc := ⟨.hbm, 182, rfl⟩
abbrev main_v142 : Ref sig .tc := ⟨.hbm, 183, rfl⟩
abbrev main_v143 : Ref sig .tc := ⟨.hbm, 184, rfl⟩
abbrev main_v144 : Ref sig .tc := ⟨.hbm, 185, rfl⟩
abbrev main_v145 : Ref sig .tc := ⟨.hbm, 186, rfl⟩
abbrev main_v146 : Ref sig .tc := ⟨.hbm, 187, rfl⟩
abbrev main_v147 : Ref sig .tc := ⟨.hbm, 188, rfl⟩
abbrev main_v148 : Ref sig .tc := ⟨.hbm, 189, rfl⟩
abbrev main_v149 : Ref sig .tc := ⟨.hbm, 190, rfl⟩
abbrev main_v150 : Ref sig .tc := ⟨.hbm, 191, rfl⟩
abbrev main_v151 : Ref sig .tc := ⟨.hbm, 192, rfl⟩
abbrev main_v152 : Ref sig .tc := ⟨.hbm, 193, rfl⟩
abbrev main_v153 : Ref sig .tc := ⟨.hbm, 194, rfl⟩
abbrev main_v154 : Ref sig .tc := ⟨.hbm, 195, rfl⟩
abbrev main_v155 : Ref sig .tc := ⟨.hbm, 196, rfl⟩
abbrev main_v156 : Ref sig .tc := ⟨.hbm, 197, rfl⟩
abbrev main_call4_cst : Ref sig .tc := ⟨.hbm, 198, rfl⟩
abbrev main_call4_v0 : Ref sig .tc := ⟨.hbm, 199, rfl⟩
abbrev main_v157 : Ref sig .tc := ⟨.hbm, 200, rfl⟩
abbrev main_v158 : Ref sig .tc := ⟨.hbm, 201, rfl⟩
abbrev main_cst_20 : Ref sig .tc := ⟨.hbm, 202, rfl⟩
abbrev main_v159 : Ref sig .tc := ⟨.hbm, 203, rfl⟩
abbrev main_v160 : Ref sig .tc := ⟨.hbm, 204, rfl⟩
abbrev main_v161 : Ref sig .tc := ⟨.hbm, 205, rfl⟩
abbrev main_v162 : Ref sig .tc := ⟨.hbm, 206, rfl⟩
abbrev main_v163 : Ref sig .tc := ⟨.hbm, 207, rfl⟩
abbrev main_v164 : Ref sig .tc := ⟨.hbm, 208, rfl⟩
abbrev main_v165 : Ref sig .tc := ⟨.hbm, 209, rfl⟩
abbrev main_v166 : Ref sig .tc := ⟨.hbm, 210, rfl⟩
abbrev main_c_21 : Ref sig .tc := ⟨.hbm, 211, rfl⟩
abbrev main_v167 : Ref sig .tc := ⟨.hbm, 212, rfl⟩
abbrev main_v168 : Ref sig .tc := ⟨.hbm, 213, rfl⟩
abbrev main_c_22 : Ref sig .tc := ⟨.hbm, 214, rfl⟩
abbrev main_v169 : Ref sig .tc := ⟨.hbm, 215, rfl⟩
abbrev main_v170 : Ref sig .tc := ⟨.hbm, 216, rfl⟩
abbrev main_v171 : Ref sig .tc := ⟨.hbm, 217, rfl⟩
abbrev main_v172 : Ref sig .tc := ⟨.hbm, 218, rfl⟩
abbrev main_v173 : Ref sig .tc := ⟨.hbm, 219, rfl⟩
abbrev main_cst_23 : Ref sig .tc := ⟨.hbm, 220, rfl⟩
abbrev main_v174 : Ref sig .tc := ⟨.hbm, 221, rfl⟩
abbrev main_v175 : Ref sig .tc := ⟨.hbm, 222, rfl⟩
abbrev main_v176 : Ref sig .tc := ⟨.hbm, 223, rfl⟩
abbrev main_v177 : Ref sig .tc := ⟨.hbm, 224, rfl⟩
abbrev main_v178 : Ref sig .tc := ⟨.hbm, 225, rfl⟩
abbrev main_v179 : Ref sig .tc := ⟨.hbm, 226, rfl⟩
abbrev main_v180 : Ref sig .tc := ⟨.hbm, 227, rfl⟩
abbrev main_v181 : Ref sig .tc := ⟨.hbm, 228, rfl⟩
abbrev main_v182 : Ref sig .tc := ⟨.hbm, 229, rfl⟩
abbrev main_v183 : Ref sig .tc := ⟨.hbm, 230, rfl⟩
abbrev main_v184 : Ref sig .tc := ⟨.hbm, 231, rfl⟩
abbrev main_v185 : Ref sig .tc := ⟨.hbm, 232, rfl⟩
abbrev main_v186 : Ref sig .tc := ⟨.hbm, 233, rfl⟩
abbrev main_v187 : Ref sig .tc := ⟨.hbm, 234, rfl⟩
abbrev main_v188 : Ref sig .tc := ⟨.hbm, 235, rfl⟩
abbrev main_call5_cst : Ref sig .tc := ⟨.hbm, 236, rfl⟩
abbrev main_call5_v0 : Ref sig .tc := ⟨.hbm, 237, rfl⟩
abbrev main_v189 : Ref sig .tc := ⟨.hbm, 238, rfl⟩
abbrev main_v190 : Ref sig .tc := ⟨.hbm, 239, rfl⟩
abbrev main_v191 : Ref sig .tc := ⟨.hbm, 240, rfl⟩
abbrev main_v192 : Ref sig .tc := ⟨.hbm, 241, rfl⟩
abbrev main_v193 : Ref sig .tc := ⟨.hbm, 242, rfl⟩
abbrev main_v194 : Ref sig .tc := ⟨.hbm, 243, rfl⟩
abbrev main_v195 : Ref sig .tc := ⟨.hbm, 244, rfl⟩
abbrev main_c_24 : Ref sig .tc := ⟨.hbm, 245, rfl⟩
abbrev main_v196 : Ref sig .tc := ⟨.hbm, 246, rfl⟩
abbrev main_v197 : Ref sig .tc := ⟨.hbm, 247, rfl⟩
abbrev main_c_25 : Ref sig .tc := ⟨.hbm, 248, rfl⟩
abbrev main_v198 : Ref sig .tc := ⟨.hbm, 249, rfl⟩
abbrev main_v199 : Ref sig .tc := ⟨.hbm, 250, rfl⟩
abbrev main_v200 : Ref sig .tc := ⟨.hbm, 251, rfl⟩
abbrev main_v201 : Ref sig .tc := ⟨.hbm, 252, rfl⟩
abbrev main_v202 : Ref sig .tc := ⟨.hbm, 253, rfl⟩
abbrev main_cst_26 : Ref sig .tc := ⟨.hbm, 254, rfl⟩
abbrev main_v203 : Ref sig .tc := ⟨.hbm, 255, rfl⟩
abbrev main_v204 : Ref sig .tc := ⟨.hbm, 256, rfl⟩
abbrev main_v205 : Ref sig .tc := ⟨.hbm, 257, rfl⟩
abbrev main_v206 : Ref sig .tc := ⟨.hbm, 258, rfl⟩
abbrev main_v207 : Ref sig .tc := ⟨.hbm, 259, rfl⟩
abbrev main_v208 : Ref sig .tc := ⟨.hbm, 260, rfl⟩
abbrev main_v209 : Ref sig .tc := ⟨.hbm, 261, rfl⟩
abbrev main_v210 : Ref sig .tc := ⟨.hbm, 262, rfl⟩
abbrev main_v211 : Ref sig .tc := ⟨.hbm, 263, rfl⟩
abbrev main_v212 : Ref sig .tc := ⟨.hbm, 264, rfl⟩
abbrev main_v213 : Ref sig .tc := ⟨.hbm, 265, rfl⟩
abbrev main_v214 : Ref sig .tc := ⟨.hbm, 266, rfl⟩
abbrev main_v215 : Ref sig .tc := ⟨.hbm, 267, rfl⟩
abbrev main_v216 : Ref sig .tc := ⟨.hbm, 268, rfl⟩
abbrev main_v217 : Ref sig .tc := ⟨.hbm, 269, rfl⟩
abbrev main_call6_cst : Ref sig .tc := ⟨.hbm, 270, rfl⟩
abbrev main_call6_v0 : Ref sig .tc := ⟨.hbm, 271, rfl⟩
abbrev main_v218 : Ref sig .tc := ⟨.hbm, 272, rfl⟩
abbrev main_v219 : Ref sig .tc := ⟨.hbm, 273, rfl⟩
abbrev main_cst_27 : Ref sig .tc := ⟨.hbm, 274, rfl⟩
abbrev main_v220 : Ref sig .tc := ⟨.hbm, 275, rfl⟩
abbrev main_v221 : Ref sig .tc := ⟨.hbm, 276, rfl⟩
abbrev main_c_28 : Ref sig .tc := ⟨.hbm, 277, rfl⟩
abbrev main_v222 : Ref sig .tc := ⟨.hbm, 278, rfl⟩
abbrev main_v223 : Ref sig .tc := ⟨.hbm, 279, rfl⟩
abbrev main_c_29 : Ref sig .tc := ⟨.hbm, 280, rfl⟩
abbrev main_v224 : Ref sig .tc := ⟨.hbm, 281, rfl⟩
abbrev main_v225 : Ref sig .tc := ⟨.hbm, 282, rfl⟩
abbrev main_v226 : Ref sig .tc := ⟨.hbm, 283, rfl⟩
abbrev main_v227 : Ref sig .tc := ⟨.hbm, 284, rfl⟩
abbrev main_v228 : Ref sig .tc := ⟨.hbm, 285, rfl⟩
abbrev main_cst_30 : Ref sig .tc := ⟨.hbm, 286, rfl⟩
abbrev main_v229 : Ref sig .tc := ⟨.hbm, 287, rfl⟩
abbrev main_v230 : Ref sig .tc := ⟨.hbm, 288, rfl⟩
abbrev main_v231 : Ref sig .tc := ⟨.hbm, 289, rfl⟩
abbrev main_v232 : Ref sig .tc := ⟨.hbm, 290, rfl⟩
abbrev main_v233 : Ref sig .tc := ⟨.hbm, 291, rfl⟩
abbrev main_v234 : Ref sig .tc := ⟨.hbm, 292, rfl⟩
abbrev main_v235 : Ref sig .tc := ⟨.hbm, 293, rfl⟩
abbrev main_v236 : Ref sig .tc := ⟨.hbm, 294, rfl⟩
abbrev main_v237 : Ref sig .tc := ⟨.hbm, 295, rfl⟩
abbrev main_v238 : Ref sig .tc := ⟨.hbm, 296, rfl⟩
abbrev main_v239 : Ref sig .tc := ⟨.hbm, 297, rfl⟩
abbrev main_v240 : Ref sig .tc := ⟨.hbm, 298, rfl⟩
abbrev main_v241 : Ref sig .tc := ⟨.hbm, 299, rfl⟩
abbrev main_v242 : Ref sig .tc := ⟨.hbm, 300, rfl⟩
abbrev main_v243 : Ref sig .tc := ⟨.hbm, 301, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  reducesTo_S50000_S_d0 : S50000.ReducesTo [0] S_
  h_S_ : 0 < S_.numel
  bcast_S_S50000x3 : S_.BroadcastsInDim S50000x3 (![] : Fin 0 → Fin S50000x3.rank)
  bcast_S50000_S50000x1_0 : S50000.BroadcastsInDim S50000x1 (![0] : Fin 1 → Fin S50000x1.rank)
  bcast_S50000x1_S50000x3_0_1 : S50000x1.BroadcastsInDim S50000x3 (![0, 1] : Fin 2 → Fin S50000x3.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  slices_S6x256x256_S1x256x256_0_0_0 : S6x256x256.Slices ![0, 0, 0] S1x256x256
  shapeCasts_S1x256x256_S256x256 : S1x256x256.ShapeCasts S256x256
  slices_S6x256_S1x256_0_0 : S6x256.Slices ![0, 0] S1x256
  shapeCasts_S1x256_S256 : S1x256.ShapeCasts S256
  bcast_S50000x1_S50000x256_0_1 : S50000x1.BroadcastsInDim S50000x256 (![0, 1] : Fin 2 → Fin S50000x256.rank)
  slices_S6x256x256_S1x256x256_1_0_0 : S6x256x256.Slices ![1, 0, 0] S1x256x256
  slices_S6x256_S1x256_1_0 : S6x256.Slices ![1, 0] S1x256
  slices_S6x256x256_S1x256x256_2_0_0 : S6x256x256.Slices ![2, 0, 0] S1x256x256
  slices_S6x256_S1x256_2_0 : S6x256.Slices ![2, 0] S1x256
  slices_S6x256x256_S1x256x256_3_0_0 : S6x256x256.Slices ![3, 0, 0] S1x256x256
  slices_S6x256_S1x256_3_0 : S6x256.Slices ![3, 0] S1x256
  slices_S6x256x256_S1x256x256_4_0_0 : S6x256x256.Slices ![4, 0, 0] S1x256x256
  slices_S6x256_S1x256_4_0 : S6x256.Slices ![4, 0] S1x256
  slices_S6x256x256_S1x256x256_5_0_0 : S6x256x256.Slices ![5, 0, 0] S1x256x256
  slices_S6x256_S1x256_5_0 : S6x256.Slices ![5, 0] S1x256
  bcast_S3_S1x3_1 : S3.BroadcastsInDim S1x3 (![1] : Fin 1 → Fin S1x3.rank)
  bcast_S1x3_S50000x3_0_1 : S1x3.BroadcastsInDim S50000x3 (![0, 1] : Fin 2 → Fin S50000x3.rank)
  scatter_S50000_S800000x1_S800000_n_0_0_1_wf : ScatterDims.WF S50000 S800000x1 S800000 [] [0] [0] 1
  gather_S50000x3_S800000x1_S800000x3_1_0_n_n_0_1_13_wf : GatherDims.WF S50000x3 S800000x1 S800000x3 [1] [0] [] [0] [] 1 ![1, 3]
  scatter_S50000x3_S800000x1_S800000x3_1_0_0_1_wf : ScatterDims.WF S50000x3 S800000x1 S800000x3 [1] [0] [0] 1
  dot_S50000x3_S3x256_S50000x256_1_0_0_1_n_n_wf : DotDims.WF S50000x3 S3x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x256_S50000x256_1_0_0_1_n_n_wf : DotDims.WF S50000x256 S256x256 S50000x256 [1] [0] [0] [1] [] []
  dot_S50000x256_S256x3_S50000x3_1_0_0_1_n_n_wf : DotDims.WF S50000x256 S256x3 S50000x3 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x3_S800000x1_S800000x3_1_0_n_n_0_1_13 : GatherDims S50000x3 S800000x1 S800000x3 where
  offsetDims := [1]
  collapsedSliceDims := [0]
  operandBatchingDims := []
  startIndicesBatchingDims := []
  startIndexMap := [0]
  indexVectorDim := 1
  sliceSizes := ![1, 3]
  wf := gather_S50000x3_S800000x1_S800000x3_1_0_n_n_0_1_13_wf
def scatter_S50000x3_S800000x1_S800000x3_1_0_0_1 : ScatterDims S50000x3 S800000x1 S800000x3 where
  updateWindowDims := [1]
  insertedWindowDims := [0]
  scatterDimsToOperandDims := [0]
  indexVectorDim := 1
  wf := scatter_S50000x3_S800000x1_S800000x3_1_0_0_1_wf
def dot_S50000x3_S3x256_S50000x256_1_0_0_1_n_n : DotDims S50000x3 S3x256 S50000x256 where
  lhsContracting := [1]
  rhsContracting := [0]
  lhsNonContracting := [0]
  rhsNonContracting := [1]
  lhsBatch := []
  rhsBatch := []
  wf := dot_S50000x3_S3x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def dot_S50000x256_S256x3_S50000x3_1_0_0_1_n_n : DotDims S50000x256 S256x3 S50000x3 where
  lhsContracting := [1]
  rhsContracting := [0]
  lhsNonContracting := [0]
  rhsNonContracting := [1]
  lhsBatch := []
  rhsBatch := []
  wf := dot_S50000x256_S256x3_S50000x3_1_0_0_1_n_n_wf

class Facts : Prop extends Facts₀ where

variable [Facts]
-- ==== Proof.KernelRun.lean ====
/-
  The idealized kernel's run with its two result arrays named.

  @main is eight launches of the dense step among stretches of host operations.  Every weakly fair execution ends with
  each buffer the host can see at the contents the last of the seventeen boundaries leaves (the fold of the host
  stretches and of the launches' write-backs over the launch memory): the two result arrays are read there, and the
  argument arrays are the launch contents.
-/
import proofs.«159116_j1211180777897_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the final step's output array and the
    last residual block's output array at the last boundary's contents, and the arguments as launched. -/
theorem run : θ_run defs (onTc (τ := τ) (main (F := F))) ⟨m, fun _ => 0, ρ⟩ (fun r => ∀ c : Dev nD,
      r.2.mem ((c.tc : Thread nD τ).loc main_v141) = W16 m ρ c (Proc.devRef .tc main_v141)
      ∧ r.2.mem ((c.tc : Thread nD τ).loc main_v130) = W16 m ρ c (Proc.devRef .tc main_v130)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun s h c =>
      ⟨h c _ (mem_uc main_v141 (by decide)),
       h c _ (mem_uc main_v130 (by decide)),
       (h c _ (mem_uc main_arg0 (by decide))).trans (W16_main_arg0 m ρ c),
       (h c _ (mem_uc main_arg1 (by decide))).trans (W16_main_arg1 m ρ c),
       (h c _ (mem_uc main_arg2 (by decide))).trans (W16_main_arg2 m ρ c),
       (h c _ (mem_uc main_arg3 (by decide))).trans (W16_main_arg3 m ρ c),
       (h c _ (mem_uc main_arg4 (by decide))).trans (W16_main_arg4 m ρ c),
       (h c _ (mem_uc main_arg5 (by decide))).trans (W16_main_arg5 m ρ c),
       (h c _ (mem_uc main_arg6 (by decide))).trans (W16_main_arg6 m ρ c),
       (h c _ (mem_uc main_arg7 (by decide))).trans (W16_main_arg7 m ρ c),
       (h c _ (mem_uc main_arg8 (by decide))).trans (W16_main_arg8 m ρ c),
       (h c _ (mem_uc main_arg9 (by decide))).trans (W16_main_arg9 m ρ c),
       (h c _ (mem_uc main_arg10 (by decide))).trans (W16_main_arg10 m ρ c)⟩)

end Cert.KernelIdeal.RunValue

end
-- ==== Proof.LibPlainDot.lean ====
/-
  A plain matrix product over the extended reals, read at one entry.

  For an M×K matrix `l` and a K×N matrix `r` the product contracted over `l`'s columns and `r`'s rows has, at
  entry (p, q), the value ∑ₖ l(p,k)·r(k,q). This holds both for the vector unit's product into a zero accumulator
  and for the host's `dot_general`, so the two are the same sum; the only work is to identify the contraction's
  one-axis index type with `Fin K` and the operand indices with (p,k) and (k,q).
-/
import Idealize.ShloMosaic.PureOps.Ideal.Laws
import Idealize.ShloMosaic.Lib.ValueIdx

noncomputable section

namespace Cert.LibPlainDot

open Idealize.ShloMosaic Idealize.ShloMosaic.ValueIdx
open scoped BigOperators

variable {M K N : ℕ} {φ₁ φ₂ : FTy}

/-- The sum over the contraction index of a plain M×K by K×N product is the sum over `k : Fin K` of the left operand
    at (row, k) times the right operand at (k, column). -/
theorem plain_sum (l : FVec Ideal ⟨2, ![M, K]⟩ φ₁) (r : FVec Ideal ⟨2, ![K, N]⟩ φ₂) (p : Fin M) (q : Fin N) :
    (∑ c : (DotDims.plain M K N).contr.Idx,
        l ((DotDims.plain M K N).lhsIdx (ix2 p q) c) * r ((DotDims.plain M K N).rhsIdx (ix2 p q) c))
      = ∑ k : Fin K, l (ix2 p k) * r (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => rfl
      | ⟨1, _⟩ => exact ((DotDims.plain M K N).lhsIdx_val_of_single rfl (ix2 p q) _).trans hk)
  have er : (DotDims.plain M K N).rhsIdx (ix2 p q) ((contrEquiv1 (DotDims.plain M K N) K rfl rfl).symm k) = ix2 k q :=
    funext fun a => Fin.ext (by
      match a with
      | ⟨0, _⟩ => exact ((DotDims.plain M K N).rhsIdx_val_of_single rfl (ix2 p q) _).trans hk
      | ⟨1, _⟩ => rfl)
  rw [el, er]

/-- The vector unit's product into the zero accumulator, for any dimension record that is the plain one. -/
theorem matmul_zero_apply (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (q : Fin N) :
    FloatOps.matmul d prec l r (constant ⟨2, ![M, N]⟩ .f32 0x00000000#32) (ix2 p q) = ∑ k : Fin K, l (ix2 p k) * r (ix2 k q) := by
  subst hd
  exact (Ideal.matmul_constant_zero_apply _ prec l r (ix2 p q)).trans (plain_sum l r p q)

/-- The host's `dot_general`, for any dimension record that is the plain one. -/
theorem dotGeneral_apply (d : DotDims ⟨2, ![M, K]⟩ ⟨2, ![K, N]⟩ ⟨2, ![M, N]⟩) (hd : d = DotDims.plain M K N)
    (prec : Option ContractPrecision) (sched : HostSchedule) (l : FVec Ideal ⟨2, ![M, K]⟩ φ₁) (r : FVec Ideal ⟨2, ![K, N]⟩ φ₂)
    (p : Fin M) (q : Fin N) :
    FloatOps.dotGeneral d prec sched l r (ix2 p q) = ∑ k : Fin K, l (ix2 p k) * r (ix2 k q) := by
  subst hd
  exact (Ideal.dotGeneral_apply _ prec sched l r (ix2 p q)).trans (plain_sum l r p q)

end Cert.LibPlainDot

end
-- ==== Proof.LibColumn.lean ====
/-
  A column of row statistics, read at an entry.

  A reduction along the rows of a matrix that keeps the reduced axis (a sum with `keepdims`) produces one value per
  row, stored as an a×1 column, and is then spread over the b columns of an a×b matrix. Reading the results at an
  entry: the a×1 column made from an a-vector has, at (i, 0), the vector's entry i; and the a×b matrix made from an
  a×1 column has, at (i, j), the column's entry (i, 0), whatever j. Both facts are arithmetic on row-major positions.
-/
import Idealize.ShloMosaic.Lib.Pipeline.Value
import Idealize.ShloMosaic.Lib.ValueIdx

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(i, j)`, the column's entry `(i, 0)`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.LibColumn
-- ==== Proof.LibBiasRow.lean ====
/-
  The bias of a layer, a length-N vector, as the 1×N row both programs add to every row of a product.  The kernel reshapes
  the vector to 1×N on the host and the body broadcasts that row over its block; the reference broadcasts the vector to
  1×N and then to M×N.  Either way entry (p, q) of what is added is entry q of the vector.
-/
import Idealize.ShloMosaic.PureOps.Ideal.Laws
import Idealize.ShloMosaic.Lib.ValueIdx
import Idealize.ShloMosaic.Lib.Pipeline.Value
import Idealize.ShloMosaic.Lib.KernelVsHost

noncomputable section

namespace Cert.Row

open Idealize.ShloMosaic Idealize.ShloMosaic.ValueIdx

variable {M N : ℕ}

/-- A length-N vector as a 1×N row. -/
def rowOf (b : FVec Ideal ⟨1, ![N]⟩ .f32) : FVec Ideal ⟨2, ![1, N]⟩ .f32 := fun j => b (ix1 (j 1))

/-- The reshape of the vector to 1×N is that row. -/
theorem shapeCast_row (b : FVec Ideal ⟨1, ![N]⟩ .f32) (h : (⟨1, ![N]⟩ : Shape).ShapeCasts ⟨2, ![1, N]⟩) :
    shapeCast ⟨2, ![1, N]⟩ b h = rowOf b := by
  funext j
  refine (shapeCast_addUnit_apply ![N] b h j).trans ?_
  unfold rowOf
  exact congrArg b (funext fun a => by match a with | ⟨0, _⟩ => rfl)

/-- The two broadcasts of the vector, to 1×N and then to M×N, read at (p, q): the row at (0, q). -/
theorem bcast_row_apply (b : FVec Ideal ⟨1, ![N]⟩ .f32) (h1 : (⟨1, ![N]⟩ : Shape).BroadcastsInDim ⟨2, ![1, N]⟩ ![1])
    (h2 : (⟨2, ![1, N]⟩ : Shape).BroadcastsInDim ⟨2, ![M, N]⟩ ![0, 1]) (p : Fin M) (q : Fin N) :
    broadcastInDim ⟨2, ![M, N]⟩ ![0, 1] h2 (broadcastInDim ⟨2, ![1, N]⟩ ![1] h1 b) (ix2 p q) = rowOf b (ix2 0 q) := by
  rw [broadcastInDim_oneRow_apply]
  refine broadcastInDim_apply ![1] h1 b (ix2 (0 : Fin 1) q) (ix1 q) (fun a => ?_)
  match a with
  | ⟨0, _⟩ =>
    show q.val = if N = 1 then 0 else q.val
    split_ifs with hN
    · have := q.isLt; omega
    · rfl

end Cert.Row

end
-- ==== Proof.LibLayerForms.lean ====
/-
  The three dense steps of a graph-convolution layer, each read at one entry of its result.

  Every layer of the network multiplies the rows of a node-feature matrix by a per-node factor (an R×1 column), and
  either projects first and scales after, or scales first and projects after, then adds a bias row and clips at zero.
  Written entry by entry over the extended reals, for an R-row matrix:

    scaleDotBiasRelu a c W b (p,q) = max (Σₖ (a(p,k)·c(p,0))·W(k,q) + b(0,q)) 0
    dotScale         h W c   (p,q) = (Σₖ h(p,k)·W(k,q))·c(p,0)
    scaleBiasRelu    a c b   (p,q) = max (a(p,q)·c(p,0) + b(0,q)) 0

  Each is reached two ways: by the vector unit's operations on a block (shape casts that change nothing, a column or
  a row spread over the block, a change of float format that is the identity on the extended reals, a matrix product
  into a zero accumulator), and by the host's operations on the whole matrix (the column and the row spread by
  broadcasts, `dot_general`). Entry (p,q) depends only on row p of the row-indexed operands, so a block of rows of
  the whole-matrix result is the same function of the corresponding blocks of rows.
-/
import Idealize.ShloMosaic.PureOps.Ideal.Laws
import Idealize.ShloMosaic.Lib.ValueIdx
import Idealize.ShloMosaic.Lib.Pipeline.Value
import Idealize.ShloMosaic.Lib.KernelVsHost
import proofs.«159116_j1211180777897_1_alg».proof.Proof.LibPlainDot
import proofs.«159116_j1211180777897_1_alg».proof.Proof.LibColumn
import proofs.«159116_j1211180777897_1_alg».proof.Proof.LibBiasRow

noncomputable section

namespace Cert.LayerForms

open Idealize.ShloMosaic Idealize.ShloMosaic.ValueIdx
open scoped BigOperators

variable {R K N : ℕ} {φ : FTy}

/-- The float zero both programs clip against and accumulate into, kept as its word. -/
abbrev zeroW : EReal := Ideal.ofBits .f32 0x00000000#32

/-- Scale the rows, project, add the bias row, clip at zero. -/
def scaleDotBiasRelu (a : FVec Ideal ⟨2, ![R, K]⟩ .f32) (c : FVec Ideal ⟨2, ![R, 1]⟩ .f32) (W : FVec Ideal ⟨2, ![K, N]⟩ φ)
    (b : FVec Ideal ⟨2, ![1, N]⟩ .f32) : FVec Ideal ⟨2, ![R, N]⟩ .f32 :=
  fun i => max ((∑ k : Fin K, (a (ix2 (i 0) k) * c (ix2 (i 0) (0 : Fin 1))) * W (ix2 k (i 1))) + b (ix2 (0 : Fin 1) (i 1))) zeroW

/-- Project, then scale the rows. -/
def dotScale (h : FVec Ideal ⟨2, ![R, K]⟩ .f32) (W : FVec Ideal ⟨2, ![K, N]⟩ φ) (c : FVec Ideal ⟨2, ![R, 1]⟩ .f32) :
    FVec Ideal ⟨2, ![R, N]⟩ .f32 :=
  fun i => (∑ k : Fin K, h (ix2 (i 0) k) * W (ix2 k (i 1))) * c (ix2 (i 0) (0 : Fin 1))

/-- Scale the rows, add the bias row, clip at zero. -/
def scaleBiasRelu (a : FVec Ideal ⟨2, ![R, N]⟩ .f32) (c : FVec Ideal ⟨2, ![R, 1]⟩ .f32) (b : FVec Ideal ⟨2, ![1, N]⟩ .f32) :
    FVec Ideal ⟨2, ![R, N]⟩ .f32 :=
  fun i => max (a (ix2 (i 0) (i 1)) * c (ix2 (i 0) (0 : Fin 1)) + b (ix2 (0 : Fin 1) (i 1))) zeroW

theorem scaleDotBiasRelu_apply (a : FVec Ideal ⟨2, ![R, K]⟩ .f32) (c : FVec Ideal ⟨2, ![R, 1]⟩ .f32) (W : FVec Ideal ⟨2, ![K, N]⟩ φ)
    (b : FVec Ideal ⟨2, ![1, N]⟩ .f32) (p : Fin R) (q : Fin N) :
    scaleDotBiasRelu a c W b (ix2 p q)
      = max ((∑ k : Fin K, (a (ix2 p k) * c (ix2 p (0 : Fin 1))) * W (ix2 k q)) + b (ix2 (0 : Fin 1) q)) zeroW := rfl

theorem dotScale_apply (h : FVec Ideal ⟨2, ![R, K]⟩ .f32) (W : FVec Ideal ⟨2, ![K, N]⟩ φ) (c : FVec Ideal ⟨2, ![R, 1]⟩ .f32)
    (p : Fin R) (q : Fin N) :
    dotScale h W c (ix2 p q) = (∑ k : Fin K, h (ix2 p k) * W (ix2 k q)) * c (ix2 p (0 : Fin 1)) := rfl

theorem scaleBiasRelu_apply (a : FVec Ideal ⟨2, ![R, N]⟩ .f32) (c : FVec Ideal ⟨2, ![R, 1]⟩ .f32) (b : FVec Ideal ⟨2, ![1, N]⟩ .f32)
    (p : Fin R) (q : Fin N) :
    scaleBiasRelu a c b (ix2 p q) = max (a (ix2 p q) * c (ix2 p (0 : Fin 1)) + b (ix2 (0 : Fin 1) q)) zeroW := rfl

/-! ## A 1×N row spread over R rows by the vector unit -/

/-- A `[1, n]` row broadcast to `[r, n]` reads, at `(p, q)`, the row's entry `(0, q)`. -/
theorem broadcastTo_1n_rn_apply {α : Type} {r n : ℕ} (v : (⟨2, ![1, n]⟩ : Shape).Idx → α)
    (h : (⟨2, ![1, n]⟩ : Shape).Broadcasts ⟨2, ![r, n]⟩) (p : Fin r) (q : Fin n) :
    broadcastTo ⟨2, ![r, n]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if n = 1 then 0 else q.val
    split
    · have := q.isLt; omega
    · rfl

/-! ## The vector unit's forms -/

/-- The body that scales a block's rows, projects it, adds the bias row and clips at zero. -/
theorem body_scaleDotBiasRelu (d : DotDims ⟨2, ![R, K]⟩ ⟨2, ![K, N]⟩ ⟨2, ![R, N]⟩) (hd : d = DotDims.plain R K N)
    (x0 : FVec Ideal ⟨2, ![R, K]⟩ .f32) (x1 : FVec Ideal ⟨2, ![R, 1]⟩ .f32) (x2 : FVec Ideal ⟨2, ![K, N]⟩ .bf16)
    (x3 : FVec Ideal ⟨2, ![1, N]⟩ .f32)
    (h0 : (⟨2, ![R, K]⟩ : Shape).ShapeCasts ⟨2, ![R, K]⟩) (h1 : (⟨2, ![R, 1]⟩ : Shape).ShapeCasts ⟨2, ![R, 1]⟩)
    (h2 : (⟨2, ![K, N]⟩ : Shape).ShapeCasts ⟨2, ![K, N]⟩) (h3 : (⟨2, ![1, N]⟩ : Shape).ShapeCasts ⟨2, ![1, N]⟩)
    (hb1 : (⟨2, ![R, 1]⟩ : Shape).Broadcasts ⟨2, ![R, K]⟩) (hb3 : (⟨2, ![1, N]⟩ : Shape).Broadcasts ⟨2, ![R, N]⟩)
    (hlt : FTy.bf16.bits < FTy.f32.bits) :
    maximumf (addf (matmul d none (truncf .bf16 (mulf (shapeCast ⟨2, ![R, K]⟩ x0 h0)
        (broadcastTo ⟨2, ![R, K]⟩ (shapeCast ⟨2, ![R, 1]⟩ x1 h1) hb1)) hlt) (shapeCast ⟨2, ![K, N]⟩ x2 h2)
        (constant ⟨2, ![R, N]⟩ .f32 0x00000000#32))
      (broadcastTo ⟨2, ![R, N]⟩ (shapeCast ⟨2, ![1, N]⟩ x3 h3) hb3))
      (broadcast ⟨2, ![R, N]⟩ (Scalar.ofBits .f32 0x00000000#32 : Ideal .f32))
    = scaleDotBiasRelu x0 x1 x2 x3 := by
  funext i
  obtain ⟨p, q, rfl⟩ : ∃ (p : Fin R) (q : Fin N), i = ix2 p q := ⟨i 0, i 1, eq_ix2 i⟩
  rw [scaleDotBiasRelu_apply, maximumf_apply, addf_apply, shapeCast_self, shapeCast_self, shapeCast_self, shapeCast_self]
  refine congrArg₂ max (congrArg₂ (· + ·) ((Cert.LibPlainDot.matmul_zero_apply d hd none
    (truncf .bf16 (mulf x0 (broadcastTo ⟨2, ![R, K]⟩ x1 hb1)) hlt) x2 p q).trans (Finset.sum_congr rfl fun k _ => ?_))
    (broadcastTo_1n_rn_apply x3 hb3 p q)) rfl
  rw [truncf_apply, mulf_apply, Cert.LibColumn.broadcastTo_a1_ab_apply]

/-- The body that projects a block and then scales its rows. -/
theorem body_dotScale (d : DotDims ⟨2, ![R, K]⟩ ⟨2, ![K, N]⟩ ⟨2, ![R, N]⟩) (hd : d = DotDims.plain R K N)
    (x0 : FVec Ideal ⟨2, ![R, K]⟩ .f32) (x1 : FVec Ideal ⟨2, ![K, N]⟩ .bf16) (x2 : FVec Ideal ⟨2, ![R, 1]⟩ .f32)
    (h0 : (⟨2, ![R, K]⟩ : Shape).ShapeCasts ⟨2, ![R, K]⟩) (h1 : (⟨2, ![K, N]⟩ : Shape).ShapeCasts ⟨2, ![K, N]⟩)
    (h2 : (⟨2, ![R, 1]⟩ : Shape).ShapeCasts ⟨2, ![R, 1]⟩)
    (hb2 : (⟨2, ![R, 1]⟩ : Shape).Broadcasts ⟨2, ![R, N]⟩) (hlt : FTy.bf16.bits < FTy.f32.bits) :
    mulf (matmul d none (truncf .bf16 (shapeCast ⟨2, ![R, K]⟩ x0 h0) hlt) (shapeCast ⟨2, ![K, N]⟩ x1 h1)
        (constant ⟨2, ![R, N]⟩ .f32 0x00000000#32))
      (broadcastTo ⟨2, ![R, N]⟩ (shapeCast ⟨2, ![R, 1]⟩ x2 h2) hb2)
    = dotScale x0 x1 x2 := by
  funext i
  obtain ⟨p, q, rfl⟩ : ∃ (p : Fin R) (q : Fin N), i = ix2 p q := ⟨i 0, i 1, eq_ix2 i⟩
  rw [dotScale_apply, mulf_apply, shapeCast_self, shapeCast_self, shapeCast_self, Cert.LibColumn.broadcastTo_a1_ab_apply]
  exact congrArg (· * x2 (ix2 p (0 : Fin 1))) (Cert.LibPlainDot.matmul_zero_apply d hd none (truncf .bf16 x0 hlt) x1 p q)

/-- The body that scales a block's rows, adds the bias row and clips at zero. -/
theorem body_scaleBiasRelu (x0 : FVec Ideal ⟨2, ![R, N]⟩ .f32) (x1 : FVec Ideal ⟨2, ![R, 1]⟩ .f32) (x2 : FVec Ideal ⟨2, ![1, N]⟩ .f32)
    (h0 : (⟨2, ![R, N]⟩ : Shape).ShapeCasts ⟨2, ![R, N]⟩) (h1 : (⟨2, ![R, 1]⟩ : Shape).ShapeCasts ⟨2, ![R, 1]⟩)
    (h2 : (⟨2, ![1, N]⟩ : Shape).ShapeCasts ⟨2, ![1, N]⟩)
    (hb1 : (⟨2, ![R, 1]⟩ : Shape).Broadcasts ⟨2, ![R, N]⟩) (hb2 : (⟨2, ![1, N]⟩ : Shape).Broadcasts ⟨2, ![R, N]⟩) :
    maximumf (addf (mulf (shapeCast ⟨2, ![R, N]⟩ x0 h0) (broadcastTo ⟨2, ![R, N]⟩ (shapeCast ⟨2, ![R, 1]⟩ x1 h1) hb1))
        (broadcastTo ⟨2, ![R, N]⟩ (shapeCast ⟨2, ![1, N]⟩ x2 h2) hb2))
      (broadcast ⟨2, ![R, N]⟩ (Scalar.ofBits .f32 0x00000000#32 : Ideal .f32))
    = scaleBiasRelu x0 x1 x2 := by
  funext i
  obtain ⟨p, q, rfl⟩ : ∃ (p : Fin R) (q : Fin N), i = ix2 p q := ⟨i 0, i 1, eq_ix2 i⟩
  rw [scaleBiasRelu_apply, maximumf_apply, addf_apply, mulf_apply, shapeCast_self, shapeCast_self, shapeCast_self,
    Cert.LibColumn.broadcastTo_a1_ab_apply, broadcastTo_1n_rn_apply, broadcast_apply]
  rfl

/-! ## A block of rows -/

/-- Entry (p, q) of the first step reads only row p of the features and of the column: a block of rows of the result
    is the step of the blocks of rows. -/
theorem scaleDotBiasRelu_rows {R' : ℕ} (ρ : Fin R' → Fin R)
    (a : FVec Ideal ⟨2, ![R, K]⟩ .f32) (c : FVec Ideal ⟨2, ![R, 1]⟩ .f32) (W : FVec Ideal ⟨2, ![K, N]⟩ φ) (b : FVec Ideal ⟨2, ![1, N]⟩ .f32)
    (a' : FVec Ideal ⟨2, ![R', K]⟩ .f32) (c' : FVec Ideal ⟨2, ![R', 1]⟩ .f32) (W' : FVec Ideal ⟨2, ![K, N]⟩ φ) (b' : FVec Ideal ⟨2, ![1, N]⟩ .f32)
    (ha : ∀ p k, a' (ix2 p k) = a (ix2 (ρ p) k)) (hc : ∀ p, c' (ix2 p (0 : Fin 1)) = c (ix2 (ρ p) (0 : Fin 1)))
    (hW : W' = W) (hb : b' = b) (p : Fin R') (q : Fin N) :
    scaleDotBiasRelu a' c' W' b' (ix2 p q) = scaleDotBiasRelu a c W b (ix2 (ρ p) q) := by
  subst hW hb
  rw [scaleDotBiasRelu_apply, scaleDotBiasRelu_apply, hc]
  refine congrArg (fun s => max (s + b' (ix2 (0 : Fin 1) q)) _) (Finset.sum_congr rfl fun k _ => ?_)
  rw [ha]

theorem dotScale_rows {R' : ℕ} (ρ : Fin R' → Fin R)
    (h : FVec Ideal ⟨2, ![R, K]⟩ .f32) (W : FVec Ideal ⟨2, ![K, N]⟩ φ) (c : FVec Ideal ⟨2, ![R, 1]⟩ .f32)
    (h' : FVec Ideal ⟨2, ![R', K]⟩ .f32) (W' : FVec Ideal ⟨2, ![K, N]⟩ φ) (c' : FVec Ideal ⟨2, ![R', 1]⟩ .f32)
    (hh : ∀ p k, h' (ix2 p k) = h (ix2 (ρ p) k)) (hW : W' = W) (hc : ∀ p, c' (ix2 p (0 : Fin 1)) = c (ix2 (ρ p) (0 : Fin 1)))
    (p : Fin R') (q : Fin N) :
    dotScale h' W' c' (ix2 p q) = dotScale h W c (ix2 (ρ p) q) := by
  subst hW
  rw [dotScale_apply, dotScale_apply, hc]
  refine congrArg (fun s => s * c (ix2 (ρ p) (0 : Fin 1))) (Finset.sum_congr rfl fun k _ => ?_)
  rw [hh]

theorem scaleBiasRelu_rows {R' : ℕ} (ρ : Fin R' → Fin R)
    (a : FVec Ideal ⟨2, ![R, N]⟩ .f32) (c : FVec Ideal ⟨2, ![R, 1]⟩ .f32) (b : FVec Ideal ⟨2, ![1, N]⟩ .f32)
    (a' : FVec Ideal ⟨2, ![R', N]⟩ .f32) (c' : FVec Ideal ⟨2, ![R', 1]⟩ .f32) (b' : FVec Ideal ⟨2, ![1, N]⟩ .f32)
    (ha : ∀ p q, a' (ix2 p q) = a (ix2 (ρ p) q)) (hc : ∀ p, c' (ix2 p (0 : Fin 1)) = c (ix2 (ρ p) (0 : Fin 1)))
    (hb : b' = b) (p : Fin R') (q : Fin N) :
    scaleBiasRelu a' c' b' (ix2 p q) = scaleBiasRelu a c b (ix2 (ρ p) q) := by
  subst hb
  rw [scaleBiasRelu_apply, scaleBiasRelu_apply, hc, ha]

/-! ## The host's forms -/

/-- An `[a, 1]` column spread by the host over `b` columns reads, at `(i, j)`, the column's entry `(i, 0)`. -/
theorem broadcastInDim_a1_ab_apply {α : Type} {a b : ℕ} (v : (⟨2, ![a, 1]⟩ : Shape).Idx → α)
    (h : (⟨2, ![a, 1]⟩ : Shape).BroadcastsInDim ⟨2, ![a, b]⟩ ![0, 1]) (i : Fin a) (j : Fin b) :
    broadcastInDim ⟨2, ![a, b]⟩ ![0, 1] h v (ix2 i j) = v (ix2 i (0 : Fin 1)) := by
  refine broadcastInDim_apply ![0, 1] h v (ix2 i j) (ix2 i (0 : Fin 1)) fun ax => ?_
  match ax with
  | ⟨0, _⟩ =>
    show i.val = if a = 1 then 0 else i.val
    split
    · have := i.isLt; omega
    · rfl
  | ⟨1, _⟩ => rfl

/-- The host's first step on the whole matrix: scale the rows by the column, `dot_general`, add the bias spread over
    the rows, clip at zero. -/
theorem host_scaleDotBiasRelu (d : DotDims ⟨2, ![R, K]⟩ ⟨2, ![K, N]⟩ ⟨2, ![R, N]⟩) (hd : d = DotDims.plain R K N)
    (a : FVec Ideal ⟨2, ![R, K]⟩ .f32) (c : FVec Ideal ⟨2, ![R, 1]⟩ .f32) (W : FVec Ideal ⟨2, ![K, N]⟩ .f32) (b : FVec Ideal ⟨1, ![N]⟩ .f32)
    (hc : (⟨2, ![R, 1]⟩ : Shape).BroadcastsInDim ⟨2, ![R, K]⟩ ![0, 1])
    (hb1 : (⟨1, ![N]⟩ : Shape).BroadcastsInDim ⟨2, ![1, N]⟩ ![1]) (hb2 : (⟨2, ![1, N]⟩ : Shape).BroadcastsInDim ⟨2, ![R, N]⟩ ![0, 1])
    (hz : (⟨0, ![]⟩ : Shape).BroadcastsInDim ⟨2, ![R, N]⟩ ![]) :
    maximumf (addf (Host.dotGeneral d none (mulf a (broadcastInDim ⟨2, ![R, K]⟩ ![0, 1] hc c)) W)
        (broadcastInDim ⟨2, ![R, N]⟩ ![0, 1] hb2 (broadcastInDim ⟨2, ![1, N]⟩ ![1] hb1 b)))
      (broadcastInDim ⟨2, ![R, N]⟩ ![] hz (constant (F := Ideal) ⟨0, ![]⟩ .f32 0x00000000#32))
    = scaleDotBiasRelu a c W (Cert.Row.rowOf b) := by
  funext i
  obtain ⟨p, q, rfl⟩ : ∃ (p : Fin R) (q : Fin N), i = ix2 p q := ⟨i 0, i 1, eq_ix2 i⟩
  rw [scaleDotBiasRelu_apply, maximumf_apply, addf_apply, Cert.Row.bcast_row_apply, broadcastInDim_constant, broadcast_apply, Ideal.ofBits_def]
  have hdot := Cert.LibPlainDot.dotGeneral_apply d hd none .single (mulf a (broadcastInDim ⟨2, ![R, K]⟩ ![0, 1] hc c)) W p q
  refine congrArg (fun s => max (s + Cert.Row.rowOf b (ix2 (0 : Fin 1) q)) zeroW) (hdot.trans (Finset.sum_congr rfl fun k _ => ?_))
  rw [mulf_apply, broadcastInDim_a1_ab_apply]

/-- The host's projection of the whole matrix followed by the scaling of its rows. -/
theorem host_dotScale (d : DotDims ⟨2, ![R, K]⟩ ⟨2, ![K, N]⟩ ⟨2, ![R, N]⟩) (hd : d = DotDims.plain R K N)
    (h : FVec Ideal ⟨2, ![R, K]⟩ .f32) (W : FVec Ideal ⟨2, ![K, N]⟩ .f32) (c : FVec Ideal ⟨2, ![R, 1]⟩ .f32)
    (hc : (⟨2, ![R, 1]⟩ : Shape).BroadcastsInDim ⟨2, ![R, N]⟩ ![0, 1]) :
    mulf (Host.dotGeneral d none h W) (broadcastInDim ⟨2, ![R, N]⟩ ![0, 1] hc c) = dotScale h W c := by
  funext i
  obtain ⟨p, q, rfl⟩ : ∃ (p : Fin R) (q : Fin N), i = ix2 p q := ⟨i 0, i 1, eq_ix2 i⟩
  rw [dotScale_apply, mulf_apply, broadcastInDim_a1_ab_apply]
  exact congrArg (· * c (ix2 p (0 : Fin 1))) (Cert.LibPlainDot.dotGeneral_apply d hd none .single h W p q)

/-- The host's scaling of the rows of the whole matrix, the bias spread over the rows, the clip at zero. -/
theorem host_scaleBiasRelu (a : FVec Ideal ⟨2, ![R, N]⟩ .f32) (c : FVec Ideal ⟨2, ![R, 1]⟩ .f32) (b : FVec Ideal ⟨1, ![N]⟩ .f32)
    (hc : (⟨2, ![R, 1]⟩ : Shape).BroadcastsInDim ⟨2, ![R, N]⟩ ![0, 1])
    (hb1 : (⟨1, ![N]⟩ : Shape).BroadcastsInDim ⟨2, ![1, N]⟩ ![1]) (hb2 : (⟨2, ![1, N]⟩ : Shape).BroadcastsInDim ⟨2, ![R, N]⟩ ![0, 1])
    (hz : (⟨0, ![]⟩ : Shape).BroadcastsInDim ⟨2, ![R, N]⟩ ![]) :
    maximumf (addf (mulf a (broadcastInDim ⟨2, ![R, N]⟩ ![0, 1] hc c))
        (broadcastInDim ⟨2, ![R, N]⟩ ![0, 1] hb2 (broadcastInDim ⟨2, ![1, N]⟩ ![1] hb1 b)))
      (broadcastInDim ⟨2, ![R, N]⟩ ![] hz (constant (F := Ideal) ⟨0, ![]⟩ .f32 0x00000000#32))
    = scaleBiasRelu a c (Cert.Row.rowOf b) := by
  funext i
  obtain ⟨p, q, rfl⟩ : ∃ (p : Fin R) (q : Fin N), i = ix2 p q := ⟨i 0, i 1, eq_ix2 i⟩
  rw [scaleBiasRelu_apply, maximumf_apply, addf_apply, mulf_apply, Cert.Row.bcast_row_apply, broadcastInDim_constant, broadcast_apply, Ideal.ofBits_def,
    broadcastInDim_a1_ab_apply]

end Cert.LayerForms

end
-- ==== Proof.LibChebStep.lean ====
/-
  One Chebyshev step of order two, read at an entry of its result.

  For node features x (R×K), the neighbour sums agg (R×K), a per-node coefficient d (an R×1 column), one scalar ν (a
  1×1 array), two weight matrices W₀, W₁ (K×N) and a bias b (length N), the step is

      pre  (p,q) = Σₖ x(p,k)·W₀(k,q) + Σₖ (ν·agg(p,k) + d(p)·x(p,k))·W₁(k,q) + b(q)
      relu (p,q) = max (pre (p,q)) 0
      res  (p,q) = (y(p,q) + relu (p,q)) · ½        for a second R×N array y.

  Each is reached two ways over the extended reals: by the vector unit's operations on a block of rows (the scalar read
  out of its 1×1 array and splat, the column spread over the block, a change of float format that is the identity, two
  matrix products into zero accumulators, the bias recast as a row and spread), and by the host's operations on whole
  arrays (broadcasts of the scalar, of the coefficient vector through a column, of the bias through a row; two
  `dot_general`s; a quotient by 2 in place of the product with ½).  Entry (p,q) reads only row p of the row-indexed
  operands, so a block of rows of the whole-array result is the same function of the blocks of rows.
-/
import Idealize.ShloMosaic.PureOps.Ideal.Laws
import Idealize.ShloMosaic.Lib.ValueIdx
import Idealize.ShloMosaic.Lib.Pipeline.Value
import Idealize.ShloMosaic.Lib.KernelVsHost
import proofs.«159116_j1211180777897_1_alg».proof.Proof.LibPlainDot
import proofs.«159116_j1211180777897_1_alg».proof.Proof.LibColumn
import proofs.«159116_j1211180777897_1_alg».proof.Proof.LibBiasRow
import proofs.«159116_j1211180777897_1_alg».proof.Proof.LibLayerForms

noncomputable section

namespace Cert.ChebStep

open Idealize.ShloMosaic Idealize.ShloMosaic.ValueIdx
open scoped BigOperators

variable {R K N : ℕ}

/-- The float zero the steps clip against, kept as its word. -/
abbrev zeroW : EReal := Ideal.ofBits .f32 0x00000000#32
/-- The float one half of the residual average, kept as its word. -/
abbrev halfW : EReal := Ideal.ofBits .f32 0x3F000000#32
/-- The float two the reference divides by, kept as its word. -/
abbrev twoW : EReal := Ideal.ofBits .f32 0x40000000#32

/-- x·W₀ + (ν·agg + d∘x)·W₁ + b. -/
def pre (x agg : FVec Ideal ⟨2, ![R, K]⟩ .f32) (dc : FVec Ideal ⟨2, ![R, 1]⟩ .f32) (nc : FVec Ideal ⟨2, ![1, 1]⟩ .f32)
    (w0 w1 : FVec Ideal ⟨2, ![K, N]⟩ .f32) (b : FVec Ideal ⟨1, ![N]⟩ .f32) : FVec Ideal ⟨2, ![R, N]⟩ .f32 :=
  fun i => ((∑ k : Fin K, x (ix2 (i 0) k) * w0 (ix2 k (i 1)))
      + ∑ k : Fin K, (nc (ix2 (0 : Fin 1) (0 : Fin 1)) * agg (ix2 (i 0) k) + dc (ix2 (i 0) (0 : Fin 1)) * x (ix2 (i 0) k)) * w1 (ix2 k (i 1)))
    + b (ix1 (i 1))

/-- The step clipped at zero. -/
def relu (x agg : FVec Ideal ⟨2, ![R, K]⟩ .f32) (dc : FVec Ideal ⟨2, ![R, 1]⟩ .f32) (nc : FVec Ideal ⟨2, ![1, 1]⟩ .f32)
    (w0 w1 : FVec Ideal ⟨2, ![K, N]⟩ .f32) (b : FVec Ideal ⟨1, ![N]⟩ .f32) : FVec Ideal ⟨2, ![R, N]⟩ .f32 :=
  fun i => max (pre x agg dc nc w0 w1 b i) zeroW

/-- The clipped step averaged with a second array. -/
def res (x agg : FVec Ideal ⟨2, ![R, K]⟩ .f32) (dc : FVec Ideal ⟨2, ![R, 1]⟩ .f32) (nc : FVec Ideal ⟨2, ![1, 1]⟩ .f32)
    (w0 w1 : FVec Ideal ⟨2, ![K, N]⟩ .f32) (b : FVec Ideal ⟨1, ![N]⟩ .f32) (y : FVec Ideal ⟨2, ![R, N]⟩ .f32) :
    FVec Ideal ⟨2, ![R, N]⟩ .f32 :=
  fun i => (y i + relu x agg dc nc w0 w1 b i) * halfW

theorem pre_apply (x agg : FVec Ideal ⟨2, ![R, K]⟩ .f32) (dc : FVec Ideal ⟨2, ![R, 1]⟩ .f32) (nc : FVec Ideal ⟨2, ![1, 1]⟩ .f32)
    (w0 w1 : FVec Ideal ⟨2, ![K, N]⟩ .f32) (b : FVec Ideal ⟨1, ![N]⟩ .f32) (p : Fin R) (q : Fin N) :
    pre x agg dc nc w0 w1 b (ix2 p q)
      = ((∑ k : Fin K, x (ix2 p k) * w0 (ix2 k q))
          + ∑ k : Fin K, (nc (ix2 (0 : Fin 1) (0 : Fin 1)) * agg (ix2 p k) + dc (ix2 p (0 : Fin 1)) * x (ix2 p k)) * w1 (ix2 k q))
        + b (ix1 q) := rfl

theorem relu_apply (x agg : FVec Ideal ⟨2, ![R, K]⟩ .f32) (dc : FVec Ideal ⟨2, ![R, 1]⟩ .f32) (nc : FVec Ideal ⟨2, ![1, 1]⟩ .f32)
    (w0 w1 : FVec Ideal ⟨2, ![K, N]⟩ .f32) (b : FVec Ideal ⟨1, ![N]⟩ .f32) (i : (⟨2, ![R, N]⟩ : Shape).Idx) :
    relu x agg dc nc w0 w1 b i = max (pre x agg dc nc w0 w1 b i) zeroW := rfl

theorem res_apply (x agg : FVec Ideal ⟨2, ![R, K]⟩ .f32) (dc : FVec Ideal ⟨2, ![R, 1]⟩ .f32) (nc : FVec Ideal ⟨2, ![1, 1]⟩ .f32)
    (w0 w1 : FVec Ideal ⟨2, ![K, N]⟩ .f32) (b : FVec Ideal ⟨1, ![N]⟩ .f32) (y : FVec Ideal ⟨2, ![R, N]⟩ .f32)
    (i : (⟨2, ![R, N]⟩ : Shape).Idx) :
    res x agg dc nc w0 w1 b y i = (y i + relu x agg dc nc w0 w1 b i) * halfW := rfl

/-! ## Small reads -/

/-- The entry of a 1×1 array read out at position (0,0). -/
theorem extractAt_00 {α : Type} (v : (⟨2, ![1, 1]⟩ : Shape).Idx → α)
    (h : ∀ a, (![0, 0] : Fin 2 → ℕ) a < (⟨2, ![1, 1]⟩ : Shape).size a) :
    extractAt ![0, 0] v h = v (ix2 (0 : Fin 1) (0 : Fin 1)) := by
  unfold extractAt
  refine congrArg v (funext fun a => Fin.ext ?_)
  match a with
  | ⟨0, _⟩ => rfl
  | ⟨1, _⟩ => rfl

/-- A scalar spread by the host over a matrix reads the scalar everywhere. -/
theorem broadcastInDim_scalar_apply {α : Type} {a b : ℕ} (v : (⟨0, ![]⟩ : Shape).Idx → α)
    (h : (⟨0, ![]⟩ : Shape).BroadcastsInDim ⟨2, ![a, b]⟩ ![]) (i : (⟨2, ![a, b]⟩ : Shape).Idx) :
    broadcastInDim ⟨2, ![a, b]⟩ ![] h v i = v ix0 :=
  broadcastInDim_apply ![] h v i ix0 (fun ax => ax.elim0)

/-- A scalar recast as a 1×1 array reads the scalar. -/
theorem shapeCast_scalar_11_apply {α : Type} (v : (⟨0, ![]⟩ : Shape).Idx → α)
    (h : (⟨0, ![]⟩ : Shape).ShapeCasts ⟨2, ![1, 1]⟩) :
    shapeCast ⟨2, ![1, 1]⟩ v h (ix2 (0 : Fin 1) (0 : Fin 1)) = v ix0 :=
  shapeCast_apply v h _ _ (by rw [Shape.rowMajor_val_two]; rfl)

/-- A length-a vector spread by the host into an a×1 column reads, at (i, 0), the vector at i. -/
theorem broadcastInDim_a_a1_apply {α : Type} {a : ℕ} (v : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h v (ix2 i u) = v (ix1 i) := by
  refine broadcastInDim_apply ![0] h v (ix2 i u) (ix1 i) fun ax => ?_
  match ax with
  | ⟨0, _⟩ =>
    show i.val = if a = 1 then 0 else i.val
    split
    · have := i.isLt; omega
    · rfl

/-! ## The vector unit's forms -/

/-- The body's arithmetic up to the bias. -/
theorem body_pre (d : DotDims ⟨2, ![R, K]⟩ ⟨2, ![K, N]⟩ ⟨2, ![R, N]⟩) (hd : d = DotDims.plain R K N)
    (x agg : FVec Ideal ⟨2, ![R, K]⟩ .f32) (dc : FVec Ideal ⟨2, ![R, 1]⟩ .f32) (nc : FVec Ideal ⟨2, ![1, 1]⟩ .f32)
    (w0 w1 : FVec Ideal ⟨2, ![K, N]⟩ .f32) (b : FVec Ideal ⟨1, ![N]⟩ .f32)
    (hpos : ∀ a, (![0, 0] : Fin 2 → ℕ) a < (⟨2, ![1, 1]⟩ : Shape).size a)
    (hbc : (⟨2, ![R, 1]⟩ : Shape).Broadcasts ⟨2, ![R, K]⟩)
    (hcast : (⟨1, ![N]⟩ : Shape).ShapeCasts ⟨2, ![1, N]⟩) (hbr : (⟨2, ![1, N]⟩ : Shape).Broadcasts ⟨2, ![R, N]⟩)
    (hlt : FTy.bf16.bits < FTy.f32.bits) :
    addf (addf (matmul d none (truncf .bf16 x hlt) (truncf .bf16 w0 hlt) (constant ⟨2, ![R, N]⟩ .f32 0x00000000#32))
        (matmul d none (truncf .bf16 (addf (mulf (broadcast ⟨2, ![R, K]⟩ (extractAt ![0, 0] nc hpos)) agg)
            (mulf (broadcastTo ⟨2, ![R, K]⟩ dc hbc) x)) hlt) (truncf .bf16 w1 hlt)
          (constant ⟨2, ![R, N]⟩ .f32 0x00000000#32)))
      (broadcastTo ⟨2, ![R, N]⟩ (shapeCast ⟨2, ![1, N]⟩ b hcast) hbr)
    = pre x agg dc nc w0 w1 b := by
  funext i
  obtain ⟨p, q, rfl⟩ : ∃ (p : Fin R) (q : Fin N), i = ix2 p q := ⟨i 0, i 1, eq_ix2 i⟩
  rw [pre_apply, addf_apply, addf_apply]
  refine congrArg₂ (· + ·) (congrArg₂ (· + ·) ?_ ?_) ?_
  · exact Cert.LibPlainDot.matmul_zero_apply d hd none (truncf .bf16 x hlt) (truncf .bf16 w0 hlt) p q
  · refine (Cert.LibPlainDot.matmul_zero_apply d hd none _ (truncf .bf16 w1 hlt) p q).trans
      (Finset.sum_congr rfl fun k _ => ?_)
    rw [truncf_apply, truncf_apply, addf_apply, mulf_apply, mulf_apply, broadcast_apply,
      Cert.LibColumn.broadcastTo_a1_ab_apply, extractAt_00]
  · rw [Cert.LayerForms.broadcastTo_1n_rn_apply, Cert.Row.shapeCast_row]
    rfl

/-- The body that clips the step at zero. -/
theorem body_relu (d : DotDims ⟨2, ![R, K]⟩ ⟨2, ![K, N]⟩ ⟨2, ![R, N]⟩) (hd : d = DotDims.plain R K N)
    (x agg : FVec Ideal ⟨2, ![R, K]⟩ .f32) (dc : FVec Ideal ⟨2, ![R, 1]⟩ .f32) (nc : FVec Ideal ⟨2, ![1, 1]⟩ .f32)
    (w0 w1 : FVec Ideal ⟨2, ![K, N]⟩ .f32) (b : FVec Ideal ⟨1, ![N]⟩ .f32)
    (hpos : ∀ a, (![0, 0] : Fin 2 → ℕ) a < (⟨2, ![1, 1]⟩ : Shape).size a)
    (hbc : (⟨2, ![R, 1]⟩ : Shape).Broadcasts ⟨2, ![R, K]⟩)
    (hcast : (⟨1, ![N]⟩ : Shape).ShapeCasts ⟨2, ![1, N]⟩) (hbr : (⟨2, ![1, N]⟩ : Shape).Broadcasts ⟨2, ![R, N]⟩)
    (hlt : FTy.bf16.bits < FTy.f32.bits) :
    maximumf (addf (addf (matmul d none (truncf .bf16 x hlt) (truncf .bf16 w0 hlt) (constant ⟨2, ![R, N]⟩ .f32 0x00000000#32))
        (matmul d none (truncf .bf16 (addf (mulf (broadcast ⟨2, ![R, K]⟩ (extractAt ![0, 0] nc hpos)) agg)
            (mulf (broadcastTo ⟨2, ![R, K]⟩ dc hbc) x)) hlt) (truncf .bf16 w1 hlt)
          (constant ⟨2, ![R, N]⟩ .f32 0x00000000#32)))
      (broadcastTo ⟨2, ![R, N]⟩ (shapeCast ⟨2, ![1, N]⟩ b hcast) hbr))
      (broadcast ⟨2, ![R, N]⟩ (Scalar.ofBits .f32 0x00000000#32 : Ideal .f32))
    = relu x agg dc nc w0 w1 b := by
  rw [body_pre d hd x agg dc nc w0 w1 b hpos hbc hcast hbr hlt]
  rfl

/-- The body that clips the step at zero and averages it with a second block. -/
theorem body_res (d : DotDims ⟨2, ![R, K]⟩ ⟨2, ![K, N]⟩ ⟨2, ![R, N]⟩) (hd : d = DotDims.plain R K N)
    (x agg : FVec Ideal ⟨2, ![R, K]⟩ .f32) (dc : FVec Ideal ⟨2, ![R, 1]⟩ .f32) (nc : FVec Ideal ⟨2, ![1, 1]⟩ .f32)
    (w0 w1 : FVec Ideal ⟨2, ![K, N]⟩ .f32) (b : FVec Ideal ⟨1, ![N]⟩ .f32) (y : FVec Ideal ⟨2, ![R, N]⟩ .f32)
    (hpos : ∀ a, (![0, 0] : Fin 2 → ℕ) a < (⟨2, ![1, 1]⟩ : Shape).size a)
    (hbc : (⟨2, ![R, 1]⟩ : Shape).Broadcasts ⟨2, ![R, K]⟩)
    (hcast : (⟨1, ![N]⟩ : Shape).ShapeCasts ⟨2, ![1, N]⟩) (hbr : (⟨2, ![1, N]⟩ : Shape).Broadcasts ⟨2, ![R, N]⟩)
    (hlt : FTy.bf16.bits < FTy.f32.bits) :
    mulf (addf y (maximumf (addf (addf (matmul d none (truncf .bf16 x hlt) (truncf .bf16 w0 hlt) (constant ⟨2, ![R, N]⟩ .f32 0x00000000#32))
        (matmul d none (truncf .bf16 (addf (mulf (broadcast ⟨2, ![R, K]⟩ (extractAt ![0, 0] nc hpos)) agg)
            (mulf (broadcastTo ⟨2, ![R, K]⟩ dc hbc) x)) hlt) (truncf .bf16 w1 hlt)
          (constant ⟨2, ![R, N]⟩ .f32 0x00000000#32)))
      (broadcastTo ⟨2, ![R, N]⟩ (shapeCast ⟨2, ![1, N]⟩ b hcast) hbr))
      (broadcast ⟨2, ![R, N]⟩ (Scalar.ofBits .f32 0x00000000#32 : Ideal .f32))))
      (broadcast ⟨2, ![R, N]⟩ (Scalar.ofBits .f32 0x3F000000#32 : Ideal .f32))
    = res x agg dc nc w0 w1 b y := by
  rw [body_relu d hd x agg dc nc w0 w1 b hpos hbc hcast hbr hlt]
  rfl

/-! ## A block of rows -/

/-- Entry (p, q) of the step reads only row p of the features, of the neighbour sums and of the coefficient column: a
    block of rows of the result is the step of the blocks of rows. -/
theorem pre_rows {R' : ℕ} (ρ : Fin R' → Fin R)
    (x agg : FVec Ideal ⟨2, ![R, K]⟩ .f32) (dc : FVec Ideal ⟨2, ![R, 1]⟩ .f32) (nc : FVec Ideal ⟨2, ![1, 1]⟩ .f32)
    (w0 w1 : FVec Ideal ⟨2, ![K, N]⟩ .f32) (b : FVec Ideal ⟨1, ![N]⟩ .f32)
    (x' agg' : FVec Ideal ⟨2, ![R', K]⟩ .f32) (dc' : FVec Ideal ⟨2, ![R', 1]⟩ .f32) (nc' : FVec Ideal ⟨2, ![1, 1]⟩ .f32)
    (w0' w1' : FVec Ideal ⟨2, ![K, N]⟩ .f32) (b' : FVec Ideal ⟨1, ![N]⟩ .f32)
    (hx : ∀ p k, x' (ix2 p k) = x (ix2 (ρ p) k)) (hagg : ∀ p k, agg' (ix2 p k) = agg (ix2 (ρ p) k))
    (hdc : ∀ p, dc' (ix2 p (0 : Fin 1)) = dc (ix2 (ρ p) (0 : Fin 1))) (hnc : nc' = nc)
    (hw0 : w0' = w0) (hw1 : w1' = w1) (hb : b' = b) (p : Fin R') (q : Fin N) :
    pre x' agg' dc' nc' w0' w1' b' (ix2 p q) = pre x agg dc nc w0 w1 b (ix2 (ρ p) q) := by
  subst hnc hw0 hw1 hb
  rw [pre_apply, pre_apply, hdc]
  refine congrArg₂ (fun s t => (s + t) + b' (ix1 q)) (Finset.sum_congr rfl fun k _ => ?_)
    (Finset.sum_congr rfl fun k _ => ?_)
  · rw [hx]
  · rw [hx, hagg]

theorem relu_rows {R' : ℕ} (ρ : Fin R' → Fin R)
    (x agg : FVec Ideal ⟨2, ![R, K]⟩ .f32) (dc : FVec Ideal ⟨2, ![R, 1]⟩ .f32) (nc : FVec Ideal ⟨2, ![1, 1]⟩ .f32)
    (w0 w1 : FVec Ideal ⟨2, ![K, N]⟩ .f32) (b : FVec Ideal ⟨1, ![N]⟩ .f32)
    (x' agg' : FVec Ideal ⟨2, ![R', K]⟩ .f32) (dc' : FVec Ideal ⟨2, ![R', 1]⟩ .f32) (nc' : FVec Ideal ⟨2, ![1, 1]⟩ .f32)
    (w0' w1' : FVec Ideal ⟨2, ![K, N]⟩ .f32) (b' : FVec Ideal ⟨1, ![N]⟩ .f32)
    (hx : ∀ p k, x' (ix2 p k) = x (ix2 (ρ p) k)) (hagg : ∀ p k, agg' (ix2 p k) = agg (ix2 (ρ p) k))
    (hdc : ∀ p, dc' (ix2 p (0 : Fin 1)) = dc (ix2 (ρ p) (0 : Fin 1))) (hnc : nc' = nc)
    (hw0 : w0' = w0) (hw1 : w1' = w1) (hb : b' = b) (p : Fin R') (q : Fin N) :
    relu x' agg' dc' nc' w0' w1' b' (ix2 p q) = relu x agg dc nc w0 w1 b (ix2 (ρ p) q) := by
  rw [relu_apply, relu_apply, pre_rows ρ x agg dc nc w0 w1 b x' agg' dc' nc' w0' w1' b' hx hagg hdc hnc hw0 hw1 hb p q]

theorem res_rows {R' : ℕ} (ρ : Fin R' → Fin R)
    (x agg : FVec Ideal ⟨2, ![R, K]⟩ .f32) (dc : FVec Ideal ⟨2, ![R, 1]⟩ .f32) (nc : FVec Ideal ⟨2, ![1, 1]⟩ .f32)
    (w0 w1 : FVec Ideal ⟨2, ![K, N]⟩ .f32) (b : FVec Ideal ⟨1, ![N]⟩ .f32) (y : FVec Ideal ⟨2, ![R, N]⟩ .f32)
    (x' agg' : FVec Ideal ⟨2, ![R', K]⟩ .f32) (dc' : FVec Ideal ⟨2, ![R', 1]⟩ .f32) (nc' : FVec Ideal ⟨2, ![1, 1]⟩ .f32)
    (w0' w1' : FVec Ideal ⟨2, ![K, N]⟩ .f32) (b' : FVec Ideal ⟨1, ![N]⟩ .f32) (y' : FVec Ideal ⟨2, ![R', N]⟩ .f32)
    (hx : ∀ p k, x' (ix2 p k) = x (ix2 (ρ p) k)) (hagg : ∀ p k, agg' (ix2 p k) = agg (ix2 (ρ p) k))
    (hdc : ∀ p, dc' (ix2 p (0 : Fin 1)) = dc (ix2 (ρ p) (0 : Fin 1))) (hnc : nc' = nc)
    (hw0 : w0' = w0) (hw1 : w1' = w1) (hb : b' = b) (hy : ∀ p q, y' (ix2 p q) = y (ix2 (ρ p) q)) (p : Fin R') (q : Fin N) :
    res x' agg' dc' nc' w0' w1' b' y' (ix2 p q) = res x agg dc nc w0 w1 b y (ix2 (ρ p) q) := by
  rw [res_apply, res_apply, hy, relu_rows ρ x agg dc nc w0 w1 b x' agg' dc' nc' w0' w1' b' hx hagg hdc hnc hw0 hw1 hb p q]

/-! ## The host's forms -/

/-- The host's step on whole arrays, with the coefficient a length-R vector and the scalar a rank-0 array: the same
    function of the vector recast as a column and of the scalar recast as a 1×1 array. -/
theorem host_pre (d : DotDims ⟨2, ![R, K]⟩ ⟨2, ![K, N]⟩ ⟨2, ![R, N]⟩) (hd : d = DotDims.plain R K N)
    (x agg : FVec Ideal ⟨2, ![R, K]⟩ .f32) (dv : FVec Ideal ⟨1, ![R]⟩ .f32) (ns : FVec Ideal ⟨0, ![]⟩ .f32)
    (w0 w1 : FVec Ideal ⟨2, ![K, N]⟩ .f32) (b : FVec Ideal ⟨1, ![N]⟩ .f32)
    (hn : (⟨0, ![]⟩ : Shape).BroadcastsInDim ⟨2, ![R, K]⟩ ![])
    (hd1 : (⟨1, ![R]⟩ : Shape).BroadcastsInDim ⟨2, ![R, 1]⟩ ![0])
    (hd2 : (⟨2, ![R, 1]⟩ : Shape).BroadcastsInDim ⟨2, ![R, K]⟩ ![0, 1])
    (hb1 : (⟨1, ![N]⟩ : Shape).BroadcastsInDim ⟨2, ![1, N]⟩ ![1]) (hb2 : (⟨2, ![1, N]⟩ : Shape).BroadcastsInDim ⟨2, ![R, N]⟩ ![0, 1])
    (hcd : (⟨1, ![R]⟩ : Shape).ShapeCasts ⟨2, ![R, 1]⟩) (hcn : (⟨0, ![]⟩ : Shape).ShapeCasts ⟨2, ![1, 1]⟩) :
    addf (addf (Host.dotGeneral d none x w0)
        (Host.dotGeneral d none (addf (mulf (broadcastInDim ⟨2, ![R, K]⟩ ![] hn ns) agg)
          (mulf (broadcastInDim ⟨2, ![R, K]⟩ ![0, 1] hd2 (broadcastInDim ⟨2, ![R, 1]⟩ ![0] hd1 dv)) x)) w1))
      (broadcastInDim ⟨2, ![R, N]⟩ ![0, 1] hb2 (broadcastInDim ⟨2, ![1, N]⟩ ![1] hb1 b))
    = pre x agg (shapeCast ⟨2, ![R, 1]⟩ dv hcd) (shapeCast ⟨2, ![1, 1]⟩ ns hcn) w0 w1 b := by
  funext i
  obtain ⟨p, q, rfl⟩ : ∃ (p : Fin R) (q : Fin N), i = ix2 p q := ⟨i 0, i 1, eq_ix2 i⟩
  rw [pre_apply, addf_apply, addf_apply, Cert.Row.bcast_row_apply, shapeCast_scalar_11_apply,
    Cert.LibColumn.shapeCast_a_a1_apply]
  refine congrArg₂ (· + ·) (congrArg₂ (· + ·) ?_ ?_) rfl
  · exact Cert.LibPlainDot.dotGeneral_apply d hd none .single x w0 p q
  · refine (Cert.LibPlainDot.dotGeneral_apply d hd none .single _ w1 p q).trans (Finset.sum_congr rfl fun k _ => ?_)
    rw [addf_apply, mulf_apply, mulf_apply, broadcastInDim_scalar_apply, Cert.LayerForms.broadcastInDim_a1_ab_apply,
      broadcastInDim_a_a1_apply]

/-- The host's clipped step. -/
theorem host_relu (d : DotDims ⟨2, ![R, K]⟩ ⟨2, ![K, N]⟩ ⟨2, ![R, N]⟩) (hd : d = DotDims.plain R K N)
    (x agg : FVec Ideal ⟨2, ![R, K]⟩ .f32) (dv : FVec Ideal ⟨1, ![R]⟩ .f32) (ns : FVec Ideal ⟨0, ![]⟩ .f32)
    (w0 w1 : FVec Ideal ⟨2, ![K, N]⟩ .f32) (b : FVec Ideal ⟨1, ![N]⟩ .f32)
    (hn : (⟨0, ![]⟩ : Shape).BroadcastsInDim ⟨2, ![R, K]⟩ ![])
    (hd1 : (⟨1, ![R]⟩ : Shape).BroadcastsInDim ⟨2, ![R, 1]⟩ ![0])
    (hd2 : (⟨2, ![R, 1]⟩ : Shape).BroadcastsInDim ⟨2, ![R, K]⟩ ![0, 1])
    (hb1 : (⟨1, ![N]⟩ : Shape).BroadcastsInDim ⟨2, ![1, N]⟩ ![1]) (hb2 : (⟨2, ![1, N]⟩ : Shape).BroadcastsInDim ⟨2, ![R, N]⟩ ![0, 1])
    (hz : (⟨0, ![]⟩ : Shape).BroadcastsInDim ⟨2, ![R, N]⟩ ![])
    (hcd : (⟨1, ![R]⟩ : Shape).ShapeCasts ⟨2, ![R, 1]⟩) (hcn : (⟨0, ![]⟩ : Shape).ShapeCasts ⟨2, ![1, 1]⟩) :
    maximumf (addf (addf (Host.dotGeneral d none x w0)
        (Host.dotGeneral d none (addf (mulf (broadcastInDim ⟨2, ![R, K]⟩ ![] hn ns) agg)
          (mulf (broadcastInDim ⟨2, ![R, K]⟩ ![0, 1] hd2 (broadcastInDim ⟨2, ![R, 1]⟩ ![0] hd1 dv)) x)) w1))
      (broadcastInDim ⟨2, ![R, N]⟩ ![0, 1] hb2 (broadcastInDim ⟨2, ![1, N]⟩ ![1] hb1 b)))
      (broadcastInDim ⟨2, ![R, N]⟩ ![] hz (constant (F := Ideal) ⟨0, ![]⟩ .f32 0x00000000#32))
    = relu x agg (shapeCast ⟨2, ![R, 1]⟩ dv hcd) (shapeCast ⟨2, ![1, 1]⟩ ns hcn) w0 w1 b := by
  rw [host_pre d hd x agg dv ns w0 w1 b hn hd1 hd2 hb1 hb2 hcd hcn]
  funext i
  rw [relu_apply, maximumf_apply, broadcastInDim_scalar_apply]
  rfl

/-- One half is the reciprocal of two: the word of 0.5 is the real 1/2 and the word of 2.0 the real 2. -/
theorem div_two (a : EReal) : Ideal.div a twoW = a * halfW := by
  have h2 : twoW = ((2 : ℝ) : EReal) := by
    simp [twoW, Ideal.ofBits, Ideal.ieee, -EReal.coe_mul]; norm_num
  have hh : halfW = ((1 / 2 : ℝ) : EReal) := by
    simp [halfW, Ideal.ofBits, Ideal.ieee, -EReal.coe_mul]; norm_num
  rw [h2, hh, Ideal.div_coe (by norm_num : (2 : ℝ) ≠ 0)]

/-- The host's clipped step averaged with a second array by a quotient by two. -/
theorem host_res (d : DotDims ⟨2, ![R, K]⟩ ⟨2, ![K, N]⟩ ⟨2, ![R, N]⟩) (hd : d = DotDims.plain R K N)
    (x agg : FVec Ideal ⟨2, ![R, K]⟩ .f32) (dv : FVec Ideal ⟨1, ![R]⟩ .f32) (ns : FVec Ideal ⟨0, ![]⟩ .f32)
    (w0 w1 : FVec Ideal ⟨2, ![K, N]⟩ .f32) (b : FVec Ideal ⟨1, ![N]⟩ .f32) (y : FVec Ideal ⟨2, ![R, N]⟩ .f32)
    (hn : (⟨0, ![]⟩ : Shape).BroadcastsInDim ⟨2, ![R, K]⟩ ![])
    (hd1 : (⟨1, ![R]⟩ : Shape).BroadcastsInDim ⟨2, ![R, 1]⟩ ![0])
    (hd2 : (⟨2, ![R, 1]⟩ : Shape).BroadcastsInDim ⟨2, ![R, K]⟩ ![0, 1])
    (hb1 : (⟨1, ![N]⟩ : Shape).BroadcastsInDim ⟨2, ![1, N]⟩ ![1]) (hb2 : (⟨2, ![1, N]⟩ : Shape).BroadcastsInDim ⟨2, ![R, N]⟩ ![0, 1])
    (hz : (⟨0, ![]⟩ : Shape).BroadcastsInDim ⟨2, ![R, N]⟩ ![])
    (hcd : (⟨1, ![R]⟩ : Shape).ShapeCasts ⟨2, ![R, 1]⟩) (hcn : (⟨0, ![]⟩ : Shape).ShapeCasts ⟨2, ![1, 1]⟩) :
    Host.divf (addf y (maximumf (addf (addf (Host.dotGeneral d none x w0)
        (Host.dotGeneral d none (addf (mulf (broadcastInDim ⟨2, ![R, K]⟩ ![] hn ns) agg)
          (mulf (broadcastInDim ⟨2, ![R, K]⟩ ![0, 1] hd2 (broadcastInDim ⟨2, ![R, 1]⟩ ![0] hd1 dv)) x)) w1))
      (broadcastInDim ⟨2, ![R, N]⟩ ![0, 1] hb2 (broadcastInDim ⟨2, ![1, N]⟩ ![1] hb1 b)))
      (broadcastInDim ⟨2, ![R, N]⟩ ![] hz (constant (F := Ideal) ⟨0, ![]⟩ .f32 0x00000000#32))))
      (broadcastInDim ⟨2, ![R, N]⟩ ![] hz (constant (F := Ideal) ⟨0, ![]⟩ .f32 0x40000000#32))
    = res x agg (shapeCast ⟨2, ![R, 1]⟩ dv hcd) (shapeCast ⟨2, ![1, 1]⟩ ns hcn) w0 w1 b y := by
  rw [host_relu d hd x agg dv ns w0 w1 b hn hd1 hd2 hb1 hb2 hz hcd hcn]
  funext i
  rw [res_apply]
  show Ideal.div (y i + _) (broadcastInDim ⟨2, ![R, N]⟩ ![] hz (constant (F := Ideal) ⟨0, ![]⟩ .f32 0x40000000#32) i) = _
  rw [broadcastInDim_scalar_apply]
  exact div_two _

end Cert.ChebStep

end
-- ==== Proof.Net.lean ====
/-
  The network both programs compute, as one composition of whole-array functions of the arguments.

  From the edge list e (a 2×E array of node indices) come, once: the degree of every node (a scatter-add of ones along
  the first row of e), the scale 2/(2·max degree), the coefficient vector scale·degree − 1 and the scalar −scale.  For a
  feature array y the neighbour sums agg e y gather y's rows at the second row of e (negative indices wrapped) and
  scatter-add them at the first row.  One step is LibChebStep's `pre` / `relu` / `res` of y, agg e y, the coefficient
  column, the scalar as a 1×1 array, two weight matrices and a bias.  The network is eight steps:

      Y0 = relu x            H1 = relu Y0     Y1 = res H1 Y0     H2 = relu Y1     Y2 = res H2 Y1
      H3 = relu Y2           Y3 = res H3 Y2   Z  = pre Y3

  with the weights of the six middle steps slices of three stacked arrays.  The results are (Z, Y3).

-/
import proofs.«159116_j1211180777897_1_alg».proof.Proof.Gen.ReferenceIdeal
import proofs.«159116_j1211180777897_1_alg».proof.Proof.LibChebStep

set_option maxRecDepth 16384

noncomputable section

namespace Cert.Net

open Cert.ReferenceIdeal Cert.ReferenceIdeal.Gen
open Idealize.ShloMosaic Idealize.ShloMosaic.ValueIdx

/-- The edge list. -/
abbrev EI : Type := (⟨S2x800000, .i32⟩ : BufTy).Contents (Elt Ideal)
/-- A row of node indices. -/
abbrev IV : Type := (⟨S800000, .i32⟩ : BufTy).Contents (Elt Ideal)
abbrev A3 : Type := FVec Ideal S50000x3 .f32
abbrev A256 : Type := FVec Ideal S50000x256 .f32
abbrev W256 : Type := FVec Ideal S256x256 .f32
abbrev B256 : Type := FVec Ideal S256 .f32

theorem hcd : (⟨1, ![50000]⟩ : Shape).ShapeCasts ⟨2, ![50000, 1]⟩ := by decide
theorem hcn : (⟨0, ![]⟩ : Shape).ShapeCasts ⟨2, ![1, 1]⟩ := by decide

/-- The target node of every edge: the first row of the edge list. -/
def rowI (e : EI) : IV := shapeCast _ (extractStridedSlice S1x800000 ![0, 0] e slices_S2x800000_S1x800000_0_0) shapeCasts_S1x800000_S800000
/-- The source node of every edge: the second row of the edge list. -/
def colI (e : EI) : IV := shapeCast _ (extractStridedSlice S1x800000 ![1, 0] e slices_S2x800000_S1x800000_1_0) shapeCasts_S1x800000_S800000
/-- The degree of every node: ones scatter-added along the target indices. -/
def degV (e : EI) : FVec Ideal S50000 .f32 :=
  Host.scatterAdd scatter_S50000_S800000x1_S800000_n_0_0_1 (broadcastInDim S50000 ![] bcast_S_S50000 (constant S_ .f32 0x00000000#32))
    (broadcastInDim S800000x1 ![0] bcast_S800000_S800000x1_0 (rowI e)) (broadcastInDim S800000 ![] bcast_S_S800000 (constant S_ .f32 0x3F800000#32))
/-- The scale 2 / (2 · max degree). -/
def scaleS (e : EI) : FVec Ideal S_ .f32 :=
  Host.divf (constant S_ .f32 0x40000000#32) (mulf (constant S_ .f32 0x40000000#32)
    (Host.reduce FloatOps.maximumf (degV e) (constant S_ .f32 0xFF800000#32) reducesTo_S50000_S_d0 h_S_))
/-- The coefficient vector scale·degree − 1. -/
def dv (e : EI) : FVec Ideal S50000 .f32 :=
  subf (mulf (broadcastInDim S50000 ![] bcast_S_S50000 (scaleS e)) (degV e)) (broadcastInDim S50000 ![] bcast_S_S50000 (constant S_ .f32 0x3F800000#32))
/-- The scalar −scale. -/
def ns (e : EI) : FVec Ideal S_ .f32 := Host.negf (scaleS e)
/-- The coefficient vector as a column. -/
def dc (e : EI) : FVec Ideal ⟨2, ![50000, 1]⟩ .f32 := shapeCast ⟨2, ![50000, 1]⟩ (dv e) hcd
/-- The scalar as a 1×1 array. -/
def nc (e : EI) : FVec Ideal ⟨2, ![1, 1]⟩ .f32 := shapeCast ⟨2, ![1, 1]⟩ (ns e) hcn

/-- Neighbour sums of a 3-column feature array along target indices r and source indices cl. -/
def agg3Of (r cl : IV) (x : A3) : A3 :=
  Host.scatterAdd scatter_S50000x3_S800000x1_S800000x3_1_0_0_1
    (broadcastInDim S50000x3 ![] bcast_S_S50000x3 (constant S_ .f32 0x00000000#32))
    (broadcastInDim S800000x1 ![0] bcast_S800000_S800000x1_0 r)
    (Host.gather gather_S50000x3_S800000x1_S800000x3_1_0_n_n_0_1_13 x
      (broadcastInDim S800000x1 ![0] bcast_S800000_S800000x1_0
        (select (cmpi .slt cl (broadcastInDim S800000 ![] bcast_S_S800000 (constantI S_ 32 0#32)))
          (addi cl (broadcastInDim S800000 ![] bcast_S_S800000 (constantI S_ 32 50000#32))) cl)))

/-- Neighbour sums of a 256-column feature array along target indices r and source indices cl. -/
def aggOf (r cl : IV) (y : A256) : A256 :=
  Host.scatterAdd scatter_S50000x256_S800000x1_S800000x256_1_0_0_1
    (broadcastInDim S50000x256 ![] bcast_S_S50000x256 (constant S_ .f32 0x00000000#32))
    (broadcastInDim S800000x1 ![0] bcast_S800000_S800000x1_0 r)
    (Host.gather gather_S50000x256_S800000x1_S800000x256_1_0_n_n_0_1_1256 y
      (broadcastInDim S800000x1 ![0] bcast_S800000_S800000x1_0
        (select (cmpi .slt cl (broadcastInDim S800000 ![] bcast_S_S800000 (constantI S_ 32 0#32)))
          (addi cl (broadcastInDim S800000 ![] bcast_S_S800000 (constantI S_ 32 50000#32))) cl)))

def agg3 (e : EI) (x : A3) : A3 := agg3Of (rowI e) (colI e) x
def agg (e : EI) (y : A256) : A256 := aggOf (rowI e) (colI e) y

/-- Slice 0 of the stacked weights and biases. -/
def w0s0 (x5 : FVec Ideal S6x256x256 .f32) : W256 := shapeCast _ (extractStridedSlice S1x256x256 ![0, 0, 0] x5 slices_S6x256x256_S1x256x256_0_0_0) shapeCasts_S1x256x256_S256x256
def bs0 (x7 : FVec Ideal S6x256 .f32) : B256 := shapeCast _ (extractStridedSlice S1x256 ![0, 0] x7 slices_S6x256_S1x256_0_0) shapeCasts_S1x256_S256
/-- Slice 1 of the stacked weights and biases. -/
def w0s1 (x5 : FVec Ideal S6x256x256 .f32) : W256 := shapeCast _ (extractStridedSlice S1x256x256 ![1, 0, 0] x5 slices_S6x256x256_S1x256x256_1_0_0) shapeCasts_S1x256x256_S256x256
def bs1 (x7 : FVec Ideal S6x256 .f32) : B256 := shapeCast _ (extractStridedSlice S1x256 ![1, 0] x7 slices_S6x256_S1x256_1_0) shapeCasts_S1x256_S256
/-- Slice 2 of the stacked weights and biases. -/
def w0s2 (x5 : FVec Ideal S6x256x256 .f32) : W256 := shapeCast _ (extractStridedSlice S1x256x256 ![2, 0, 0] x5 slices_S6x256x256_S1x256x256_2_0_0) shapeCasts_S1x256x256_S256x256
def bs2 (x7 : FVec Ideal S6x256 .f32) : B256 := shapeCast _ (extractStridedSlice S1x256 ![2, 0] x7 slices_S6x256_S1x256_2_0) shapeCasts_S1x256_S256
/-- Slice 3 of the stacked weights and biases. -/
def w0s3 (x5 : FVec Ideal S6x256x256 .f32) : W256 := shapeCast _ (extractStridedSlice S1x256x256 ![3, 0, 0] x5 slices_S6x256x256_S1x256x256_3_0_0) shapeCasts_S1x256x256_S256x256
def bs3 (x7 : FVec Ideal S6x256 .f32) : B256 := shapeCast _ (extractStridedSlice S1x256 ![3, 0] x7 slices_S6x256_S1x256_3_0) shapeCasts_S1x256_S256
/-- Slice 4 of the stacked weights and biases. -/
def w0s4 (x5 : FVec Ideal S6x256x256 .f32) : W256 := shapeCast _ (extractStridedSlice S1x256x256 ![4, 0, 0] x5 slices_S6x256x256_S1x256x256_4_0_0) shapeCasts_S1x256x256_S256x256
def bs4 (x7 : FVec Ideal S6x256 .f32) : B256 := shapeCast _ (extractStridedSlice S1x256 ![4, 0] x7 slices_S6x256_S1x256_4_0) shapeCasts_S1x256_S256
/-- Slice 5 of the stacked weights and biases. -/
def w0s5 (x5 : FVec Ideal S6x256x256 .f32) : W256 := shapeCast _ (extractStridedSlice S1x256x256 ![5, 0, 0] x5 slices_S6x256x256_S1x256x256_5_0_0) shapeCasts_S1x256x256_S256x256
def bs5 (x7 : FVec Ideal S6x256 .f32) : B256 := shapeCast _ (extractStridedSlice S1x256 ![5, 0] x7 slices_S6x256_S1x256_5_0) shapeCasts_S1x256_S256

/-- A middle step clipped at zero. -/
def stepRelu (e : EI) (y : A256) (w0 w1 : W256) (b : B256) : A256 :=
  Cert.ChebStep.relu y (agg e y) (dc e) (nc e) w0 w1 b
/-- A middle step clipped at zero and averaged with an earlier array. -/
def stepRes (e : EI) (h yprev : A256) (w0 w1 : W256) (b : B256) : A256 :=
  Cert.ChebStep.res h (agg e h) (dc e) (nc e) w0 w1 b yprev
/-- The first step. -/
def stepIn (e : EI) (x : A3) (w0 w1 : FVec Ideal S3x256 .f32) (b : B256) : A256 :=
  Cert.ChebStep.relu x (agg3 e x) (dc e) (nc e) w0 w1 b
/-- The last step. -/
def stepOut (e : EI) (y : A256) (w0 w1 : FVec Ideal S256x3 .f32) (b : FVec Ideal S3 .f32) : A3 :=
  Cert.ChebStep.pre y (agg e y) (dc e) (nc e) w0 w1 b

section Net
variable (x0 : A3) (e : EI) (x2 x3 : FVec Ideal S3x256 .f32) (x4 : B256)
  (x5 x6 : FVec Ideal S6x256x256 .f32) (x7 : FVec Ideal S6x256 .f32)
  (x8 x9 : FVec Ideal S256x3 .f32) (x10 : FVec Ideal S3 .f32)

def Y0 : A256 := stepIn e x0 x2 x3 x4
def H1 : A256 := stepRelu e (Y0 x0 e x2 x3 x4) (w0s0 x5) (w0s0 x6) (bs0 x7)
def Y1 : A256 := stepRes e (H1 x0 e x2 x3 x4 x5 x6 x7) (Y0 x0 e x2 x3 x4) (w0s1 x5) (w0s1 x6) (bs1 x7)
def H2 : A256 := stepRelu e (Y1 x0 e x2 x3 x4 x5 x6 x7) (w0s2 x5) (w0s2 x6) (bs2 x7)
def Y2 : A256 := stepRes e (H2 x0 e x2 x3 x4 x5 x6 x7) (Y1 x0 e x2 x3 x4 x5 x6 x7) (w0s3 x5) (w0s3 x6) (bs3 x7)
def H3 : A256 := stepRelu e (Y2 x0 e x2 x3 x4 x5 x6 x7) (w0s4 x5) (w0s4 x6) (bs4 x7)
def Y3 : A256 := stepRes e (H3 x0 e x2 x3 x4 x5 x6 x7) (Y2 x0 e x2 x3 x4 x5 x6 x7) (w0s5 x5) (w0s5 x6) (bs5 x7)
def Z : A3 := stepOut e (Y3 x0 e x2 x3 x4 x5 x6 x7) x8 x9 x10

end Net

end Cert.Net

end
-- ==== Proof.Region0.lean ====
/-
  Launch 0 of the dense step, read as one function of whole arrays.

  The launch walks 25 blocks of 2000 rows.  At block t the body sees rows 2000·t … 2000·t+1999 of the feature array, of
  the neighbour sums and of the coefficient column and the whole of the scalar, the two weight matrices and the bias;
  it writes rows 2000·t … of the output.  An entry of the step reads only its own row of the row-indexed operands, so
  what block t writes is block t of the step applied to the whole arrays, and the 25 blocks tile the output.
-/
import proofs.«159116_j1211180777897_1_alg».proof.Proof.Gen.KernelIdeal.Frame
import proofs.«159116_j1211180777897_1_alg».proof.Proof.LibChebStep

set_option maxRecDepth 16384

noncomputable section

namespace Cert.KernelIdeal.Region0

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The body's arithmetic on its loaded blocks is the step of those blocks. -/
theorem pay_eq (x0 x1 : FVec Ideal S2000x3 .f32) (x2 : FVec Ideal S2000x1 .f32) (x3 : FVec Ideal S1x1 .f32)
    (x4 x5 : FVec Ideal S3x256 .f32) (x6 : FVec Ideal S256 .f32) :
    k0_pay1 x0 x1 x2 x3 x4 x5 x6 = Cert.ChebStep.relu x0 x1 x2 x3 x4 x5 x6 := by
  unfold k0_pay1
  simp only [shapeCast_self]
  exact Cert.ChebStep.body_relu _ rfl x0 x1 x2 x3 x4 x5 x6 _ _ _ _ _

/-- The printed block index maps over the 25 points: the row-blocked windows sit at block t, the others at block 0. -/
theorem idx_facts : ∀ t : Fin cfg0.N,
    win0_0.index t (0 : Fin 2) = t.val
    ∧ win0_0.index t (1 : Fin 2) = 0
    ∧ win0_1.index t (0 : Fin 2) = t.val
    ∧ win0_1.index t (1 : Fin 2) = 0
    ∧ win0_2.index t (0 : Fin 2) = t.val
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 1) = 0
    ∧ win0_7.index t (0 : Fin 2) = t.val
    ∧ win0_7.index t (1 : Fin 2) = 0 :=
  (by decide +kernel : ∀ t : Fin grid0.N, _)

theorem lt25 (t : Fin cfg0.N) : t.val < 25 := by
  have h := t.isLt
  have hN : cfg0.N = 25 := N_0
  omega

/-- The row of the whole array under row p of block t. -/
def rowAt (t : Fin cfg0.N) (p : Fin 2000) : Fin 50000 := ⟨t.val * 2000 + p.val, by have := lt25 t; have := p.isLt; omega⟩

/-- What point t writes back is block t of the step of the whole arrays the launch finds. -/
theorem flushed_eq (c : Dev nD) (t : Fin cfg0.N) :
    (dat0 V c).flushed 7 t = ((cfg0.win 7).blk t).view.read (Elt Ideal)
      (Cert.ChebStep.relu (V c main_arg0) (V c main_v27) (V c main_v15) (V c main_v17) (V c main_arg2) (V c main_arg3) (V c main_arg4)) := by
  show (cfg0.win 7).cut (grid0.coords t) ((dat0 V c).after 7 t) = _
  rw [after0_7]
  unfold out0_7
  rw [View.canon_unit_zero hz2]
  simp only [View.ld_unit_zero (S := S2000x3) hz2, View.ld_unit_zero (S := S2000x1) hz2, View.ld_unit_zero (S := S1x1) hz2, View.ld_unit_zero (S := S3x256) hz2, View.ld_unit_zero (S := S2000x256) hz2, View.ld_unit_zero (S := S256) hz1]
  rw [pay_eq]
  obtain ⟨e0, e1, e2, e3, e4, e5, e6, e7, e8, e9, e10, e11, e12, e13, e14⟩ := idx_facts t
  have ht := lt25 t
  have hx : ∀ (p : Fin 2000) (k : Fin 3), iblk0 V c 0 t (ix2 p k) = V c main_arg0 (ix2 (rowAt t p) k) := fun p k => by
    show V c main_arg0 (((cfg0.win 0).blk t).view.emb (ix2 p k)) = V c main_arg0 (ix2 (rowAt t p) k)
    refine congrArg _ (funext fun a => Fin.ext ?_)
    match a with
    | ⟨0, _⟩ => show win0_0.index t (0 : Fin 2) * 2000 + 1 * p.val = t.val * 2000 + p.val; omega
    | ⟨1, _⟩ => show win0_0.index t (1 : Fin 2) * 3 + 1 * k.val = k.val; omega
  have ha : ∀ (p : Fin 2000) (k : Fin 3), iblk0 V c 1 t (ix2 p k) = V c main_v27 (ix2 (rowAt t p) k) := fun p k => by
    show V c main_v27 (((cfg0.win 1).blk t).view.emb (ix2 p k)) = V c main_v27 (ix2 (rowAt t p) k)
    refine congrArg _ (funext fun a => Fin.ext ?_)
    match a with
    | ⟨0, _⟩ => show win0_1.index t (0 : Fin 2) * 2000 + 1 * p.val = t.val * 2000 + p.val; omega
    | ⟨1, _⟩ => show win0_1.index t (1 : Fin 2) * 3 + 1 * k.val = k.val; omega
  have hd : ∀ (p : Fin 2000), iblk0 V c 2 t (ix2 p (0 : Fin 1)) = V c main_v15 (ix2 (rowAt t p) (0 : Fin 1)) := fun p => by
    show V c main_v15 (((cfg0.win 2).blk t).view.emb (ix2 p (0 : Fin 1))) = V c main_v15 (ix2 (rowAt t p) (0 : Fin 1))
    refine congrArg _ (funext fun a => Fin.ext ?_)
    match a with
    | ⟨0, _⟩ => show win0_2.index t (0 : Fin 2) * 2000 + 1 * p.val = t.val * 2000 + p.val; omega
    | ⟨1, _⟩ => show win0_2.index t (1 : Fin 2) * 1 + 1 * 0 = 0; omega
  have hn : iblk0 V c 3 t = V c main_v17 := funext fun y => by
    show V c main_v17 (((cfg0.win 3).blk t).view.emb y) = V c main_v17 y
    refine congrArg _ (funext fun a => Fin.ext ?_)
    match a with
    | ⟨0, _⟩ => show win0_3.index t (0 : Fin 2) * 1 + 1 * (y 0).val = (y 0).val; omega
    | ⟨1, _⟩ => show win0_3.index t (1 : Fin 2) * 1 + 1 * (y 1).val = (y 1).val; omega
  have hw0 : iblk0 V c 4 t = V c main_arg2 := funext fun y => by
    show V c main_arg2 (((cfg0.win 4).blk t).view.emb y) = V c main_arg2 y
    refine congrArg _ (funext fun a => Fin.ext ?_)
    match a with
    | ⟨0, _⟩ => show win0_4.index t (0 : Fin 2) * 3 + 1 * (y 0).val = (y 0).val; omega
    | ⟨1, _⟩ => show win0_4.index t (1 : Fin 2) * 256 + 1 * (y 1).val = (y 1).val; omega
  have hw1 : iblk0 V c 5 t = V c main_arg3 := funext fun y => by
    show V c main_arg3 (((cfg0.win 5).blk t).view.emb y) = V c main_arg3 y
    refine congrArg _ (funext fun a => Fin.ext ?_)
    match a with
    | ⟨0, _⟩ => show win0_5.index t (0 : Fin 2) * 3 + 1 * (y 0).val = (y 0).val; omega
    | ⟨1, _⟩ => show win0_5.index t (1 : Fin 2) * 256 + 1 * (y 1).val = (y 1).val; omega
  have hb : iblk0 V c 6 t = V c main_arg4 := funext fun y => by
    show V c main_arg4 (((cfg0.win 6).blk t).view.emb y) = V c main_arg4 y
    refine congrArg _ (funext fun a => Fin.ext ?_)
    match a with
    | ⟨0, _⟩ => show win0_6.index t (0 : Fin 1) * 256 + 1 * (y 0).val = (y 0).val; omega

  funext j
  obtain ⟨p, q, rfl⟩ : ∃ (p : Fin 2000) (q : Fin 256), j = ix2 p q := ⟨j 0, j 1, eq_ix2 j⟩
  have hemb : ((cfg0.win 7).blk t).view.emb (ix2 p q) = ix2 (rowAt t p) q := by
    refine funext fun a => Fin.ext ?_
    match a with
    | ⟨0, _⟩ => show win0_7.index t (0 : Fin 2) * 2000 + 1 * p.val = t.val * 2000 + p.val; omega
    | ⟨1, _⟩ => show win0_7.index t (1 : Fin 2) * 256 + 1 * q.val = q.val; omega
  show Cert.ChebStep.relu (iblk0 V c 0 t) (iblk0 V c 1 t) (iblk0 V c 2 t) (iblk0 V c 3 t) (iblk0 V c 4 t) (iblk0 V c 5 t) (iblk0 V c 6 t) (ix2 p q)
    = (Cert.ChebStep.relu (V c main_arg0) (V c main_v27) (V c main_v15) (V c main_v17) (V c main_arg2) (V c main_arg3) (V c main_arg4)) (((cfg0.win 7).blk t).view.emb (ix2 p q))
  rw [hemb]
  exact Cert.ChebStep.relu_rows (rowAt t) _ _ _ _ _ _ _ _ _ _ _ _ _ _ hx ha hd hn hw0 hw1 hb p q

/-- An index of the output array lies in point t's block iff its coordinates lie in the block's ranges. -/
theorem mem_blk (t : Fin cfg0.N) (i : S50000x256.Idx) :
    i ∈ ((cfg0.win 7).blk t).view.set ↔ ∀ a : Fin 2, win0_7.index t a * S2000x256.size a ≤ (i a).val ∧ (i a).val < win0_7.index t a * S2000x256.size a + S2000x256.size a := by
  show i ∈ ((View.whole main_v28).slice (win0_7.rect t)).set ↔ _
  rw [View.set_slice_whole, Rect.mem_set_unit]
  exact Iff.rfl

/-- The 25 blocks tile the output array: row r lies in block r / 2000. -/
theorem cover (i : S50000x256.Idx) : ∃ t : Fin cfg0.N, (cfg0.win 7).flush t = true ∧ i ∈ ((cfg0.win 7).blk t).view.set := by
  have hi0 : (i 0).val < 50000 := (i 0).isLt
  have hi1 : (i 1).val < 256 := (i 1).isLt
  have hN : cfg0.N = 25 := N_0
  refine ⟨⟨(i 0).val / 2000, by omega⟩, flush0_7 _, ?_⟩
  rw [mem_blk]
  obtain ⟨e0, e1, e2, e3, e4, e5, e6, e7, e8, e9, e10, e11, e12, e13, e14⟩ := idx_facts ⟨(i 0).val / 2000, by omega⟩
  intro a
  match a with
  | ⟨0, _⟩ => show win0_7.index _ (0 : Fin 2) * 2000 ≤ (i 0).val ∧ (i 0).val < win0_7.index _ (0 : Fin 2) * 2000 + 2000; rw [e13]; show (i 0).val / 2000 * 2000 ≤ (i 0).val ∧ (i 0).val < (i 0).val / 2000 * 2000 + 2000; omega
  | ⟨1, _⟩ => show win0_7.index _ (1 : Fin 2) * 256 ≤ (i 1).val ∧ (i 1).val < win0_7.index _ (1 : Fin 2) * 256 + 256; rw [e14]; omega

/-- The output array after the launch is the step of the whole arrays the launch found. -/
theorem final (c : Dev nD) : (dat0 V c).arrAt 7 cfg0.N = Cert.ChebStep.relu (V c main_arg0) (V c main_v27) (V c main_v15) (V c main_v17) (V c main_arg2) (V c main_arg3) (V c main_arg4) :=
  (dat0 V c).arrAt_eq_of_cover 7 _ (fun t _ => flushed_eq V c t) cover

end Cert.KernelIdeal.Region0

end
-- ==== Proof.Region1.lean ====
/-
  Launch 1 of the dense step, read as one function of whole arrays.

  The launch walks 25 blocks of 2000 rows.  At block t the body sees rows 2000·t … 2000·t+1999 of the feature array, of
  the neighbour sums and of the coefficient column and the whole of the scalar, the two weight matrices and the bias;
  it writes rows 2000·t … of the output.  An entry of the step reads only its own row of the row-indexed operands, so
  what block t writes is block t of the step applied to the whole arrays, and the 25 blocks tile the output.
-/
import proofs.«159116_j1211180777897_1_alg».proof.Proof.Gen.KernelIdeal.Frame
import proofs.«159116_j1211180777897_1_alg».proof.Proof.LibChebStep

set_option maxRecDepth 16384

noncomputable section

namespace Cert.KernelIdeal.Region1

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The body's arithmetic on its loaded blocks is the step of those blocks. -/
theorem pay_eq (x0 x1 : FVec Ideal S2000x256 .f32) (x2 : FVec Ideal S2000x1 .f32) (x3 : FVec Ideal S1x1 .f32)
    (x4 x5 : FVec Ideal S256x256 .f32) (x6 : FVec Ideal S256 .f32) :
    k1_pay1 x0 x1 x2 x3 x4 x5 x6 = Cert.ChebStep.relu x0 x1 x2 x3 x4 x5 x6 := by
  unfold k1_pay1
  simp only [shapeCast_self]
  exact Cert.ChebStep.body_relu _ rfl x0 x1 x2 x3 x4 x5 x6 _ _ _ _ _

/-- The printed block index maps over the 25 points: the row-blocked windows sit at block t, the others at block 0. -/
theorem idx_facts : ∀ t : Fin cfg1.N,
    win1_0.index t (0 : Fin 2) = t.val
    ∧ win1_0.index t (1 : Fin 2) = 0
    ∧ win1_1.index t (0 : Fin 2) = t.val
    ∧ win1_1.index t (1 : Fin 2) = 0
    ∧ win1_2.index t (0 : Fin 2) = t.val
    ∧ win1_2.index t (1 : Fin 2) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 2) = 0
    ∧ win1_5.index t (1 : Fin 2) = 0
    ∧ win1_6.index t (0 : Fin 1) = 0
    ∧ win1_7.index t (0 : Fin 2) = t.val
    ∧ win1_7.index t (1 : Fin 2) = 0 :=
  (by decide +kernel : ∀ t : Fin grid1.N, _)

theorem lt25 (t : Fin cfg1.N) : t.val < 25 := by
  have h := t.isLt
  have hN : cfg1.N = 25 := N_1
  omega

/-- The row of the whole array under row p of block t. -/
def rowAt (t : Fin cfg1.N) (p : Fin 2000) : Fin 50000 := ⟨t.val * 2000 + p.val, by have := lt25 t; have := p.isLt; omega⟩

/-- What point t writes back is block t of the step of the whole arrays the launch finds. -/
theorem flushed_eq (c : Dev nD) (t : Fin cfg1.N) :
    (dat1 V c).flushed 7 t = ((cfg1.win 7).blk t).view.read (Elt Ideal)
      (Cert.ChebStep.relu (V c main_v28) (V c main_v44) (V c main_v15) (V c main_v17) (V c main_v30) (V c main_v32) (V c main_v34)) := by
  show (cfg1.win 7).cut (grid1.coords t) ((dat1 V c).after 7 t) = _
  rw [after1_7]
  unfold out1_7
  rw [View.canon_unit_zero hz2]
  simp only [View.ld_unit_zero (S := S2000x256) hz2, View.ld_unit_zero (S := S2000x1) hz2, View.ld_unit_zero (S := S1x1) hz2, View.ld_unit_zero (S := S256x256) hz2, View.ld_unit_zero (S := S256) hz1]
  rw [pay_eq]
  obtain ⟨e0, e1, e2, e3, e4, e5, e6, e7, e8, e9, e10, e11, e12, e13, e14⟩ := idx_facts t
  have ht := lt25 t
  have hx : ∀ (p : Fin 2000) (k : Fin 256), iblk1 V c 0 t (ix2 p k) = V c main_v28 (ix2 (rowAt t p) k) := fun p k => by
    show V c main_v28 (((cfg1.win 0).blk t).view.emb (ix2 p k)) = V c main_v28 (ix2 (rowAt t p) k)
    refine congrArg _ (funext fun a => Fin.ext ?_)
    match a with
    | ⟨0, _⟩ => show win1_0.index t (0 : Fin 2) * 2000 + 1 * p.val = t.val * 2000 + p.val; omega
    | ⟨1, _⟩ => show win1_0.index t (1 : Fin 2) * 256 + 1 * k.val = k.val; omega
  have ha : ∀ (p : Fin 2000) (k : Fin 256), iblk1 V c 1 t (ix2 p k) = V c main_v44 (ix2 (rowAt t p) k) := fun p k => by
    show V c main_v44 (((cfg1.win 1).blk t).view.emb (ix2 p k)) = V c main_v44 (ix2 (rowAt t p) k)
    refine congrArg _ (funext fun a => Fin.ext ?_)
    match a with
    | ⟨0, _⟩ => show win1_1.index t (0 : Fin 2) * 2000 + 1 * p.val = t.val * 2000 + p.val; omega
    | ⟨1, _⟩ => show win1_1.index t (1 : Fin 2) * 256 + 1 * k.val = k.val; omega
  have hd : ∀ (p : Fin 2000), iblk1 V c 2 t (ix2 p (0 : Fin 1)) = V c main_v15 (ix2 (rowAt t p) (0 : Fin 1)) := fun p => by
    show V c main_v15 (((cfg1.win 2).blk t).view.emb (ix2 p (0 : Fin 1))) = V c main_v15 (ix2 (rowAt t p) (0 : Fin 1))
    refine congrArg _ (funext fun a => Fin.ext ?_)
    match a with
    | ⟨0, _⟩ => show win1_2.index t (0 : Fin 2) * 2000 + 1 * p.val = t.val * 2000 + p.val; omega
    | ⟨1, _⟩ => show win1_2.index t (1 : Fin 2) * 1 + 1 * 0 = 0; omega
  have hn : iblk1 V c 3 t = V c main_v17 := funext fun y => by
    show V c main_v17 (((cfg1.win 3).blk t).view.emb y) = V c main_v17 y
    refine congrArg _ (funext fun a => Fin.ext ?_)
    match a with
    | ⟨0, _⟩ => show win1_3.index t (0 : Fin 2) * 1 + 1 * (y 0).val = (y 0).val; omega
    | ⟨1, _⟩ => show win1_3.index t (1 : Fin 2) * 1 + 1 * (y 1).val = (y 1).val; omega
  have hw0 : iblk1 V c 4 t = V c main_v30 := funext fun y => by
    show V c main_v30 (((cfg1.win 4).blk t).view.emb y) = V c main_v30 y
    refine congrArg _ (funext fun a => Fin.ext ?_)
    match a with
    | ⟨0, _⟩ => show win1_4.index t (0 : Fin 2) * 256 + 1 * (y 0).val = (y 0).val; omega
    | ⟨1, _⟩ => show win1_4.index t (1 : Fin 2) * 256 + 1 * (y 1).val = (y 1).val; omega
  have hw1 : iblk1 V c 5 t = V c main_v32 := funext fun y => by
    show V c main_v32 (((cfg1.win 5).blk t).view.emb y) = V c main_v32 y
    refine congrArg _ (funext fun a => Fin.ext ?_)
    match a with
    | ⟨0, _⟩ => show win1_5.index t (0 : Fin 2) * 256 + 1 * (y 0).val = (y 0).val; omega
    | ⟨1, _⟩ => show win1_5.index t (1 : Fin 2) * 256 + 1 * (y 1).val = (y 1).val; omega
  have hb : iblk1 V c 6 t = V c main_v34 := funext fun y => by
    show V c main_v34 (((cfg1.win 6).blk t).view.emb y) = V c main_v34 y
    refine congrArg _ (funext fun a => Fin.ext ?_)
    match a with
    | ⟨0, _⟩ => show win1_6.index t (0 : Fin 1) * 256 + 1 * (y 0).val = (y 0).val; omega

  funext j
  obtain ⟨p, q, rfl⟩ : ∃ (p : Fin 2000) (q : Fin 256), j = ix2 p q := ⟨j 0, j 1, eq_ix2 j⟩
  have hemb : ((cfg1.win 7).blk t).view.emb (ix2 p q) = ix2 (rowAt t p) q := by
    refine funext fun a => Fin.ext ?_
    match a with
    | ⟨0, _⟩ => show win1_7.index t (0 : Fin 2) * 2000 + 1 * p.val = t.val * 2000 + p.val; omega
    | ⟨1, _⟩ => show win1_7.index t (1 : Fin 2) * 256 + 1 * q.val = q.val; omega
  show Cert.ChebStep.relu (iblk1 V c 0 t) (iblk1 V c 1 t) (iblk1 V c 2 t) (iblk1 V c 3 t) (iblk1 V c 4 t) (iblk1 V c 5 t) (iblk1 V c 6 t) (ix2 p q)
    = (Cert.ChebStep.relu (V c main_v28) (V c main_v44) (V c main_v15) (V c main_v17) (V c main_v30) (V c main_v32) (V c main_v34)) (((cfg1.win 7).blk t).view.emb (ix2 p q))
  rw [hemb]
  exact Cert.ChebStep.relu_rows (rowAt t) _ _ _ _ _ _ _ _ _ _ _ _ _ _ hx ha hd hn hw0 hw1 hb p q

/-- An index of the output array lies in point t's block iff its coordinates lie in the block's ranges. -/
theorem mem_blk (t : Fin cfg1.N) (i : S50000x256.Idx) :
    i ∈ ((cfg1.win 7).blk t).view.set ↔ ∀ a : Fin 2, win1_7.index t a * S2000x256.size a ≤ (i a).val ∧ (i a).val < win1_7.index t a * S2000x256.size a + S2000x256.size a := by
  show i ∈ ((View.whole main_v45).slice (win1_7.rect t)).set ↔ _
  rw [View.set_slice_whole, Rect.mem_set_unit]
  exact Iff.rfl

/-- The 25 blocks tile the output array: row r lies in block r / 2000. -/
theorem cover (i : S50000x256.Idx) : ∃ t : Fin cfg1.N, (cfg1.win 7).flush t = true ∧ i ∈ ((cfg1.win 7).blk t).view.set := by
  have hi0 : (i 0).val < 50000 := (i 0).isLt
  have hi1 : (i 1).val < 256 := (i 1).isLt
  have hN : cfg1.N = 25 := N_1
  refine ⟨⟨(i 0).val / 2000, by omega⟩, flush1_7 _, ?_⟩
  rw [mem_blk]
  obtain ⟨e0, e1, e2, e3, e4, e5, e6, e7, e8, e9, e10, e11, e12, e13, e14⟩ := idx_facts ⟨(i 0).val / 2000, by omega⟩
  intro a
  match a with
  | ⟨0, _⟩ => show win1_7.index _ (0 : Fin 2) * 2000 ≤ (i 0).val ∧ (i 0).val < win1_7.index _ (0 : Fin 2) * 2000 + 2000; rw [e13]; show (i 0).val / 2000 * 2000 ≤ (i 0).val ∧ (i 0).val < (i 0).val / 2000 * 2000 + 2000; omega
  | ⟨1, _⟩ => show win1_7.index _ (1 : Fin 2) * 256 ≤ (i 1).val ∧ (i 1).val < win1_7.index _ (1 : Fin 2) * 256 + 256; rw [e14]; omega

/-- The output array after the launch is the step of the whole arrays the launch found. -/
theorem final (c : Dev nD) : (dat1 V c).arrAt 7 cfg1.N = Cert.ChebStep.relu (V c main_v28) (V c main_v44) (V c main_v15) (V c main_v17) (V c main_v30) (V c main_v32) (V c main_v34) :=
  (dat1 V c).arrAt_eq_of_cover 7 _ (fun t _ => flushed_eq V c t) cover

end Cert.KernelIdeal.Region1

end
-- ==== Proof.Region2.lean ====
/-
  Launch 2 of the dense step, read as one function of whole arrays.

  The launch walks 25 blocks of 2000 rows.  At block t the body sees rows 2000·t … 2000·t+1999 of the feature array, of
  the neighbour sums and of the coefficient column, and of the array it averages with, and the whole of the scalar, the two weight matrices and the bias;
  it writes rows 2000·t … of the output.  An entry of the step reads only its own row of the row-indexed operands, so
  what block t writes is block t of the step applied to the whole arrays, and the 25 blocks tile the output.
-/
import proofs.«159116_j1211180777897_1_alg».proof.Proof.Gen.KernelIdeal.Frame
import proofs.«159116_j1211180777897_1_alg».proof.Proof.LibChebStep

set_option maxRecDepth 16384

noncomputable section

namespace Cert.KernelIdeal.Region2

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The body's arithmetic on its loaded blocks is the step of those blocks. -/
theorem pay_eq (x0 x1 : FVec Ideal S2000x256 .f32) (x2 : FVec Ideal S2000x1 .f32) (x3 : FVec Ideal S1x1 .f32)
    (x4 x5 : FVec Ideal S256x256 .f32) (x6 : FVec Ideal S256 .f32) (x7 : FVec Ideal S2000x256 .f32) :
    k2_pay1 x0 x1 x2 x3 x4 x5 x6 x7 = Cert.ChebStep.res x0 x1 x2 x3 x4 x5 x6 x7 := by
  unfold k2_pay1
  simp only [shapeCast_self]
  exact Cert.ChebStep.body_res _ rfl x0 x1 x2 x3 x4 x5 x6 x7 _ _ _ _ _

/-- The printed block index maps over the 25 points: the row-blocked windows sit at block t, the others at block 0. -/
theorem idx_facts : ∀ t : Fin cfg2.N,
    win2_0.index t (0 : Fin 2) = t.val
    ∧ win2_0.index t (1 : Fin 2) = 0
    ∧ win2_1.index t (0 : Fin 2) = t.val
    ∧ win2_1.index t (1 : Fin 2) = 0
    ∧ win2_2.index t (0 : Fin 2) = t.val
    ∧ win2_2.index t (1 : Fin 2) = 0
    ∧ win2_3.index t (0 : Fin 2) = 0
    ∧ win2_3.index t (1 : Fin 2) = 0
    ∧ win2_4.index t (0 : Fin 2) = 0
    ∧ win2_4.index t (1 : Fin 2) = 0
    ∧ win2_5.index t (0 : Fin 2) = 0
    ∧ win2_5.index t (1 : Fin 2) = 0
    ∧ win2_6.index t (0 : Fin 1) = 0
    ∧ win2_7.index t (0 : Fin 2) = t.val
    ∧ win2_7.index t (1 : Fin 2) = 0
    ∧ win2_8.index t (0 : Fin 2) = t.val
    ∧ win2_8.index t (1 : Fin 2) = 0 :=
  (by decide +kernel : ∀ t : Fin grid2.N, _)

theorem lt25 (t : Fin cfg2.N) : t.val < 25 := by
  have h := t.isLt
  have hN : cfg2.N = 25 := N_2
  omega

/-- The row of the whole array under row p of block t. -/
def rowAt (t : Fin cfg2.N) (p : Fin 2000) : Fin 50000 := ⟨t.val * 2000 + p.val, by have := lt25 t; have := p.isLt; omega⟩

/-- What point t writes back is block t of the step of the whole arrays the launch finds. -/
theorem flushed_eq (c : Dev nD) (t : Fin cfg2.N) :
    (dat2 V c).flushed 8 t = ((cfg2.win 8).blk t).view.read (Elt Ideal)
      (Cert.ChebStep.res (V c main_v45) (V c main_v61) (V c main_v15) (V c main_v17) (V c main_v47) (V c main_v49) (V c main_v51) (V c main_v28)) := by
  show (cfg2.win 8).cut (grid2.coords t) ((dat2 V c).after 8 t) = _
  rw [after2_8]
  unfold out2_8
  rw [View.canon_unit_zero hz2]
  simp only [View.ld_unit_zero (S := S2000x256) hz2, View.ld_unit_zero (S := S2000x1) hz2, View.ld_unit_zero (S := S1x1) hz2, View.ld_unit_zero (S := S256x256) hz2, View.ld_unit_zero (S := S256) hz1]
  rw [pay_eq]
  obtain ⟨e0, e1, e2, e3, e4, e5, e6, e7, e8, e9, e10, e11, e12, e13, e14, e15, e16⟩ := idx_facts t
  have ht := lt25 t
  have hx : ∀ (p : Fin 2000) (k : Fin 256), iblk2 V c 0 t (ix2 p k) = V c main_v45 (ix2 (rowAt t p) k) := fun p k => by
    show V c main_v45 (((cfg2.win 0).blk t).view.emb (ix2 p k)) = V c main_v45 (ix2 (rowAt t p) k)
    refine congrArg _ (funext fun a => Fin.ext ?_)
    match a with
    | ⟨0, _⟩ => show win2_0.index t (0 : Fin 2) * 2000 + 1 * p.val = t.val * 2000 + p.val; omega
    | ⟨1, _⟩ => show win2_0.index t (1 : Fin 2) * 256 + 1 * k.val = k.val; omega
  have ha : ∀ (p : Fin 2000) (k : Fin 256), iblk2 V c 1 t (ix2 p k) = V c main_v61 (ix2 (rowAt t p) k) := fun p k => by
    show V c main_v61 (((cfg2.win 1).blk t).view.emb (ix2 p k)) = V c main_v61 (ix2 (rowAt t p) k)
    refine congrArg _ (funext fun a => Fin.ext ?_)
    match a with
    | ⟨0, _⟩ => show win2_1.index t (0 : Fin 2) * 2000 + 1 * p.val = t.val * 2000 + p.val; omega
    | ⟨1, _⟩ => show win2_1.index t (1 : Fin 2) * 256 + 1 * k.val = k.val; omega
  have hd : ∀ (p : Fin 2000), iblk2 V c 2 t (ix2 p (0 : Fin 1)) = V c main_v15 (ix2 (rowAt t p) (0 : Fin 1)) := fun p => by
    show V c main_v15 (((cfg2.win 2).blk t).view.emb (ix2 p (0 : Fin 1))) = V c main_v15 (ix2 (rowAt t p) (0 : Fin 1))
    refine congrArg _ (funext fun a => Fin.ext ?_)
    match a with
    | ⟨0, _⟩ => show win2_2.index t (0 : Fin 2) * 2000 + 1 * p.val = t.val * 2000 + p.val; omega
    | ⟨1, _⟩ => show win2_2.index t (1 : Fin 2) * 1 + 1 * 0 = 0; omega
  have hn : iblk2 V c 3 t = V c main_v17 := funext fun y => by
    show V c main_v17 (((cfg2.win 3).blk t).view.emb y) = V c main_v17 y
    refine congrArg _ (funext fun a => Fin.ext ?_)
    match a with
    | ⟨0, _⟩ => show win2_3.index t (0 : Fin 2) * 1 + 1 * (y 0).val = (y 0).val; omega
    | ⟨1, _⟩ => show win2_3.index t (1 : Fin 2) * 1 + 1 * (y 1).val = (y 1).val; omega
  have hw0 : iblk2 V c 4 t = V c main_v47 := funext fun y => by
    show V c main_v47 (((cfg2.win 4).blk t).view.emb y) = V c main_v47 y
    refine congrArg _ (funext fun a => Fin.ext ?_)
    match a with
    | ⟨0, _⟩ => show win2_4.index t (0 : Fin 2) * 256 + 1 * (y 0).val = (y 0).val; omega
    | ⟨1, _⟩ => show win2_4.index t (1 : Fin 2) * 256 + 1 * (y 1).val = (y 1).val; omega
  have hw1 : iblk2 V c 5 t = V c main_v49 := funext fun y => by
    show V c main_v49 (((cfg2.win 5).blk t).view.emb y) = V c main_v49 y
    refine congrArg _ (funext fun a => Fin.ext ?_)
    match a with
    | ⟨0, _⟩ => show win2_5.index t (0 : Fin 2) * 256 + 1 * (y 0).val = (y 0).val; omega
    | ⟨1, _⟩ => show win2_5.index t (1 : Fin 2) * 256 + 1 * (y 1).val = (y 1).val; omega
  have hb : iblk2 V c 6 t = V c main_v51 := funext fun y => by
    show V c main_v51 (((cfg2.win 6).blk t).view.emb y) = V c main_v51 y
    refine congrArg _ (funext fun a => Fin.ext ?_)
    match a with
    | ⟨0, _⟩ => show win2_6.index t (0 : Fin 1) * 256 + 1 * (y 0).val = (y 0).val; omega
  have hy : ∀ (p : Fin 2000) (k : Fin 256), iblk2 V c 7 t (ix2 p k) = V c main_v28 (ix2 (rowAt t p) k) := fun p k => by
    show V c main_v28 (((cfg2.win 7).blk t).view.emb (ix2 p k)) = V c main_v28 (ix2 (rowAt t p) k)
    refine congrArg _ (funext fun a => Fin.ext ?_)
    match a with
    | ⟨0, _⟩ => show win2_7.index t (0 : Fin 2) * 2000 + 1 * p.val = t.val * 2000 + p.val; omega
    | ⟨1, _⟩ => show win2_7.index t (1 : Fin 2) * 256 + 1 * k.val = k.val; omega
  funext j
  obtain ⟨p, q, rfl⟩ : ∃ (p : Fin 2000) (q : Fin 256), j = ix2 p q := ⟨j 0, j 1, eq_ix2 j⟩
  have hemb : ((cfg2.win 8).blk t).view.emb (ix2 p q) = ix2 (rowAt t p) q := by
    refine funext fun a => Fin.ext ?_
    match a with
    | ⟨0, _⟩ => show win2_8.index t (0 : Fin 2) * 2000 + 1 * p.val = t.val * 2000 + p.val; omega
    | ⟨1, _⟩ => show win2_8.index t (1 : Fin 2) * 256 + 1 * q.val = q.val; omega
  show Cert.ChebStep.res (iblk2 V c 0 t) (iblk2 V c 1 t) (iblk2 V c 2 t) (iblk2 V c 3 t) (iblk2 V c 4 t) (iblk2 V c 5 t) (iblk2 V c 6 t) (iblk2 V c 7 t) (ix2 p q)
    = (Cert.ChebStep.res (V c main_v45) (V c main_v61) (V c main_v15) (V c main_v17) (V c main_v47) (V c main_v49) (V c main_v51) (V c main_v28)) (((cfg2.win 8).blk t).view.emb (ix2 p q))
  rw [hemb]
  exact Cert.ChebStep.res_rows (rowAt t) _ _ _ _ _ _ _ _ _ _ _ _ _ _ _ _ hx ha hd hn hw0 hw1 hb hy p q

/-- An index of the output array lies in point t's block iff its coordinates lie in the block's ranges. -/
theorem mem_blk (t : Fin cfg2.N) (i : S50000x256.Idx) :
    i ∈ ((cfg2.win 8).blk t).view.set ↔ ∀ a : Fin 2, win2_8.index t a * S2000x256.size a ≤ (i a).val ∧ (i a).val < win2_8.index t a * S2000x256.size a + S2000x256.size a := by
  show i ∈ ((View.whole main_v62).slice (win2_8.rect t)).set ↔ _
  rw [View.set_slice_whole, Rect.mem_set_unit]
  exact Iff.rfl

/-- The 25 blocks tile the output array: row r lies in block r / 2000. -/
theorem cover (i : S50000x256.Idx) : ∃ t : Fin cfg2.N, (cfg2.win 8).flush t = true ∧ i ∈ ((cfg2.win 8).blk t).view.set := by
  have hi0 : (i 0).val < 50000 := (i 0).isLt
  have hi1 : (i 1).val < 256 := (i 1).isLt
  have hN : cfg2.N = 25 := N_2
  refine ⟨⟨(i 0).val / 2000, by omega⟩, flush2_8 _, ?_⟩
  rw [mem_blk]
  obtain ⟨e0, e1, e2, e3, e4, e5, e6, e7, e8, e9, e10, e11, e12, e13, e14, e15, e16⟩ := idx_facts ⟨(i 0).val / 2000, by omega⟩
  intro a
  match a with
  | ⟨0, _⟩ => show win2_8.index _ (0 : Fin 2) * 2000 ≤ (i 0).val ∧ (i 0).val < win2_8.index _ (0 : Fin 2) * 2000 + 2000; rw [e15]; show (i 0).val / 2000 * 2000 ≤ (i 0).val ∧ (i 0).val < (i 0).val / 2000 * 2000 + 2000; omega
  | ⟨1, _⟩ => show win2_8.index _ (1 : Fin 2) * 256 ≤ (i 1).val ∧ (i 1).val < win2_8.index _ (1 : Fin 2) * 256 + 256; rw [e16]; omega

/-- The output array after the launch is the step of the whole arrays the launch found. -/
theorem final (c : Dev nD) : (dat2 V c).arrAt 8 cfg2.N = Cert.ChebStep.res (V c main_v45) (V c main_v61) (V c main_v15) (V c main_v17) (V c main_v47) (V c main_v49) (V c main_v51) (V c main_v28) :=
  (dat2 V c).arrAt_eq_of_cover 8 _ (fun t _ => flushed_eq V c t) cover

end Cert.KernelIdeal.Region2

end
-- ==== Proof.Region3.lean ====
/-
  Launch 3 of the dense step, read as one function of whole arrays.

  The launch walks 25 blocks of 2000 rows.  At block t the body sees rows 2000·t … 2000·t+1999 of the feature array, of
  the neighbour sums and of the coefficient column and the whole of the scalar, the two weight matrices and the bias;
  it writes rows 2000·t … of the output.  An entry of the step reads only its own row of the row-indexed operands, so
  what block t writes is block t of the step applied to the whole arrays, and the 25 blocks tile the output.
-/
import proofs.«159116_j1211180777897_1_alg».proof.Proof.Gen.KernelIdeal.Frame
import proofs.«159116_j1211180777897_1_alg».proof.Proof.LibChebStep

set_option maxRecDepth 16384

noncomputable section

namespace Cert.KernelIdeal.Region3

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The body's arithmetic on its loaded blocks is the step of those blocks. -/
theorem pay_eq (x0 x1 : FVec Ideal S2000x256 .f32) (x2 : FVec Ideal S2000x1 .f32) (x3 : FVec Ideal S1x1 .f32)
    (x4 x5 : FVec Ideal S256x256 .f32) (x6 : FVec Ideal S256 .f32) :
    k3_pay1 x0 x1 x2 x3 x4 x5 x6 = Cert.ChebStep.relu x0 x1 x2 x3 x4 x5 x6 := by
  unfold k3_pay1
  simp only [shapeCast_self]
  exact Cert.ChebStep.body_relu _ rfl x0 x1 x2 x3 x4 x5 x6 _ _ _ _ _

/-- The printed block index maps over the 25 points: the row-blocked windows sit at block t, the others at block 0. -/
theorem idx_facts : ∀ t : Fin cfg3.N,
    win3_0.index t (0 : Fin 2) = t.val
    ∧ win3_0.index t (1 : Fin 2) = 0
    ∧ win3_1.index t (0 : Fin 2) = t.val
    ∧ win3_1.index t (1 : Fin 2) = 0
    ∧ win3_2.index t (0 : Fin 2) = t.val
    ∧ win3_2.index t (1 : Fin 2) = 0
    ∧ win3_3.index t (0 : Fin 2) = 0
    ∧ win3_3.index t (1 : Fin 2) = 0
    ∧ win3_4.index t (0 : Fin 2) = 0
    ∧ win3_4.index t (1 : Fin 2) = 0
    ∧ win3_5.index t (0 : Fin 2) = 0
    ∧ win3_5.index t (1 : Fin 2) = 0
    ∧ win3_6.index t (0 : Fin 1) = 0
    ∧ win3_7.index t (0 : Fin 2) = t.val
    ∧ win3_7.index t (1 : Fin 2) = 0 :=
  (by decide +kernel : ∀ t : Fin grid3.N, _)

theorem lt25 (t : Fin cfg3.N) : t.val < 25 := by
  have h := t.isLt
  have hN : cfg3.N = 25 := N_3
  omega

/-- The row of the whole array under row p of block t. -/
def rowAt (t : Fin cfg3.N) (p : Fin 2000) : Fin 50000 := ⟨t.val * 2000 + p.val, by have := lt25 t; have := p.isLt; omega⟩

/-- What point t writes back is block t of the step of the whole arrays the launch finds. -/
theorem flushed_eq (c : Dev nD) (t : Fin cfg3.N) :
    (dat3 V c).flushed 7 t = ((cfg3.win 7).blk t).view.read (Elt Ideal)
      (Cert.ChebStep.relu (V c main_v62) (V c main_v78) (V c main_v15) (V c main_v17) (V c main_v64) (V c main_v66) (V c main_v68)) := by
  show (cfg3.win 7).cut (grid3.coords t) ((dat3 V c).after 7 t) = _
  rw [after3_7]
  unfold out3_7
  rw [View.canon_unit_zero hz2]
  simp only [View.ld_unit_zero (S := S2000x256) hz2, View.ld_unit_zero (S := S2000x1) hz2, View.ld_unit_zero (S := S1x1) hz2, View.ld_unit_zero (S := S256x256) hz2, View.ld_unit_zero (S := S256) hz1]
  rw [pay_eq]
  obtain ⟨e0, e1, e2, e3, e4, e5, e6, e7, e8, e9, e10, e11, e12, e13, e14⟩ := idx_facts t
  have ht := lt25 t
  have hx : ∀ (p : Fin 2000) (k : Fin 256), iblk3 V c 0 t (ix2 p k) = V c main_v62 (ix2 (rowAt t p) k) := fun p k => by
    show V c main_v62 (((cfg3.win 0).blk t).view.emb (ix2 p k)) = V c main_v62 (ix2 (rowAt t p) k)
    refine congrArg _ (funext fun a => Fin.ext ?_)
    match a with
    | ⟨0, _⟩ => show win3_0.index t (0 : Fin 2) * 2000 + 1 * p.val = t.val * 2000 + p.val; omega
    | ⟨1, _⟩ => show win3_0.index t (1 : Fin 2) * 256 + 1 * k.val = k.val; omega
  have ha : ∀ (p : Fin 2000) (k : Fin 256), iblk3 V c 1 t (ix2 p k) = V c main_v78 (ix2 (rowAt t p) k) := fun p k => by
    show V c main_v78 (((cfg3.win 1).blk t).view.emb (ix2 p k)) = V c main_v78 (ix2 (rowAt t p) k)
    refine congrArg _ (funext fun a => Fin.ext ?_)
    match a with
    | ⟨0, _⟩ => show win3_1.index t (0 : Fin 2) * 2000 + 1 * p.val = t.val * 2000 + p.val; omega
    | ⟨1, _⟩ => show win3_1.index t (1 : Fin 2) * 256 + 1 * k.val = k.val; omega
  have hd : ∀ (p : Fin 2000), iblk3 V c 2 t (ix2 p (0 : Fin 1)) = V c main_v15 (ix2 (rowAt t p) (0 : Fin 1)) := fun p => by
    show V c main_v15 (((cfg3.win 2).blk t).view.emb (ix2 p (0 : Fin 1))) = V c main_v15 (ix2 (rowAt t p) (0 : Fin 1))
    refine congrArg _ (funext fun a => Fin.ext ?_)
    match a with
    | ⟨0, _⟩ => show win3_2.index t (0 : Fin 2) * 2000 + 1 * p.val = t.val * 2000 + p.val; omega
    | ⟨1, _⟩ => show win3_2.index t (1 : Fin 2) * 1 + 1 * 0 = 0; omega
  have hn : iblk3 V c 3 t = V c main_v17 := funext fun y => by
    show V c main_v17 (((cfg3.win 3).blk t).view.emb y) = V c main_v17 y
    refine congrArg _ (funext fun a => Fin.ext ?_)
    match a with
    | ⟨0, _⟩ => show win3_3.index t (0 : Fin 2) * 1 + 1 * (y 0).val = (y 0).val; omega
    | ⟨1, _⟩ => show win3_3.index t (1 : Fin 2) * 1 + 1 * (y 1).val = (y 1).val; omega
  have hw0 : iblk3 V c 4 t = V c main_v64 := funext fun y => by
    show V c main_v64 (((cfg3.win 4).blk t).view.emb y) = V c main_v64 y
    refine congrArg _ (funext fun a => Fin.ext ?_)
    match a with
    | ⟨0, _⟩ => show win3_4.index t (0 : Fin 2) * 256 + 1 * (y 0).val = (y 0).val; omega
    | ⟨1, _⟩ => show win3_4.index t (1 : Fin 2) * 256 + 1 * (y 1).val = (y 1).val; omega
  have hw1 : iblk3 V c 5 t = V c main_v66 := funext fun y => by
    show V c main_v66 (((cfg3.win 5).blk t).view.emb y) = V c main_v66 y
    refine congrArg _ (funext fun a => Fin.ext ?_)
    match a with
    | ⟨0, _⟩ => show win3_5.index t (0 : Fin 2) * 256 + 1 * (y 0).val = (y 0).val; omega
    | ⟨1, _⟩ => show win3_5.index t (1 : Fin 2) * 256 + 1 * (y 1).val = (y 1).val; omega
  have hb : iblk3 V c 6 t = V c main_v68 := funext fun y => by
    show V c main_v68 (((cfg3.win 6).blk t).view.emb y) = V c main_v68 y
    refine congrArg _ (funext fun a => Fin.ext ?_)
    match a with
    | ⟨0, _⟩ => show win3_6.index t (0 : Fin 1) * 256 + 1 * (y 0).val = (y 0).val; omega

  funext j
  obtain ⟨p, q, rfl⟩ : ∃ (p : Fin 2000) (q : Fin 256), j = ix2 p q := ⟨j 0, j 1, eq_ix2 j⟩
  have hemb : ((cfg3.win 7).blk t).view.emb (ix2 p q) = ix2 (rowAt t p) q := by
    refine funext fun a => Fin.ext ?_
    match a with
    | ⟨0, _⟩ => show win3_7.index t (0 : Fin 2) * 2000 + 1 * p.val = t.val * 2000 + p.val; omega
    | ⟨1, _⟩ => show win3_7.index t (1 : Fin 2) * 256 + 1 * q.val = q.val; omega
  show Cert.ChebStep.relu (iblk3 V c 0 t) (iblk3 V c 1 t) (iblk3 V c 2 t) (iblk3 V c 3 t) (iblk3 V c 4 t) (iblk3 V c 5 t) (iblk3 V c 6 t) (ix2 p q)
    = (Cert.ChebStep.relu (V c main_v62) (V c main_v78) (V c main_v15) (V c main_v17) (V c main_v64) (V c main_v66) (V c main_v68)) (((cfg3.win 7).blk t).view.emb (ix2 p q))
  rw [hemb]
  exact Cert.ChebStep.relu_rows (rowAt t) _ _ _ _ _ _ _ _ _ _ _ _ _ _ hx ha hd hn hw0 hw1 hb p q

/-- An index of the output array lies in point t's block iff its coordinates lie in the block's ranges. -/
theorem mem_blk (t : Fin cfg3.N) (i : S50000x256.Idx) :
    i ∈ ((cfg3.win 7).blk t).view.set ↔ ∀ a : Fin 2, win3_7.index t a * S2000x256.size a ≤ (i a).val ∧ (i a).val < win3_7.index t a * S2000x256.size a + S2000x256.size a := by
  show i ∈ ((View.whole main_v79).slice (win3_7.rect t)).set ↔ _
  rw [View.set_slice_whole, Rect.mem_set_unit]
  exact Iff.rfl

/-- The 25 blocks tile the output array: row r lies in block r / 2000. -/
theorem cover (i : S50000x256.Idx) : ∃ t : Fin cfg3.N, (cfg3.win 7).flush t = true ∧ i ∈ ((cfg3.win 7).blk t).view.set := by
  have hi0 : (i 0).val < 50000 := (i 0).isLt
  have hi1 : (i 1).val < 256 := (i 1).isLt
  have hN : cfg3.N = 25 := N_3
  refine ⟨⟨(i 0).val / 2000, by omega⟩, flush3_7 _, ?_⟩
  rw [mem_blk]
  obtain ⟨e0, e1, e2, e3, e4, e5, e6, e7, e8, e9, e10, e11, e12, e13, e14⟩ := idx_facts ⟨(i 0).val / 2000, by omega⟩
  intro a
  match a with
  | ⟨0, _⟩ => show win3_7.index _ (0 : Fin 2) * 2000 ≤ (i 0).val ∧ (i 0).val < win3_7.index _ (0 : Fin 2) * 2000 + 2000; rw [e13]; show (i 0).val / 2000 * 2000 ≤ (i 0).val ∧ (i 0).val < (i 0).val / 2000 * 2000 + 2000; omega
  | ⟨1, _⟩ => show win3_7.index _ (1 : Fin 2) * 256 ≤ (i 1).val ∧ (i 1).val < win3_7.index _ (1 : Fin 2) * 256 + 256; rw [e14]; omega

/-- The output array after the launch is the step of the whole arrays the launch found. -/
theorem final (c : Dev nD) : (dat3 V c).arrAt 7 cfg3.N = Cert.ChebStep.relu (V c main_v62) (V c main_v78) (V c main_v15) (V c main_v17) (V c main_v64) (V c main_v66) (V c main_v68) :=
  (dat3 V c).arrAt_eq_of_cover 7 _ (fun t _ => flushed_eq V c t) cover

end Cert.KernelIdeal.Region3

end
-- ==== Proof.Region4.lean ====
/-
  Launch 4 of the dense step, read as one function of whole arrays.

  The launch walks 25 blocks of 2000 rows.  At block t the body sees rows 2000·t … 2000·t+1999 of the feature array, of
  the neighbour sums and of the coefficient column, and of the array it averages with, and the whole of the scalar, the two weight matrices and the bias;
  it writes rows 2000·t … of the output.  An entry of the step reads only its own row of the row-indexed operands, so
  what block t writes is block t of the step applied to the whole arrays, and the 25 blocks tile the output.
-/
import proofs.«159116_j1211180777897_1_alg».proof.Proof.Gen.KernelIdeal.Frame
import proofs.«159116_j1211180777897_1_alg».proof.Proof.LibChebStep

set_option maxRecDepth 16384

noncomputable section

namespace Cert.KernelIdeal.Region4

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The body's arithmetic on its loaded blocks is the step of those blocks. -/
theorem pay_eq (x0 x1 : FVec Ideal S2000x256 .f32) (x2 : FVec Ideal S2000x1 .f32) (x3 : FVec Ideal S1x1 .f32)
    (x4 x5 : FVec Ideal S256x256 .f32) (x6 : FVec Ideal S256 .f32) (x7 : FVec Ideal S2000x256 .f32) :
    k4_pay1 x0 x1 x2 x3 x4 x5 x6 x7 = Cert.ChebStep.res x0 x1 x2 x3 x4 x5 x6 x7 := by
  unfold k4_pay1
  simp only [shapeCast_self]
  exact Cert.ChebStep.body_res _ rfl x0 x1 x2 x3 x4 x5 x6 x7 _ _ _ _ _

/-- The printed block index maps over the 25 points: the row-blocked windows sit at block t, the others at block 0. -/
theorem idx_facts : ∀ t : Fin cfg4.N,
    win4_0.index t (0 : Fin 2) = t.val
    ∧ win4_0.index t (1 : Fin 2) = 0
    ∧ win4_1.index t (0 : Fin 2) = t.val
    ∧ win4_1.index t (1 : Fin 2) = 0
    ∧ win4_2.index t (0 : Fin 2) = t.val
    ∧ win4_2.index t (1 : Fin 2) = 0
    ∧ win4_3.index t (0 : Fin 2) = 0
    ∧ win4_3.index t (1 : Fin 2) = 0
    ∧ win4_4.index t (0 : Fin 2) = 0
    ∧ win4_4.index t (1 : Fin 2) = 0
    ∧ win4_5.index t (0 : Fin 2) = 0
    ∧ win4_5.index t (1 : Fin 2) = 0
    ∧ win4_6.index t (0 : Fin 1) = 0
    ∧ win4_7.index t (0 : Fin 2) = t.val
    ∧ win4_7.index t (1 : Fin 2) = 0
    ∧ win4_8.index t (0 : Fin 2) = t.val
    ∧ win4_8.index t (1 : Fin 2) = 0 :=
  (by decide +kernel : ∀ t : Fin grid4.N, _)

theorem lt25 (t : Fin cfg4.N) : t.val < 25 := by
  have h := t.isLt
  have hN : cfg4.N = 25 := N_4
  omega

/-- The row of the whole array under row p of block t. -/
def rowAt (t : Fin cfg4.N) (p : Fin 2000) : Fin 50000 := ⟨t.val * 2000 + p.val, by have := lt25 t; have := p.isLt; omega⟩

/-- What point t writes back is block t of the step of the whole arrays the launch finds. -/
theorem flushed_eq (c : Dev nD) (t : Fin cfg4.N) :
    (dat4 V c).flushed 8 t = ((cfg4.win 8).blk t).view.read (Elt Ideal)
      (Cert.ChebStep.res (V c main_v79) (V c main_v95) (V c main_v15) (V c main_v17) (V c main_v81) (V c main_v83) (V c main_v85) (V c main_v62)) := by
  show (cfg4.win 8).cut (grid4.coords t) ((dat4 V c).after 8 t) = _
  rw [after4_8]
  unfold out4_8
  rw [View.canon_unit_zero hz2]
  simp only [View.ld_unit_zero (S := S2000x256) hz2, View.ld_unit_zero (S := S2000x1) hz2, View.ld_unit_zero (S := S1x1) hz2, View.ld_unit_zero (S := S256x256) hz2, View.ld_unit_zero (S := S256) hz1]
  rw [pay_eq]
  obtain ⟨e0, e1, e2, e3, e4, e5, e6, e7, e8, e9, e10, e11, e12, e13, e14, e15, e16⟩ := idx_facts t
  have ht := lt25 t
  have hx : ∀ (p : Fin 2000) (k : Fin 256), iblk4 V c 0 t (ix2 p k) = V c main_v79 (ix2 (rowAt t p) k) := fun p k => by
    show V c main_v79 (((cfg4.win 0).blk t).view.emb (ix2 p k)) = V c main_v79 (ix2 (rowAt t p) k)
    refine congrArg _ (funext fun a => Fin.ext ?_)
    match a with
    | ⟨0, _⟩ => show win4_0.index t (0 : Fin 2) * 2000 + 1 * p.val = t.val * 2000 + p.val; omega
    | ⟨1, _⟩ => show win4_0.index t (1 : Fin 2) * 256 + 1 * k.val = k.val; omega
  have ha : ∀ (p : Fin 2000) (k : Fin 256), iblk4 V c 1 t (ix2 p k) = V c main_v95 (ix2 (rowAt t p) k) := fun p k => by
    show V c main_v95 (((cfg4.win 1).blk t).view.emb (ix2 p k)) = V c main_v95 (ix2 (rowAt t p) k)
    refine congrArg _ (funext fun a => Fin.ext ?_)
    match a with
    | ⟨0, _⟩ => show win4_1.index t (0 : Fin 2) * 2000 + 1 * p.val = t.val * 2000 + p.val; omega
    | ⟨1, _⟩ => show win4_1.index t (1 : Fin 2) * 256 + 1 * k.val = k.val; omega
  have hd : ∀ (p : Fin 2000), iblk4 V c 2 t (ix2 p (0 : Fin 1)) = V c main_v15 (ix2 (rowAt t p) (0 : Fin 1)) := fun p => by
    show V c main_v15 (((cfg4.win 2).blk t).view.emb (ix2 p (0 : Fin 1))) = V c main_v15 (ix2 (rowAt t p) (0 : Fin 1))
    refine congrArg _ (funext fun a => Fin.ext ?_)
    match a with
    | ⟨0, _⟩ => show win4_2.index t (0 : Fin 2) * 2000 + 1 * p.val = t.val * 2000 + p.val; omega
    | ⟨1, _⟩ => show win4_2.index t (1 : Fin 2) * 1 + 1 * 0 = 0; omega
  have hn : iblk4 V c 3 t = V c main_v17 := funext fun y => by
    show V c main_v17 (((cfg4.win 3).blk t).view.emb y) = V c main_v17 y
    refine congrArg _ (funext fun a => Fin.ext ?_)
    match a with
    | ⟨0, _⟩ => show win4_3.index t (0 : Fin 2) * 1 + 1 * (y 0).val = (y 0).val; omega
    | ⟨1, _⟩ => show win4_3.index t (1 : Fin 2) * 1 + 1 * (y 1).val = (y 1).val; omega
  have hw0 : iblk4 V c 4 t = V c main_v81 := funext fun y => by
    show V c main_v81 (((cfg4.win 4).blk t).view.emb y) = V c main_v81 y
    refine congrArg _ (funext fun a => Fin.ext ?_)
    match a with
    | ⟨0, _⟩ => show win4_4.index t (0 : Fin 2) * 256 + 1 * (y 0).val = (y 0).val; omega
    | ⟨1, _⟩ => show win4_4.index t (1 : Fin 2) * 256 + 1 * (y 1).val = (y 1).val; omega
  have hw1 : iblk4 V c 5 t = V c main_v83 := funext fun y => by
    show V c main_v83 (((cfg4.win 5).blk t).view.emb y) = V c main_v83 y
    refine congrArg _ (funext fun a => Fin.ext ?_)
    match a with
    | ⟨0, _⟩ => show win4_5.index t (0 : Fin 2) * 256 + 1 * (y 0).val = (y 0).val; omega
    | ⟨1, _⟩ => show win4_5.index t (1 : Fin 2) * 256 + 1 * (y 1).val = (y 1).val; omega
  have hb : iblk4 V c 6 t = V c main_v85 := funext fun y => by
    show V c main_v85 (((cfg4.win 6).blk t).view.emb y) = V c main_v85 y
    refine congrArg _ (funext fun a => Fin.ext ?_)
    match a with
    | ⟨0, _⟩ => show win4_6.index t (0 : Fin 1) * 256 + 1 * (y 0).val = (y 0).val; omega
  have hy : ∀ (p : Fin 2000) (k : Fin 256), iblk4 V c 7 t (ix2 p k) = V c main_v62 (ix2 (rowAt t p) k) := fun p k => by
    show V c main_v62 (((cfg4.win 7).blk t).view.emb (ix2 p k)) = V c main_v62 (ix2 (rowAt t p) k)
    refine congrArg _ (funext fun a => Fin.ext ?_)
    match a with
    | ⟨0, _⟩ => show win4_7.index t (0 : Fin 2) * 2000 + 1 * p.val = t.val * 2000 + p.val; omega
    | ⟨1, _⟩ => show win4_7.index t (1 : Fin 2) * 256 + 1 * k.val = k.val; omega
  funext j
  obtain ⟨p, q, rfl⟩ : ∃ (p : Fin 2000) (q : Fin 256), j = ix2 p q := ⟨j 0, j 1, eq_ix2 j⟩
  have hemb : ((cfg4.win 8).blk t).view.emb (ix2 p q) = ix2 (rowAt t p) q := by
    refine funext fun a => Fin.ext ?_
    match a with
    | ⟨0, _⟩ => show win4_8.index t (0 : Fin 2) * 2000 + 1 * p.val = t.val * 2000 + p.val; omega
    | ⟨1, _⟩ => show win4_8.index t (1 : Fin 2) * 256 + 1 * q.val = q.val; omega
  show Cert.ChebStep.res (iblk4 V c 0 t) (iblk4 V c 1 t) (iblk4 V c 2 t) (iblk4 V c 3 t) (iblk4 V c 4 t) (iblk4 V c 5 t) (iblk4 V c 6 t) (iblk4 V c 7 t) (ix2 p q)
    = (Cert.ChebStep.res (V c main_v79) (V c main_v95) (V c main_v15) (V c main_v17) (V c main_v81) (V c main_v83) (V c main_v85) (V c main_v62)) (((cfg4.win 8).blk t).view.emb (ix2 p q))
  rw [hemb]
  exact Cert.ChebStep.res_rows (rowAt t) _ _ _ _ _ _ _ _ _ _ _ _ _ _ _ _ hx ha hd hn hw0 hw1 hb hy p q

/-- An index of the output array lies in point t's block iff its coordinates lie in the block's ranges. -/
theorem mem_blk (t : Fin cfg4.N) (i : S50000x256.Idx) :
    i ∈ ((cfg4.win 8).blk t).view.set ↔ ∀ a : Fin 2, win4_8.index t a * S2000x256.size a ≤ (i a).val ∧ (i a).val < win4_8.index t a * S2000x256.size a + S2000x256.size a := by
  show i ∈ ((View.whole main_v96).slice (win4_8.rect t)).set ↔ _
  rw [View.set_slice_whole, Rect.mem_set_unit]
  exact Iff.rfl

/-- The 25 blocks tile the output array: row r lies in block r / 2000. -/
theorem cover (i : S50000x256.Idx) : ∃ t : Fin cfg4.N, (cfg4.win 8).flush t = true ∧ i ∈ ((cfg4.win 8).blk t).view.set := by
  have hi0 : (i 0).val < 50000 := (i 0).isLt
  have hi1 : (i 1).val < 256 := (i 1).isLt
  have hN : cfg4.N = 25 := N_4
  refine ⟨⟨(i 0).val / 2000, by omega⟩, flush4_8 _, ?_⟩
  rw [mem_blk]
  obtain ⟨e0, e1, e2, e3, e4, e5, e6, e7, e8, e9, e10, e11, e12, e13, e14, e15, e16⟩ := idx_facts ⟨(i 0).val / 2000, by omega⟩
  intro a
  match a with
  | ⟨0, _⟩ => show win4_8.index _ (0 : Fin 2) * 2000 ≤ (i 0).val ∧ (i 0).val < win4_8.index _ (0 : Fin 2) * 2000 + 2000; rw [e15]; show (i 0).val / 2000 * 2000 ≤ (i 0).val ∧ (i 0).val < (i 0).val / 2000 * 2000 + 2000; omega
  | ⟨1, _⟩ => show win4_8.index _ (1 : Fin 2) * 256 ≤ (i 1).val ∧ (i 1).val < win4_8.index _ (1 : Fin 2) * 256 + 256; rw [e16]; omega

/-- The output array after the launch is the step of the whole arrays the launch found. -/
theorem final (c : Dev nD) : (dat4 V c).arrAt 8 cfg4.N = Cert.ChebStep.res (V c main_v79) (V c main_v95) (V c main_v15) (V c main_v17) (V c main_v81) (V c main_v83) (V c main_v85) (V c main_v62) :=
  (dat4 V c).arrAt_eq_of_cover 8 _ (fun t _ => flushed_eq V c t) cover

end Cert.KernelIdeal.Region4

end
-- ==== Proof.Region5.lean ====
/-
  Launch 5 of the dense step, read as one function of whole arrays.

  The launch walks 25 blocks of 2000 rows.  At block t the body sees rows 2000·t … 2000·t+1999 of the feature array, of
  the neighbour sums and of the coefficient column and the whole of the scalar, the two weight matrices and the bias;
  it writes rows 2000·t … of the output.  An entry of the step reads only its own row of the row-indexed operands, so
  what block t writes is block t of the step applied to the whole arrays, and the 25 blocks tile the output.
-/
import proofs.«159116_j1211180777897_1_alg».proof.Proof.Gen.KernelIdeal.Frame
import proofs.«159116_j1211180777897_1_alg».proof.Proof.LibChebStep

set_option maxRecDepth 16384

noncomputable section

namespace Cert.KernelIdeal.Region5

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The body's arithmetic on its loaded blocks is the step of those blocks. -/
theorem pay_eq (x0 x1 : FVec Ideal S2000x256 .f32) (x2 : FVec Ideal S2000x1 .f32) (x3 : FVec Ideal S1x1 .f32)
    (x4 x5 : FVec Ideal S256x256 .f32) (x6 : FVec Ideal S256 .f32) :
    k5_pay1 x0 x1 x2 x3 x4 x5 x6 = Cert.ChebStep.relu x0 x1 x2 x3 x4 x5 x6 := by
  unfold k5_pay1
  simp only [shapeCast_self]
  exact Cert.ChebStep.body_relu _ rfl x0 x1 x2 x3 x4 x5 x6 _ _ _ _ _

/-- The printed block index maps over the 25 points: the row-blocked windows sit at block t, the others at block 0. -/
theorem idx_facts : ∀ t : Fin cfg5.N,
    win5_0.index t (0 : Fin 2) = t.val
    ∧ win5_0.index t (1 : Fin 2) = 0
    ∧ win5_1.index t (0 : Fin 2) = t.val
    ∧ win5_1.index t (1 : Fin 2) = 0
    ∧ win5_2.index t (0 : Fin 2) = t.val
    ∧ win5_2.index t (1 : Fin 2) = 0
    ∧ win5_3.index t (0 : Fin 2) = 0
    ∧ win5_3.index t (1 : Fin 2) = 0
    ∧ win5_4.index t (0 : Fin 2) = 0
    ∧ win5_4.index t (1 : Fin 2) = 0
    ∧ win5_5.index t (0 : Fin 2) = 0
    ∧ win5_5.index t (1 : Fin 2) = 0
    ∧ win5_6.index t (0 : Fin 1) = 0
    ∧ win5_7.index t (0 : Fin 2) = t.val
    ∧ win5_7.index t (1 : Fin 2) = 0 :=
  (by decide +kernel : ∀ t : Fin grid5.N, _)

theorem lt25 (t : Fin cfg5.N) : t.val < 25 := by
  have h := t.isLt
  have hN : cfg5.N = 25 := N_5
  omega

/-- The row of the whole array under row p of block t. -/
def rowAt (t : Fin cfg5.N) (p : Fin 2000) : Fin 50000 := ⟨t.val * 2000 + p.val, by have := lt25 t; have := p.isLt; omega⟩

/-- What point t writes back is block t of the step of the whole arrays the launch finds. -/
theorem flushed_eq (c : Dev nD) (t : Fin cfg5.N) :
    (dat5 V c).flushed 7 t = ((cfg5.win 7).blk t).view.read (Elt Ideal)
      (Cert.ChebStep.relu (V c main_v96) (V c main_v112) (V c main_v15) (V c main_v17) (V c main_v98) (V c main_v100) (V c main_v102)) := by
  show (cfg5.win 7).cut (grid5.coords t) ((dat5 V c).after 7 t) = _
  rw [after5_7]
  unfold out5_7
  rw [View.canon_unit_zero hz2]
  simp only [View.ld_unit_zero (S := S2000x256) hz2, View.ld_unit_zero (S := S2000x1) hz2, View.ld_unit_zero (S := S1x1) hz2, View.ld_unit_zero (S := S256x256) hz2, View.ld_unit_zero (S := S256) hz1]
  rw [pay_eq]
  obtain ⟨e0, e1, e2, e3, e4, e5, e6, e7, e8, e9, e10, e11, e12, e13, e14⟩ := idx_facts t
  have ht := lt25 t
  have hx : ∀ (p : Fin 2000) (k : Fin 256), iblk5 V c 0 t (ix2 p k) = V c main_v96 (ix2 (rowAt t p) k) := fun p k => by
    show V c main_v96 (((cfg5.win 0).blk t).view.emb (ix2 p k)) = V c main_v96 (ix2 (rowAt t p) k)
    refine congrArg _ (funext fun a => Fin.ext ?_)
    match a with
    | ⟨0, _⟩ => show win5_0.index t (0 : Fin 2) * 2000 + 1 * p.val = t.val * 2000 + p.val; omega
    | ⟨1, _⟩ => show win5_0.index t (1 : Fin 2) * 256 + 1 * k.val = k.val; omega
  have ha : ∀ (p : Fin 2000) (k : Fin 256), iblk5 V c 1 t (ix2 p k) = V c main_v112 (ix2 (rowAt t p) k) := fun p k => by
    show V c main_v112 (((cfg5.win 1).blk t).view.emb (ix2 p k)) = V c main_v112 (ix2 (rowAt t p) k)
    refine congrArg _ (funext fun a => Fin.ext ?_)
    match a with
    | ⟨0, _⟩ => show win5_1.index t (0 : Fin 2) * 2000 + 1 * p.val = t.val * 2000 + p.val; omega
    | ⟨1, _⟩ => show win5_1.index t (1 : Fin 2) * 256 + 1 * k.val = k.val; omega
  have hd : ∀ (p : Fin 2000), iblk5 V c 2 t (ix2 p (0 : Fin 1)) = V c main_v15 (ix2 (rowAt t p) (0 : Fin 1)) := fun p => by
    show V c main_v15 (((cfg5.win 2).blk t).view.emb (ix2 p (0 : Fin 1))) = V c main_v15 (ix2 (rowAt t p) (0 : Fin 1))
    refine congrArg _ (funext fun a => Fin.ext ?_)
    match a with
    | ⟨0, _⟩ => show win5_2.index t (0 : Fin 2) * 2000 + 1 * p.val = t.val * 2000 + p.val; omega
    | ⟨1, _⟩ => show win5_2.index t (1 : Fin 2) * 1 + 1 * 0 = 0; omega
  have hn : iblk5 V c 3 t = V c main_v17 := funext fun y => by
    show V c main_v17 (((cfg5.win 3).blk t).view.emb y) = V c main_v17 y
    refine congrArg _ (funext fun a => Fin.ext ?_)
    match a with
    | ⟨0, _⟩ => show win5_3.index t (0 : Fin 2) * 1 + 1 * (y 0).val = (y 0).val; omega
    | ⟨1, _⟩ => show win5_3.index t (1 : Fin 2) * 1 + 1 * (y 1).val = (y 1).val; omega
  have hw0 : iblk5 V c 4 t = V c main_v98 := funext fun y => by
    show V c main_v98 (((cfg5.win 4).blk t).view.emb y) = V c main_v98 y
    refine congrArg _ (funext fun a => Fin.ext ?_)
    match a with
    | ⟨0, _⟩ => show win5_4.index t (0 : Fin 2) * 256 + 1 * (y 0).val = (y 0).val; omega
    | ⟨1, _⟩ => show win5_4.index t (1 : Fin 2) * 256 + 1 * (y 1).val = (y 1).val; omega
  have hw1 : iblk5 V c 5 t = V c main_v100 := funext fun y => by
    show V c main_v100 (((cfg5.win 5).blk t).view.emb y) = V c main_v100 y
    refine congrArg _ (funext fun a => Fin.ext ?_)
    match a with
    | ⟨0, _⟩ => show win5_5.index t (0 : Fin 2) * 256 + 1 * (y 0).val = (y 0).val; omega
    | ⟨1, _⟩ => show win5_5.index t (1 : Fin 2) * 256 + 1 * (y 1).val = (y 1).val; omega
  have hb : iblk5 V c 6 t = V c main_v102 := funext fun y => by
    show V c main_v102 (((cfg5.win 6).blk t).view.emb y) = V c main_v102 y
    refine congrArg _ (funext fun a => Fin.ext ?_)
    match a with
    | ⟨0, _⟩ => show win5_6.index t (0 : Fin 1) * 256 + 1 * (y 0).val = (y 0).val; omega

  funext j
  obtain ⟨p, q, rfl⟩ : ∃ (p : Fin 2000) (q : Fin 256), j = ix2 p q := ⟨j 0, j 1, eq_ix2 j⟩
  have hemb : ((cfg5.win 7).blk t).view.emb (ix2 p q) = ix2 (rowAt t p) q := by
    refine funext fun a => Fin.ext ?_
    match a with
    | ⟨0, _⟩ => show win5_7.index t (0 : Fin 2) * 2000 + 1 * p.val = t.val * 2000 + p.val; omega
    | ⟨1, _⟩ => show win5_7.index t (1 : Fin 2) * 256 + 1 * q.val = q.val; omega
  show Cert.ChebStep.relu (iblk5 V c 0 t) (iblk5 V c 1 t) (iblk5 V c 2 t) (iblk5 V c 3 t) (iblk5 V c 4 t) (iblk5 V c 5 t) (iblk5 V c 6 t) (ix2 p q)
    = (Cert.ChebStep.relu (V c main_v96) (V c main_v112) (V c main_v15) (V c main_v17) (V c main_v98) (V c main_v100) (V c main_v102)) (((cfg5.win 7).blk t).view.emb (ix2 p q))
  rw [hemb]
  exact Cert.ChebStep.relu_rows (rowAt t) _ _ _ _ _ _ _ _ _ _ _ _ _ _ hx ha hd hn hw0 hw1 hb p q

/-- An index of the output array lies in point t's block iff its coordinates lie in the block's ranges. -/
theorem mem_blk (t : Fin cfg5.N) (i : S50000x256.Idx) :
    i ∈ ((cfg5.win 7).blk t).view.set ↔ ∀ a : Fin 2, win5_7.index t a * S2000x256.size a ≤ (i a).val ∧ (i a).val < win5_7.index t a * S2000x256.size a + S2000x256.size a := by
  show i ∈ ((View.whole main_v113).slice (win5_7.rect t)).set ↔ _
  rw [View.set_slice_whole, Rect.mem_set_unit]
  exact Iff.rfl

/-- The 25 blocks tile the output array: row r lies in block r / 2000. -/
theorem cover (i : S50000x256.Idx) : ∃ t : Fin cfg5.N, (cfg5.win 7).flush t = true ∧ i ∈ ((cfg5.win 7).blk t).view.set := by
  have hi0 : (i 0).val < 50000 := (i 0).isLt
  have hi1 : (i 1).val < 256 := (i 1).isLt
  have hN : cfg5.N = 25 := N_5
  refine ⟨⟨(i 0).val / 2000, by omega⟩, flush5_7 _, ?_⟩
  rw [mem_blk]
  obtain ⟨e0, e1, e2, e3, e4, e5, e6, e7, e8, e9, e10, e11, e12, e13, e14⟩ := idx_facts ⟨(i 0).val / 2000, by omega⟩
  intro a
  match a with
  | ⟨0, _⟩ => show win5_7.index _ (0 : Fin 2) * 2000 ≤ (i 0).val ∧ (i 0).val < win5_7.index _ (0 : Fin 2) * 2000 + 2000; rw [e13]; show (i 0).val / 2000 * 2000 ≤ (i 0).val ∧ (i 0).val < (i 0).val / 2000 * 2000 + 2000; omega
  | ⟨1, _⟩ => show win5_7.index _ (1 : Fin 2) * 256 ≤ (i 1).val ∧ (i 1).val < win5_7.index _ (1 : Fin 2) * 256 + 256; rw [e14]; omega

/-- The output array after the launch is the step of the whole arrays the launch found. -/
theorem final (c : Dev nD) : (dat5 V c).arrAt 7 cfg5.N = Cert.ChebStep.relu (V c main_v96) (V c main_v112) (V c main_v15) (V c main_v17) (V c main_v98) (V c main_v100) (V c main_v102) :=
  (dat5 V c).arrAt_eq_of_cover 7 _ (fun t _ => flushed_eq V c t) cover

end Cert.KernelIdeal.Region5

end
-- ==== Proof.Region6.lean ====
/-
  Launch 6 of the dense step, read as one function of whole arrays.

  The launch walks 25 blocks of 2000 rows.  At block t the body sees rows 2000·t … 2000·t+1999 of the feature array, of
  the neighbour sums and of the coefficient column, and of the array it averages with, and the whole of the scalar, the two weight matrices and the bias;
  it writes rows 2000·t … of the output.  An entry of the step reads only its own row of the row-indexed operands, so
  what block t writes is block t of the step applied to the whole arrays, and the 25 blocks tile the output.
-/
import proofs.«159116_j1211180777897_1_alg».proof.Proof.Gen.KernelIdeal.Frame
import proofs.«159116_j1211180777897_1_alg».proof.Proof.LibChebStep

set_option maxRecDepth 16384

noncomputable section

namespace Cert.KernelIdeal.Region6

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The body's arithmetic on its loaded blocks is the step of those blocks. -/
theorem pay_eq (x0 x1 : FVec Ideal S2000x256 .f32) (x2 : FVec Ideal S2000x1 .f32) (x3 : FVec Ideal S1x1 .f32)
    (x4 x5 : FVec Ideal S256x256 .f32) (x6 : FVec Ideal S256 .f32) (x7 : FVec Ideal S2000x256 .f32) :
    k6_pay1 x0 x1 x2 x3 x4 x5 x6 x7 = Cert.ChebStep.res x0 x1 x2 x3 x4 x5 x6 x7 := by
  unfold k6_pay1
  simp only [shapeCast_self]
  exact Cert.ChebStep.body_res _ rfl x0 x1 x2 x3 x4 x5 x6 x7 _ _ _ _ _

/-- The printed block index maps over the 25 points: the row-blocked windows sit at block t, the others at block 0. -/
theorem idx_facts : ∀ t : Fin cfg6.N,
    win6_0.index t (0 : Fin 2) = t.val
    ∧ win6_0.index t (1 : Fin 2) = 0
    ∧ win6_1.index t (0 : Fin 2) = t.val
    ∧ win6_1.index t (1 : Fin 2) = 0
    ∧ win6_2.index t (0 : Fin 2) = t.val
    ∧ win6_2.index t (1 : Fin 2) = 0
    ∧ win6_3.index t (0 : Fin 2) = 0
    ∧ win6_3.index t (1 : Fin 2) = 0
    ∧ win6_4.index t (0 : Fin 2) = 0
    ∧ win6_4.index t (1 : Fin 2) = 0
    ∧ win6_5.index t (0 : Fin 2) = 0
    ∧ win6_5.index t (1 : Fin 2) = 0
    ∧ win6_6.index t (0 : Fin 1) = 0
    ∧ win6_7.index t (0 : Fin 2) = t.val
    ∧ win6_7.index t (1 : Fin 2) = 0
    ∧ win6_8.index t (0 : Fin 2) = t.val
    ∧ win6_8.index t (1 : Fin 2) = 0 :=
  (by decide +kernel : ∀ t : Fin grid6.N, _)

theorem lt25 (t : Fin cfg6.N) : t.val < 25 := by
  have h := t.isLt
  have hN : cfg6.N = 25 := N_6
  omega

/-- The row of the whole array under row p of block t. -/
def rowAt (t : Fin cfg6.N) (p : Fin 2000) : Fin 50000 := ⟨t.val * 2000 + p.val, by have := lt25 t; have := p.isLt; omega⟩

/-- What point t writes back is block t of the step of the whole arrays the launch finds. -/
theorem flushed_eq (c : Dev nD) (t : Fin cfg6.N) :
    (dat6 V c).flushed 8 t = ((cfg6.win 8).blk t).view.read (Elt Ideal)
      (Cert.ChebStep.res (V c main_v113) (V c main_v129) (V c main_v15) (V c main_v17) (V c main_v115) (V c main_v117) (V c main_v119) (V c main_v96)) := by
  show (cfg6.win 8).cut (grid6.coords t) ((dat6 V c).after 8 t) = _
  rw [after6_8]
  unfold out6_8
  rw [View.canon_unit_zero hz2]
  simp only [View.ld_unit_zero (S := S2000x256) hz2, View.ld_unit_zero (S := S2000x1) hz2, View.ld_unit_zero (S := S1x1) hz2, View.ld_unit_zero (S := S256x256) hz2, View.ld_unit_zero (S := S256) hz1]
  rw [pay_eq]
  obtain ⟨e0, e1, e2, e3, e4, e5, e6, e7, e8, e9, e10, e11, e12, e13, e14, e15, e16⟩ := idx_facts t
  have ht := lt25 t
  have hx : ∀ (p : Fin 2000) (k : Fin 256), iblk6 V c 0 t (ix2 p k) = V c main_v113 (ix2 (rowAt t p) k) := fun p k => by
    show V c main_v113 (((cfg6.win 0).blk t).view.emb (ix2 p k)) = V c main_v113 (ix2 (rowAt t p) k)
    refine congrArg _ (funext fun a => Fin.ext ?_)
    match a with
    | ⟨0, _⟩ => show win6_0.index t (0 : Fin 2) * 2000 + 1 * p.val = t.val * 2000 + p.val; omega
    | ⟨1, _⟩ => show win6_0.index t (1 : Fin 2) * 256 + 1 * k.val = k.val; omega
  have ha : ∀ (p : Fin 2000) (k : Fin 256), iblk6 V c 1 t (ix2 p k) = V c main_v129 (ix2 (rowAt t p) k) := fun p k => by
    show V c main_v129 (((cfg6.win 1).blk t).view.emb (ix2 p k)) = V c main_v129 (ix2 (rowAt t p) k)
    refine congrArg _ (funext fun a => Fin.ext ?_)
    match a with
    | ⟨0, _⟩ => show win6_1.index t (0 : Fin 2) * 2000 + 1 * p.val = t.val * 2000 + p.val; omega
    | ⟨1, _⟩ => show win6_1.index t (1 : Fin 2) * 256 + 1 * k.val = k.val; omega
  have hd : ∀ (p : Fin 2000), iblk6 V c 2 t (ix2 p (0 : Fin 1)) = V c main_v15 (ix2 (rowAt t p) (0 : Fin 1)) := fun p => by
    show V c main_v15 (((cfg6.win 2).blk t).view.emb (ix2 p (0 : Fin 1))) = V c main_v15 (ix2 (rowAt t p) (0 : Fin 1))
    refine congrArg _ (funext fun a => Fin.ext ?_)
    match a with
    | ⟨0, _⟩ => show win6_2.index t (0 : Fin 2) * 2000 + 1 * p.val = t.val * 2000 + p.val; omega
    | ⟨1, _⟩ => show win6_2.index t (1 : Fin 2) * 1 + 1 * 0 = 0; omega
  have hn : iblk6 V c 3 t = V c main_v17 := funext fun y => by
    show V c main_v17 (((cfg6.win 3).blk t).view.emb y) = V c main_v17 y
    refine congrArg _ (funext fun a => Fin.ext ?_)
    match a with
    | ⟨0, _⟩ => show win6_3.index t (0 : Fin 2) * 1 + 1 * (y 0).val = (y 0).val; omega
    | ⟨1, _⟩ => show win6_3.index t (1 : Fin 2) * 1 + 1 * (y 1).val = (y 1).val; omega
  have hw0 : iblk6 V c 4 t = V c main_v115 := funext fun y => by
    show V c main_v115 (((cfg6.win 4).blk t).view.emb y) = V c main_v115 y
    refine congrArg _ (funext fun a => Fin.ext ?_)
    match a with
    | ⟨0, _⟩ => show win6_4.index t (0 : Fin 2) * 256 + 1 * (y 0).val = (y 0).val; omega
    | ⟨1, _⟩ => show win6_4.index t (1 : Fin 2) * 256 + 1 * (y 1).val = (y 1).val; omega
  have hw1 : iblk6 V c 5 t = V c main_v117 := funext fun y => by
    show V c main_v117 (((cfg6.win 5).blk t).view.emb y) = V c main_v117 y
    refine congrArg _ (funext fun a => Fin.ext ?_)
    match a with
    | ⟨0, _⟩ => show win6_5.index t (0 : Fin 2) * 256 + 1 * (y 0).val = (y 0).val; omega
    | ⟨1, _⟩ => show win6_5.index t (1 : Fin 2) * 256 + 1 * (y 1).val = (y 1).val; omega
  have hb : iblk6 V c 6 t = V c main_v119 := funext fun y => by
    show V c main_v119 (((cfg6.win 6).blk t).view.emb y) = V c main_v119 y
    refine congrArg _ (funext fun a => Fin.ext ?_)
    match a with
    | ⟨0, _⟩ => show win6_6.index t (0 : Fin 1) * 256 + 1 * (y 0).val = (y 0).val; omega
  have hy : ∀ (p : Fin 2000) (k : Fin 256), iblk6 V c 7 t (ix2 p k) = V c main_v96 (ix2 (rowAt t p) k) := fun p k => by
    show V c main_v96 (((cfg6.win 7).blk t).view.emb (ix2 p k)) = V c main_v96 (ix2 (rowAt t p) k)
    refine congrArg _ (funext fun a => Fin.ext ?_)
    match a with
    | ⟨0, _⟩ => show win6_7.index t (0 : Fin 2) * 2000 + 1 * p.val = t.val * 2000 + p.val; omega
    | ⟨1, _⟩ => show win6_7.index t (1 : Fin 2) * 256 + 1 * k.val = k.val; omega
  funext j
  obtain ⟨p, q, rfl⟩ : ∃ (p : Fin 2000) (q : Fin 256), j = ix2 p q := ⟨j 0, j 1, eq_ix2 j⟩
  have hemb : ((cfg6.win 8).blk t).view.emb (ix2 p q) = ix2 (rowAt t p) q := by
    refine funext fun a => Fin.ext ?_
    match a with
    | ⟨0, _⟩ => show win6_8.index t (0 : Fin 2) * 2000 + 1 * p.val = t.val * 2000 + p.val; omega
    | ⟨1, _⟩ => show win6_8.index t (1 : Fin 2) * 256 + 1 * q.val = q.val; omega
  show Cert.ChebStep.res (iblk6 V c 0 t) (iblk6 V c 1 t) (iblk6 V c 2 t) (iblk6 V c 3 t) (iblk6 V c 4 t) (iblk6 V c 5 t) (iblk6 V c 6 t) (iblk6 V c 7 t) (ix2 p q)
    = (Cert.ChebStep.res (V c main_v113) (V c main_v129) (V c main_v15) (V c main_v17) (V c main_v115) (V c main_v117) (V c main_v119) (V c main_v96)) (((cfg6.win 8).blk t).view.emb (ix2 p q))
  rw [hemb]
  exact Cert.ChebStep.res_rows (rowAt t) _ _ _ _ _ _ _ _ _ _ _ _ _ _ _ _ hx ha hd hn hw0 hw1 hb hy p q

/-- An index of the output array lies in point t's block iff its coordinates lie in the block's ranges. -/
theorem mem_blk (t : Fin cfg6.N) (i : S50000x256.Idx) :
    i ∈ ((cfg6.win 8).blk t).view.set ↔ ∀ a : Fin 2, win6_8.index t a * S2000x256.size a ≤ (i a).val ∧ (i a).val < win6_8.index t a * S2000x256.size a + S2000x256.size a := by
  show i ∈ ((View.whole main_v130).slice (win6_8.rect t)).set ↔ _
  rw [View.set_slice_whole, Rect.mem_set_unit]
  exact Iff.rfl

/-- The 25 blocks tile the output array: row r lies in block r / 2000. -/
theorem cover (i : S50000x256.Idx) : ∃ t : Fin cfg6.N, (cfg6.win 8).flush t = true ∧ i ∈ ((cfg6.win 8).blk t).view.set := by
  have hi0 : (i 0).val < 50000 := (i 0).isLt
  have hi1 : (i 1).val < 256 := (i 1).isLt
  have hN : cfg6.N = 25 := N_6
  refine ⟨⟨(i 0).val / 2000, by omega⟩, flush6_8 _, ?_⟩
  rw [mem_blk]
  obtain ⟨e0, e1, e2, e3, e4, e5, e6, e7, e8, e9, e10, e11, e12, e13, e14, e15, e16⟩ := idx_facts ⟨(i 0).val / 2000, by omega⟩
  intro a
  match a with
  | ⟨0, _⟩ => show win6_8.index _ (0 : Fin 2) * 2000 ≤ (i 0).val ∧ (i 0).val < win6_8.index _ (0 : Fin 2) * 2000 + 2000; rw [e15]; show (i 0).val / 2000 * 2000 ≤ (i 0).val ∧ (i 0).val < (i 0).val / 2000 * 2000 + 2000; omega
  | ⟨1, _⟩ => show win6_8.index _ (1 : Fin 2) * 256 ≤ (i 1).val ∧ (i 1).val < win6_8.index _ (1 : Fin 2) * 256 + 256; rw [e16]; omega

/-- The output array after the launch is the step of the whole arrays the launch found. -/
theorem final (c : Dev nD) : (dat6 V c).arrAt 8 cfg6.N = Cert.ChebStep.res (V c main_v113) (V c main_v129) (V c main_v15) (V c main_v17) (V c main_v115) (V c main_v117) (V c main_v119) (V c main_v96) :=
  (dat6 V c).arrAt_eq_of_cover 8 _ (fun t _ => flushed_eq V c t) cover

end Cert.KernelIdeal.Region6

end
-- ==== Proof.Region7.lean ====
/-
  Launch 7 of the dense step, read as one function of whole arrays.

  The launch walks 25 blocks of 2000 rows.  At block t the body sees rows 2000·t … 2000·t+1999 of the feature array, of
  the neighbour sums and of the coefficient column and the whole of the scalar, the two weight matrices and the bias;
  it writes rows 2000·t … of the output.  An entry of the step reads only its own row of the row-indexed operands, so
  what block t writes is block t of the step applied to the whole arrays, and the 25 blocks tile the output.
-/
import proofs.«159116_j1211180777897_1_alg».proof.Proof.Gen.KernelIdeal.Frame
import proofs.«159116_j1211180777897_1_alg».proof.Proof.LibChebStep

set_option maxRecDepth 16384

noncomputable section

namespace Cert.KernelIdeal.Region7

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The body's arithmetic on its loaded blocks is the step of those blocks. -/
theorem pay_eq (x0 x1 : FVec Ideal S2000x256 .f32) (x2 : FVec Ideal S2000x1 .f32) (x3 : FVec Ideal S1x1 .f32)
    (x4 x5 : FVec Ideal S256x3 .f32) (x6 : FVec Ideal S3 .f32) :
    k7_pay1 x0 x1 x2 x3 x4 x5 x6 = Cert.ChebStep.pre x0 x1 x2 x3 x4 x5 x6 := by
  unfold k7_pay1
  simp only [shapeCast_self]
  exact Cert.ChebStep.body_pre _ rfl x0 x1 x2 x3 x4 x5 x6 _ _ _ _ _

/-- The printed block index maps over the 25 points: the row-blocked windows sit at block t, the others at block 0. -/
theorem idx_facts : ∀ t : Fin cfg7.N,
    win7_0.index t (0 : Fin 2) = t.val
    ∧ win7_0.index t (1 : Fin 2) = 0
    ∧ win7_1.index t (0 : Fin 2) = t.val
    ∧ win7_1.index t (1 : Fin 2) = 0
    ∧ win7_2.index t (0 : Fin 2) = t.val
    ∧ win7_2.index t (1 : Fin 2) = 0
    ∧ win7_3.index t (0 : Fin 2) = 0
    ∧ win7_3.index t (1 : Fin 2) = 0
    ∧ win7_4.index t (0 : Fin 2) = 0
    ∧ win7_4.index t (1 : Fin 2) = 0
    ∧ win7_5.index t (0 : Fin 2) = 0
    ∧ win7_5.index t (1 : Fin 2) = 0
    ∧ win7_6.index t (0 : Fin 1) = 0
    ∧ win7_7.index t (0 : Fin 2) = t.val
    ∧ win7_7.index t (1 : Fin 2) = 0 :=
  (by decide +kernel : ∀ t : Fin grid7.N, _)

theorem lt25 (t : Fin cfg7.N) : t.val < 25 := by
  have h := t.isLt
  have hN : cfg7.N = 25 := N_7
  omega

/-- The row of the whole array under row p of block t. -/
def rowAt (t : Fin cfg7.N) (p : Fin 2000) : Fin 50000 := ⟨t.val * 2000 + p.val, by have := lt25 t; have := p.isLt; omega⟩

/-- What point t writes back is block t of the step of the whole arrays the launch finds. -/
theorem flushed_eq (c : Dev nD) (t : Fin cfg7.N) :
    (dat7 V c).flushed 7 t = ((cfg7.win 7).blk t).view.read (Elt Ideal)
      (Cert.ChebStep.pre (V c main_v130) (V c main_v140) (V c main_v15) (V c main_v17) (V c main_arg8) (V c main_arg9) (V c main_arg10)) := by
  show (cfg7.win 7).cut (grid7.coords t) ((dat7 V c).after 7 t) = _
  rw [after7_7]
  unfold out7_7
  rw [View.canon_unit_zero hz2]
  simp only [View.ld_unit_zero (S := S2000x256) hz2, View.ld_unit_zero (S := S2000x1) hz2, View.ld_unit_zero (S := S1x1) hz2, View.ld_unit_zero (S := S256x3) hz2, View.ld_unit_zero (S := S2000x3) hz2, View.ld_unit_zero (S := S3) hz1]
  rw [pay_eq]
  obtain ⟨e0, e1, e2, e3, e4, e5, e6, e7, e8, e9, e10, e11, e12, e13, e14⟩ := idx_facts t
  have ht := lt25 t
  have hx : ∀ (p : Fin 2000) (k : Fin 256), iblk7 V c 0 t (ix2 p k) = V c main_v130 (ix2 (rowAt t p) k) := fun p k => by
    show V c main_v130 (((cfg7.win 0).blk t).view.emb (ix2 p k)) = V c main_v130 (ix2 (rowAt t p) k)
    refine congrArg _ (funext fun a => Fin.ext ?_)
    match a with
    | ⟨0, _⟩ => show win7_0.index t (0 : Fin 2) * 2000 + 1 * p.val = t.val * 2000 + p.val; omega
    | ⟨1, _⟩ => show win7_0.index t (1 : Fin 2) * 256 + 1 * k.val = k.val; omega
  have ha : ∀ (p : Fin 2000) (k : Fin 256), iblk7 V c 1 t (ix2 p k) = V c main_v140 (ix2 (rowAt t p) k) := fun p k => by
    show V c main_v140 (((cfg7.win 1).blk t).view.emb (ix2 p k)) = V c main_v140 (ix2 (rowAt t p) k)
    refine congrArg _ (funext fun a => Fin.ext ?_)
    match a with
    | ⟨0, _⟩ => show win7_1.index t (0 : Fin 2) * 2000 + 1 * p.val = t.val * 2000 + p.val; omega
    | ⟨1, _⟩ => show win7_1.index t (1 : Fin 2) * 256 + 1 * k.val = k.val; omega
  have hd : ∀ (p : Fin 2000), iblk7 V c 2 t (ix2 p (0 : Fin 1)) = V c main_v15 (ix2 (rowAt t p) (0 : Fin 1)) := fun p => by
    show V c main_v15 (((cfg7.win 2).blk t).view.emb (ix2 p (0 : Fin 1))) = V c main_v15 (ix2 (rowAt t p) (0 : Fin 1))
    refine congrArg _ (funext fun a => Fin.ext ?_)
    match a with
    | ⟨0, _⟩ => show win7_2.index t (0 : Fin 2) * 2000 + 1 * p.val = t.val * 2000 + p.val; omega
    | ⟨1, _⟩ => show win7_2.index t (1 : Fin 2) * 1 + 1 * 0 = 0; omega
  have hn : iblk7 V c 3 t = V c main_v17 := funext fun y => by
    show V c main_v17 (((cfg7.win 3).blk t).view.emb y) = V c main_v17 y
    refine congrArg _ (funext fun a => Fin.ext ?_)
    match a with
    | ⟨0, _⟩ => show win7_3.index t (0 : Fin 2) * 1 + 1 * (y 0).val = (y 0).val; omega
    | ⟨1, _⟩ => show win7_3.index t (1 : Fin 2) * 1 + 1 * (y 1).val = (y 1).val; omega
  have hw0 : iblk7 V c 4 t = V c main_arg8 := funext fun y => by
    show V c main_arg8 (((cfg7.win 4).blk t).view.emb y) = V c main_arg8 y
    refine congrArg _ (funext fun a => Fin.ext ?_)
    match a with
    | ⟨0, _⟩ => show win7_4.index t (0 : Fin 2) * 256 + 1 * (y 0).val = (y 0).val; omega
    | ⟨1, _⟩ => show win7_4.index t (1 : Fin 2) * 3 + 1 * (y 1).val = (y 1).val; omega
  have hw1 : iblk7 V c 5 t = V c main_arg9 := funext fun y => by
    show V c main_arg9 (((cfg7.win 5).blk t).view.emb y) = V c main_arg9 y
    refine congrArg _ (funext fun a => Fin.ext ?_)
    match a with
    | ⟨0, _⟩ => show win7_5.index t (0 : Fin 2) * 256 + 1 * (y 0).val = (y 0).val; omega
    | ⟨1, _⟩ => show win7_5.index t (1 : Fin 2) * 3 + 1 * (y 1).val = (y 1).val; omega
  have hb : iblk7 V c 6 t = V c main_arg10 := funext fun y => by
    show V c main_arg10 (((cfg7.win 6).blk t).view.emb y) = V c main_arg10 y
    refine congrArg _ (funext fun a => Fin.ext ?_)
    match a with
    | ⟨0, _⟩ => show win7_6.index t (0 : Fin 1) * 3 + 1 * (y 0).val = (y 0).val; omega

  funext j
  obtain ⟨p, q, rfl⟩ : ∃ (p : Fin 2000) (q : Fin 3), j = ix2 p q := ⟨j 0, j 1, eq_ix2 j⟩
  have hemb : ((cfg7.win 7).blk t).view.emb (ix2 p q) = ix2 (rowAt t p) q := by
    refine funext fun a => Fin.ext ?_
    match a with
    | ⟨0, _⟩ => show win7_7.index t (0 : Fin 2) * 2000 + 1 * p.val = t.val * 2000 + p.val; omega
    | ⟨1, _⟩ => show win7_7.index t (1 : Fin 2) * 3 + 1 * q.val = q.val; omega
  show Cert.ChebStep.pre (iblk7 V c 0 t) (iblk7 V c 1 t) (iblk7 V c 2 t) (iblk7 V c 3 t) (iblk7 V c 4 t) (iblk7 V c 5 t) (iblk7 V c 6 t) (ix2 p q)
    = (Cert.ChebStep.pre (V c main_v130) (V c main_v140) (V c main_v15) (V c main_v17) (V c main_arg8) (V c main_arg9) (V c main_arg10)) (((cfg7.win 7).blk t).view.emb (ix2 p q))
  rw [hemb]
  exact Cert.ChebStep.pre_rows (rowAt t) _ _ _ _ _ _ _ _ _ _ _ _ _ _ hx ha hd hn hw0 hw1 hb p q

/-- An index of the output array lies in point t's block iff its coordinates lie in the block's ranges. -/
theorem mem_blk (t : Fin cfg7.N) (i : S50000x3.Idx) :
    i ∈ ((cfg7.win 7).blk t).view.set ↔ ∀ a : Fin 2, win7_7.index t a * S2000x3.size a ≤ (i a).val ∧ (i a).val < win7_7.index t a * S2000x3.size a + S2000x3.size a := by
  show i ∈ ((View.whole main_v141).slice (win7_7.rect t)).set ↔ _
  rw [View.set_slice_whole, Rect.mem_set_unit]
  exact Iff.rfl

/-- The 25 blocks tile the output array: row r lies in block r / 2000. -/
theorem cover (i : S50000x3.Idx) : ∃ t : Fin cfg7.N, (cfg7.win 7).flush t = true ∧ i ∈ ((cfg7.win 7).blk t).view.set := by
  have hi0 : (i 0).val < 50000 := (i 0).isLt
  have hi1 : (i 1).val < 3 := (i 1).isLt
  have hN : cfg7.N = 25 := N_7
  refine ⟨⟨(i 0).val / 2000, by omega⟩, flush7_7 _, ?_⟩
  rw [mem_blk]
  obtain ⟨e0, e1, e2, e3, e4, e5, e6, e7, e8, e9, e10, e11, e12, e13, e14⟩ := idx_facts ⟨(i 0).val / 2000, by omega⟩
  intro a
  match a with
  | ⟨0, _⟩ => show win7_7.index _ (0 : Fin 2) * 2000 ≤ (i 0).val ∧ (i 0).val < win7_7.index _ (0 : Fin 2) * 2000 + 2000; rw [e13]; show (i 0).val / 2000 * 2000 ≤ (i 0).val ∧ (i 0).val < (i 0).val / 2000 * 2000 + 2000; omega
  | ⟨1, _⟩ => show win7_7.index _ (1 : Fin 2) * 3 ≤ (i 1).val ∧ (i 1).val < win7_7.index _ (1 : Fin 2) * 3 + 3; rw [e14]; omega

/-- The output array after the launch is the step of the whole arrays the launch found. -/
theorem final (c : Dev nD) : (dat7 V c).arrAt 7 cfg7.N = Cert.ChebStep.pre (V c main_v130) (V c main_v140) (V c main_v15) (V c main_v17) (V c main_arg8) (V c main_arg9) (V c main_arg10) :=
  (dat7 V c).arrAt_eq_of_cover 7 _ (fun t _ => flushed_eq V c t) cover

end Cert.KernelIdeal.Region7

end
-- ==== Proof.KernelChain.lean ====
/-
  The kernel program's buffers, boundary by boundary.  @main is a fold through seventeen boundaries: a stretch of host
  operations rewrites the buffers it writes and keeps every other one; a launch of the dense step rewrites its output array
  (to the step of its input arrays, by the launch's own module) and keeps every other buffer.  Each buffer is written once,
  so at every later boundary it still holds what its writer left: the index rows of the edge list, the coefficient column,
  the scalar, the weight slices, the neighbour sums, and the eight layers Y0, H1, Y1, H2, Y2, H3, Y3, Z of the network.  -/
import proofs.«159116_j1211180777897_1_alg».proof.Proof.Gen.KernelIdeal.Frame
import proofs.«159116_j1211180777897_1_alg».proof.Proof.Net
import proofs.«159116_j1211180777897_1_alg».proof.Proof.Region0
import proofs.«159116_j1211180777897_1_alg».proof.Proof.Region1
import proofs.«159116_j1211180777897_1_alg».proof.Proof.Region2
import proofs.«159116_j1211180777897_1_alg».proof.Proof.Region3
import proofs.«159116_j1211180777897_1_alg».proof.Proof.Region4
import proofs.«159116_j1211180777897_1_alg».proof.Proof.Region5
import proofs.«159116_j1211180777897_1_alg».proof.Proof.Region6
import proofs.«159116_j1211180777897_1_alg».proof.Proof.Region7

set_option maxRecDepth 16384
set_option quotPrecheck false

noncomputable section

namespace Cert.KernelIdeal.Chain

open Cert.KernelIdeal Cert.KernelIdeal.Gen
open Idealize.ShloMosaic Idealize.ShloMosaic.TcCoe Idealize.ShloMosaic.StableHlo
open Idealize.SL Idealize.SL.Sem
open Idealize.ShloMosaic.Pipeline (Dat Cfg Window)

variable (m : (ℓ : Loc nD τ sig) → Buf (Elt Ideal) ℓ) (ρ : Dev nD → PrngReg) (c : Dev nD)

/-- A buffer none of a stretch's operations writes keeps its contents across the stretch. -/
macro "host_keep" ops:ident : tactic => `(tactic|
  exact StableHlo.after_of_forall_not_mem _ _ (List.forall_iff_forall_mem.mp (by
    simp only [$ops:ident, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))))

local notation "𝔸0" => m ((c : Thread nD τ).loc main_arg0)
local notation "𝔸1" => m ((c : Thread nD τ).loc main_arg1)
local notation "𝔸2" => m ((c : Thread nD τ).loc main_arg2)
local notation "𝔸3" => m ((c : Thread nD τ).loc main_arg3)
local notation "𝔸4" => m ((c : Thread nD τ).loc main_arg4)
local notation "𝔸5" => m ((c : Thread nD τ).loc main_arg5)
local notation "𝔸6" => m ((c : Thread nD τ).loc main_arg6)
local notation "𝔸7" => m ((c : Thread nD τ).loc main_arg7)
local notation "𝔸8" => m ((c : Thread nD τ).loc main_arg8)
local notation "𝔸9" => m ((c : Thread nD τ).loc main_arg9)
local notation "𝔸10" => m ((c : Thread nD τ).loc main_arg10)

theorem at0_arg0 : W0 m ρ c (Proc.devRef .tc main_arg0) = 𝔸0 := rfl
theorem at0_arg1 : W0 m ρ c (Proc.devRef .tc main_arg1) = 𝔸1 := rfl
theorem at0_arg10 : W0 m ρ c (Proc.devRef .tc main_arg10) = 𝔸10 := rfl
theorem at0_arg2 : W0 m ρ c (Proc.devRef .tc main_arg2) = 𝔸2 := rfl
theorem at0_arg3 : W0 m ρ c (Proc.devRef .tc main_arg3) = 𝔸3 := rfl
theorem at0_arg4 : W0 m ρ c (Proc.devRef .tc main_arg4) = 𝔸4 := rfl
theorem at0_arg5 : W0 m ρ c (Proc.devRef .tc main_arg5) = 𝔸5 := rfl
theorem at0_arg6 : W0 m ρ c (Proc.devRef .tc main_arg6) = 𝔸6 := rfl
theorem at0_arg7 : W0 m ρ c (Proc.devRef .tc main_arg7) = 𝔸7 := rfl
theorem at0_arg8 : W0 m ρ c (Proc.devRef .tc main_arg8) = 𝔸8 := rfl
theorem at0_arg9 : W0 m ρ c (Proc.devRef .tc main_arg9) = 𝔸9 := rfl

/-! ## Boundary 1: after host stretch 0 -/
theorem at1_arg0 : W1 m ρ c (Proc.devRef .tc main_arg0) = 𝔸0 :=
  ((by host_keep hostOps0) : W1 m ρ c (Proc.devRef .tc main_arg0) = W0 m ρ c (Proc.devRef .tc main_arg0)).trans (at0_arg0 m ρ c)
theorem at1_arg10 : W1 m ρ c (Proc.devRef .tc main_arg10) = 𝔸10 :=
  ((by host_keep hostOps0) : W1 m ρ c (Proc.devRef .tc main_arg10) = W0 m ρ c (Proc.devRef .tc main_arg10)).trans (at0_arg10 m ρ c)
theorem at1_arg2 : W1 m ρ c (Proc.devRef .tc main_arg2) = 𝔸2 :=
  ((by host_keep hostOps0) : W1 m ρ c (Proc.devRef .tc main_arg2) = W0 m ρ c (Proc.devRef .tc main_arg2)).trans (at0_arg2 m ρ c)
theorem at1_arg3 : W1 m ρ c (Proc.devRef .tc main_arg3) = 𝔸3 :=
  ((by host_keep hostOps0) : W1 m ρ c (Proc.devRef .tc main_arg3) = W0 m ρ c (Proc.devRef .tc main_arg3)).trans (at0_arg3 m ρ c)
theorem at1_arg4 : W1 m ρ c (Proc.devRef .tc main_arg4) = 𝔸4 :=
  ((by host_keep hostOps0) : W1 m ρ c (Proc.devRef .tc main_arg4) = W0 m ρ c (Proc.devRef .tc main_arg4)).trans (at0_arg4 m ρ c)
theorem at1_arg5 : W1 m ρ c (Proc.devRef .tc main_arg5) = 𝔸5 :=
  ((by host_keep hostOps0) : W1 m ρ c (Proc.devRef .tc main_arg5) = W0 m ρ c (Proc.devRef .tc main_arg5)).trans (at0_arg5 m ρ c)
theorem at1_arg6 : W1 m ρ c (Proc.devRef .tc main_arg6) = 𝔸6 :=
  ((by host_keep hostOps0) : W1 m ρ c (Proc.devRef .tc main_arg6) = W0 m ρ c (Proc.devRef .tc main_arg6)).trans (at0_arg6 m ρ c)
theorem at1_arg7 : W1 m ρ c (Proc.devRef .tc main_arg7) = 𝔸7 :=
  ((by host_keep hostOps0) : W1 m ρ c (Proc.devRef .tc main_arg7) = W0 m ρ c (Proc.devRef .tc main_arg7)).trans (at0_arg7 m ρ c)
theorem at1_arg8 : W1 m ρ c (Proc.devRef .tc main_arg8) = 𝔸8 :=
  ((by host_keep hostOps0) : W1 m ρ c (Proc.devRef .tc main_arg8) = W0 m ρ c (Proc.devRef .tc main_arg8)).trans (at0_arg8 m ρ c)
theorem at1_arg9 : W1 m ρ c (Proc.devRef .tc main_arg9) = 𝔸9 :=
  ((by host_keep hostOps0) : W1 m ρ c (Proc.devRef .tc main_arg9) = W0 m ρ c (Proc.devRef .tc main_arg9)).trans (at0_arg9 m ρ c)
theorem at1_v1 : W1 m ρ c (Proc.devRef .tc main_v1) = (Cert.Net.rowI 𝔸1) := by
  show StableHlo.after hostOps0 (W0 m ρ c) (Proc.devRef .tc main_v1) = _
  after_results_simp
  try simp only [at0_arg1 m ρ c]
  rfl
theorem at1_v15 : W1 m ρ c (Proc.devRef .tc main_v15) = (Cert.Net.dc 𝔸1) := by
  show StableHlo.after hostOps0 (W0 m ρ c) (Proc.devRef .tc main_v15) = _
  after_results_simp
  try simp only [at0_arg1 m ρ c]
  rfl
theorem at1_v17 : W1 m ρ c (Proc.devRef .tc main_v17) = (Cert.Net.nc 𝔸1) := by
  show StableHlo.after hostOps0 (W0 m ρ c) (Proc.devRef .tc main_v17) = _
  after_results_simp
  try simp only [at0_arg1 m ρ c]
  rfl
theorem at1_v27 : W1 m ρ c (Proc.devRef .tc main_v27) = (Cert.Net.agg3 𝔸1 𝔸0) := by
  show StableHlo.after hostOps0 (W0 m ρ c) (Proc.devRef .tc main_v27) = _
  after_results_simp
  try simp only [at0_arg1 m ρ c, at0_arg0 m ρ c]
  rfl
theorem at1_v3 : W1 m ρ c (Proc.devRef .tc main_v3) = (Cert.Net.colI 𝔸1) := by
  show StableHlo.after hostOps0 (W0 m ρ c) (Proc.devRef .tc main_v3) = _
  after_results_simp
  try simp only [at0_arg1 m ρ c]
  rfl

/-! ## Boundary 2: after launch 0 -/
theorem at2_arg10 : W2 m ρ c (Proc.devRef .tc main_arg10) = 𝔸10 :=
  ((W2_of_ne m ρ c main_arg10 (by decide)) : W2 m ρ c (Proc.devRef .tc main_arg10) = W1 m ρ c (Proc.devRef .tc main_arg10)).trans (at1_arg10 m ρ c)
theorem at2_arg5 : W2 m ρ c (Proc.devRef .tc main_arg5) = 𝔸5 :=
  ((W2_of_ne m ρ c main_arg5 (by decide)) : W2 m ρ c (Proc.devRef .tc main_arg5) = W1 m ρ c (Proc.devRef .tc main_arg5)).trans (at1_arg5 m ρ c)
theorem at2_arg6 : W2 m ρ c (Proc.devRef .tc main_arg6) = 𝔸6 :=
  ((W2_of_ne m ρ c main_arg6 (by decide)) : W2 m ρ c (Proc.devRef .tc main_arg6) = W1 m ρ c (Proc.devRef .tc main_arg6)).trans (at1_arg6 m ρ c)
theorem at2_arg7 : W2 m ρ c (Proc.devRef .tc main_arg7) = 𝔸7 :=
  ((W2_of_ne m ρ c main_arg7 (by decide)) : W2 m ρ c (Proc.devRef .tc main_arg7) = W1 m ρ c (Proc.devRef .tc main_arg7)).trans (at1_arg7 m ρ c)
theorem at2_arg8 : W2 m ρ c (Proc.devRef .tc main_arg8) = 𝔸8 :=
  ((W2_of_ne m ρ c main_arg8 (by decide)) : W2 m ρ c (Proc.devRef .tc main_arg8) = W1 m ρ c (Proc.devRef .tc main_arg8)).trans (at1_arg8 m ρ c)
theorem at2_arg9 : W2 m ρ c (Proc.devRef .tc main_arg9) = 𝔸9 :=
  ((W2_of_ne m ρ c main_arg9 (by decide)) : W2 m ρ c (Proc.devRef .tc main_arg9) = W1 m ρ c (Proc.devRef .tc main_arg9)).trans (at1_arg9 m ρ c)
theorem at2_v1 : W2 m ρ c (Proc.devRef .tc main_v1) = (Cert.Net.rowI 𝔸1) :=
  ((W2_of_ne m ρ c main_v1 (by decide)) : W2 m ρ c (Proc.devRef .tc main_v1) = W1 m ρ c (Proc.devRef .tc main_v1)).trans (at1_v1 m ρ c)
theorem at2_v15 : W2 m ρ c (Proc.devRef .tc main_v15) = (Cert.Net.dc 𝔸1) :=
  (((W2_arr m ρ c 2).trans (((dat0 (V1 m ρ) c).arrAt_in 2 rfl _).trans (A_eq0 (V1 m ρ) c 2))) : W2 m ρ c (Proc.devRef .tc main_v15) = W1 m ρ c (Proc.devRef .tc main_v15)).trans (at1_v15 m ρ c)
theorem at2_v17 : W2 m ρ c (Proc.devRef .tc main_v17) = (Cert.Net.nc 𝔸1) :=
  (((W2_arr m ρ c 3).trans (((dat0 (V1 m ρ) c).arrAt_in 3 rfl _).trans (A_eq0 (V1 m ρ) c 3))) : W2 m ρ c (Proc.devRef .tc main_v17) = W1 m ρ c (Proc.devRef .tc main_v17)).trans (at1_v17 m ρ c)
theorem at2_v28 : W2 m ρ c (Proc.devRef .tc main_v28) = (Cert.Net.Y0 𝔸0 𝔸1 𝔸2 𝔸3 𝔸4) :=
  (W2_arr m ρ c 7).trans ((Cert.KernelIdeal.Region0.final (V1 m ρ) c).trans (by
    show Cert.ChebStep.relu (W1 m ρ c (Proc.devRef .tc main_arg0)) (W1 m ρ c (Proc.devRef .tc main_v27)) (W1 m ρ c (Proc.devRef .tc main_v15)) (W1 m ρ c (Proc.devRef .tc main_v17)) (W1 m ρ c (Proc.devRef .tc main_arg2)) (W1 m ρ c (Proc.devRef .tc main_arg3)) (W1 m ρ c (Proc.devRef .tc main_arg4)) = _
    rw [at1_arg0 m ρ c, at1_v27 m ρ c, at1_v15 m ρ c, at1_v17 m ρ c, at1_arg2 m ρ c, at1_arg3 m ρ c, at1_arg4 m ρ c]
    rfl))
theorem at2_v3 : W2 m ρ c (Proc.devRef .tc main_v3) = (Cert.Net.colI 𝔸1) :=
  ((W2_of_ne m ρ c main_v3 (by decide)) : W2 m ρ c (Proc.devRef .tc main_v3) = W1 m ρ c (Proc.devRef .tc main_v3)).trans (at1_v3 m ρ c)

/-! ## Boundary 3: after host stretch 1 -/
theorem at3_arg10 : W3 m ρ c (Proc.devRef .tc main_arg10) = 𝔸10 :=
  ((by host_keep hostOps1) : W3 m ρ c (Proc.devRef .tc main_arg10) = W2 m ρ c (Proc.devRef .tc main_arg10)).trans (at2_arg10 m ρ c)
theorem at3_arg5 : W3 m ρ c (Proc.devRef .tc main_arg5) = 𝔸5 :=
  ((by host_keep hostOps1) : W3 m ρ c (Proc.devRef .tc main_arg5) = W2 m ρ c (Proc.devRef .tc main_arg5)).trans (at2_arg5 m ρ c)
theorem at3_arg6 : W3 m ρ c (Proc.devRef .tc main_arg6) = 𝔸6 :=
  ((by host_keep hostOps1) : W3 m ρ c (Proc.devRef .tc main_arg6) = W2 m ρ c (Proc.devRef .tc main_arg6)).trans (at2_arg6 m ρ c)
theorem at3_arg7 : W3 m ρ c (Proc.devRef .tc main_arg7) = 𝔸7 :=
  ((by host_keep hostOps1) : W3 m ρ c (Proc.devRef .tc main_arg7) = W2 m ρ c (Proc.devRef .tc main_arg7)).trans (at2_arg7 m ρ c)
theorem at3_arg8 : W3 m ρ c (Proc.devRef .tc main_arg8) = 𝔸8 :=
  ((by host_keep hostOps1) : W3 m ρ c (Proc.devRef .tc main_arg8) = W2 m ρ c (Proc.devRef .tc main_arg8)).trans (at2_arg8 m ρ c)
theorem at3_arg9 : W3 m ρ c (Proc.devRef .tc main_arg9) = 𝔸9 :=
  ((by host_keep hostOps1) : W3 m ρ c (Proc.devRef .tc main_arg9) = W2 m ρ c (Proc.devRef .tc main_arg9)).trans (at2_arg9 m ρ c)
theorem at3_v1 : W3 m ρ c (Proc.devRef .tc main_v1) = (Cert.Net.rowI 𝔸1) :=
  ((by host_keep hostOps1) : W3 m ρ c (Proc.devRef .tc main_v1) = W2 m ρ c (Proc.devRef .tc main_v1)).trans (at2_v1 m ρ c)
theorem at3_v15 : W3 m ρ c (Proc.devRef .tc main_v15) = (Cert.Net.dc 𝔸1) :=
  ((by host_keep hostOps1) : W3 m ρ c (Proc.devRef .tc main_v15) = W2 m ρ c (Proc.devRef .tc main_v15)).trans (at2_v15 m ρ c)
theorem at3_v17 : W3 m ρ c (Proc.devRef .tc main_v17) = (Cert.Net.nc 𝔸1) :=
  ((by host_keep hostOps1) : W3 m ρ c (Proc.devRef .tc main_v17) = W2 m ρ c (Proc.devRef .tc main_v17)).trans (at2_v17 m ρ c)
theorem at3_v28 : W3 m ρ c (Proc.devRef .tc main_v28) = (Cert.Net.Y0 𝔸0 𝔸1 𝔸2 𝔸3 𝔸4) :=
  ((by host_keep hostOps1) : W3 m ρ c (Proc.devRef .tc main_v28) = W2 m ρ c (Proc.devRef .tc main_v28)).trans (at2_v28 m ρ c)
theorem at3_v3 : W3 m ρ c (Proc.devRef .tc main_v3) = (Cert.Net.colI 𝔸1) :=
  ((by host_keep hostOps1) : W3 m ρ c (Proc.devRef .tc main_v3) = W2 m ρ c (Proc.devRef .tc main_v3)).trans (at2_v3 m ρ c)
theorem at3_v30 : W3 m ρ c (Proc.devRef .tc main_v30) = (Cert.Net.w0s0 𝔸5) := by
  show StableHlo.after hostOps1 (W2 m ρ c) (Proc.devRef .tc main_v30) = _
  after_results_simp
  try simp only [at2_arg5 m ρ c]
  rfl
theorem at3_v32 : W3 m ρ c (Proc.devRef .tc main_v32) = (Cert.Net.w0s0 𝔸6) := by
  show StableHlo.after hostOps1 (W2 m ρ c) (Proc.devRef .tc main_v32) = _
  after_results_simp
  try simp only [at2_arg6 m ρ c]
  rfl
theorem at3_v34 : W3 m ρ c (Proc.devRef .tc main_v34) = (Cert.Net.bs0 𝔸7) := by
  show StableHlo.after hostOps1 (W2 m ρ c) (Proc.devRef .tc main_v34) = _
  after_results_simp
  try simp only [at2_arg7 m ρ c]
  rfl
theorem at3_v44 : W3 m ρ c (Proc.devRef .tc main_v44) = (Cert.Net.agg 𝔸1 (Cert.Net.Y0 𝔸0 𝔸1 𝔸2 𝔸3 𝔸4)) := by
  show StableHlo.after hostOps1 (W2 m ρ c) (Proc.devRef .tc main_v44) = _
  after_results_simp
  try simp only [at2_v1 m ρ c, at2_v3 m ρ c, at2_v28 m ρ c]
  rfl

/-! ## Boundary 4: after launch 1 -/
theorem at4_arg10 : W4 m ρ c (Proc.devRef .tc main_arg10) = 𝔸10 :=
  ((W4_of_ne m ρ c main_arg10 (by decide)) : W4 m ρ c (Proc.devRef .tc main_arg10) = W3 m ρ c (Proc.devRef .tc main_arg10)).trans (at3_arg10 m ρ c)
theorem at4_arg5 : W4 m ρ c (Proc.devRef .tc main_arg5) = 𝔸5 :=
  ((W4_of_ne m ρ c main_arg5 (by decide)) : W4 m ρ c (Proc.devRef .tc main_arg5) = W3 m ρ c (Proc.devRef .tc main_arg5)).trans (at3_arg5 m ρ c)
theorem at4_arg6 : W4 m ρ c (Proc.devRef .tc main_arg6) = 𝔸6 :=
  ((W4_of_ne m ρ c main_arg6 (by decide)) : W4 m ρ c (Proc.devRef .tc main_arg6) = W3 m ρ c (Proc.devRef .tc main_arg6)).trans (at3_arg6 m ρ c)
theorem at4_arg7 : W4 m ρ c (Proc.devRef .tc main_arg7) = 𝔸7 :=
  ((W4_of_ne m ρ c main_arg7 (by decide)) : W4 m ρ c (Proc.devRef .tc main_arg7) = W3 m ρ c (Proc.devRef .tc main_arg7)).trans (at3_arg7 m ρ c)
theorem at4_arg8 : W4 m ρ c (Proc.devRef .tc main_arg8) = 𝔸8 :=
  ((W4_of_ne m ρ c main_arg8 (by decide)) : W4 m ρ c (Proc.devRef .tc main_arg8) = W3 m ρ c (Proc.devRef .tc main_arg8)).trans (at3_arg8 m ρ c)
theorem at4_arg9 : W4 m ρ c (Proc.devRef .tc main_arg9) = 𝔸9 :=
  ((W4_of_ne m ρ c main_arg9 (by decide)) : W4 m ρ c (Proc.devRef .tc main_arg9) = W3 m ρ c (Proc.devRef .tc main_arg9)).trans (at3_arg9 m ρ c)
theorem at4_v1 : W4 m ρ c (Proc.devRef .tc main_v1) = (Cert.Net.rowI 𝔸1) :=
  ((W4_of_ne m ρ c main_v1 (by decide)) : W4 m ρ c (Proc.devRef .tc main_v1) = W3 m ρ c (Proc.devRef .tc main_v1)).trans (at3_v1 m ρ c)
theorem at4_v15 : W4 m ρ c (Proc.devRef .tc main_v15) = (Cert.Net.dc 𝔸1) :=
  (((W4_arr m ρ c 2).trans (((dat1 (V3 m ρ) c).arrAt_in 2 rfl _).trans (A_eq1 (V3 m ρ) c 2))) : W4 m ρ c (Proc.devRef .tc main_v15) = W3 m ρ c (Proc.devRef .tc main_v15)).trans (at3_v15 m ρ c)
theorem at4_v17 : W4 m ρ c (Proc.devRef .tc main_v17) = (Cert.Net.nc 𝔸1) :=
  (((W4_arr m ρ c 3).trans (((dat1 (V3 m ρ) c).arrAt_in 3 rfl _).trans (A_eq1 (V3 m ρ) c 3))) : W4 m ρ c (Proc.devRef .tc main_v17) = W3 m ρ c (Proc.devRef .tc main_v17)).trans (at3_v17 m ρ c)
theorem at4_v28 : W4 m ρ c (Proc.devRef .tc main_v28) = (Cert.Net.Y0 𝔸0 𝔸1 𝔸2 𝔸3 𝔸4) :=
  (((W4_arr m ρ c 0).trans (((dat1 (V3 m ρ) c).arrAt_in 0 rfl _).trans (A_eq1 (V3 m ρ) c 0))) : W4 m ρ c (Proc.devRef .tc main_v28) = W3 m ρ c (Proc.devRef .tc main_v28)).trans (at3_v28 m ρ c)
theorem at4_v3 : W4 m ρ c (Proc.devRef .tc main_v3) = (Cert.Net.colI 𝔸1) :=
  ((W4_of_ne m ρ c main_v3 (by decide)) : W4 m ρ c (Proc.devRef .tc main_v3) = W3 m ρ c (Proc.devRef .tc main_v3)).trans (at3_v3 m ρ c)
theorem at4_v45 : W4 m ρ c (Proc.devRef .tc main_v45) = (Cert.Net.H1 𝔸0 𝔸1 𝔸2 𝔸3 𝔸4 𝔸5 𝔸6 𝔸7) :=
  (W4_arr m ρ c 7).trans ((Cert.KernelIdeal.Region1.final (V3 m ρ) c).trans (by
    show Cert.ChebStep.relu (W3 m ρ c (Proc.devRef .tc main_v28)) (W3 m ρ c (Proc.devRef .tc main_v44)) (W3 m ρ c (Proc.devRef .tc main_v15)) (W3 m ρ c (Proc.devRef .tc main_v17)) (W3 m ρ c (Proc.devRef .tc main_v30)) (W3 m ρ c (Proc.devRef .tc main_v32)) (W3 m ρ c (Proc.devRef .tc main_v34)) = _
    rw [at3_v28 m ρ c, at3_v44 m ρ c, at3_v15 m ρ c, at3_v17 m ρ c, at3_v30 m ρ c, at3_v32 m ρ c, at3_v34 m ρ c]
    rfl))

/-! ## Boundary 5: after host stretch 2 -/
theorem at5_arg10 : W5 m ρ c (Proc.devRef .tc main_arg10) = 𝔸10 :=
  ((by host_keep hostOps2) : W5 m ρ c (Proc.devRef .tc main_arg10) = W4 m ρ c (Proc.devRef .tc main_arg10)).trans (at4_arg10 m ρ c)
theorem at5_arg5 : W5 m ρ c (Proc.devRef .tc main_arg5) = 𝔸5 :=
  ((by host_keep hostOps2) : W5 m ρ c (Proc.devRef .tc main_arg5) = W4 m ρ c (Proc.devRef .tc main_arg5)).trans (at4_arg5 m ρ c)
theorem at5_arg6 : W5 m ρ c (Proc.devRef .tc main_arg6) = 𝔸6 :=
  ((by host_keep hostOps2) : W5 m ρ c (Proc.devRef .tc main_arg6) = W4 m ρ c (Proc.devRef .tc main_arg6)).trans (at4_arg6 m ρ c)
theorem at5_arg7 : W5 m ρ c (Proc.devRef .tc main_arg7) = 𝔸7 :=
  ((by host_keep hostOps2) : W5 m ρ c (Proc.devRef .tc main_arg7) = W4 m ρ c (Proc.devRef .tc main_arg7)).trans (at4_arg7 m ρ c)
theorem at5_arg8 : W5 m ρ c (Proc.devRef .tc main_arg8) = 𝔸8 :=
  ((by host_keep hostOps2) : W5 m ρ c (Proc.devRef .tc main_arg8) = W4 m ρ c (Proc.devRef .tc main_arg8)).trans (at4_arg8 m ρ c)
theorem at5_arg9 : W5 m ρ c (Proc.devRef .tc main_arg9) = 𝔸9 :=
  ((by host_keep hostOps2) : W5 m ρ c (Proc.devRef .tc main_arg9) = W4 m ρ c (Proc.devRef .tc main_arg9)).trans (at4_arg9 m ρ c)
theorem at5_v1 : W5 m ρ c (Proc.devRef .tc main_v1) = (Cert.Net.rowI 𝔸1) :=
  ((by host_keep hostOps2) : W5 m ρ c (Proc.devRef .tc main_v1) = W4 m ρ c (Proc.devRef .tc main_v1)).trans (at4_v1 m ρ c)
theorem at5_v15 : W5 m ρ c (Proc.devRef .tc main_v15) = (Cert.Net.dc 𝔸1) :=
  ((by host_keep hostOps2) : W5 m ρ c (Proc.devRef .tc main_v15) = W4 m ρ c (Proc.devRef .tc main_v15)).trans (at4_v15 m ρ c)
theorem at5_v17 : W5 m ρ c (Proc.devRef .tc main_v17) = (Cert.Net.nc 𝔸1) :=
  ((by host_keep hostOps2) : W5 m ρ c (Proc.devRef .tc main_v17) = W4 m ρ c (Proc.devRef .tc main_v17)).trans (at4_v17 m ρ c)
theorem at5_v28 : W5 m ρ c (Proc.devRef .tc main_v28) = (Cert.Net.Y0 𝔸0 𝔸1 𝔸2 𝔸3 𝔸4) :=
  ((by host_keep hostOps2) : W5 m ρ c (Proc.devRef .tc main_v28) = W4 m ρ c (Proc.devRef .tc main_v28)).trans (at4_v28 m ρ c)
theorem at5_v3 : W5 m ρ c (Proc.devRef .tc main_v3) = (Cert.Net.colI 𝔸1) :=
  ((by host_keep hostOps2) : W5 m ρ c (Proc.devRef .tc main_v3) = W4 m ρ c (Proc.devRef .tc main_v3)).trans (at4_v3 m ρ c)
theorem at5_v45 : W5 m ρ c (Proc.devRef .tc main_v45) = (Cert.Net.H1 𝔸0 𝔸1 𝔸2 𝔸3 𝔸4 𝔸5 𝔸6 𝔸7) :=
  ((by host_keep hostOps2) : W5 m ρ c (Proc.devRef .tc main_v45) = W4 m ρ c (Proc.devRef .tc main_v45)).trans (at4_v45 m ρ c)
theorem at5_v47 : W5 m ρ c (Proc.devRef .tc main_v47) = (Cert.Net.w0s1 𝔸5) := by
  show StableHlo.after hostOps2 (W4 m ρ c) (Proc.devRef .tc main_v47) = _
  after_results_simp
  try simp only [at4_arg5 m ρ c]
  rfl
theorem at5_v49 : W5 m ρ c (Proc.devRef .tc main_v49) = (Cert.Net.w0s1 𝔸6) := by
  show StableHlo.after hostOps2 (W4 m ρ c) (Proc.devRef .tc main_v49) = _
  after_results_simp
  try simp only [at4_arg6 m ρ c]
  rfl
theorem at5_v51 : W5 m ρ c (Proc.devRef .tc main_v51) = (Cert.Net.bs1 𝔸7) := by
  show StableHlo.after hostOps2 (W4 m ρ c) (Proc.devRef .tc main_v51) = _
  after_results_simp
  try simp only [at4_arg7 m ρ c]
  rfl
theorem at5_v61 : W5 m ρ c (Proc.devRef .tc main_v61) = (Cert.Net.agg 𝔸1 (Cert.Net.H1 𝔸0 𝔸1 𝔸2 𝔸3 𝔸4 𝔸5 𝔸6 𝔸7)) := by
  show StableHlo.after hostOps2 (W4 m ρ c) (Proc.devRef .tc main_v61) = _
  after_results_simp
  try simp only [at4_v1 m ρ c, at4_v3 m ρ c, at4_v45 m ρ c]
  rfl

/-! ## Boundary 6: after launch 2 -/
theorem at6_arg10 : W6 m ρ c (Proc.devRef .tc main_arg10) = 𝔸10 :=
  ((W6_of_ne m ρ c main_arg10 (by decide)) : W6 m ρ c (Proc.devRef .tc main_arg10) = W5 m ρ c (Proc.devRef .tc main_arg10)).trans (at5_arg10 m ρ c)
theorem at6_arg5 : W6 m ρ c (Proc.devRef .tc main_arg5) = 𝔸5 :=
  ((W6_of_ne m ρ c main_arg5 (by decide)) : W6 m ρ c (Proc.devRef .tc main_arg5) = W5 m ρ c (Proc.devRef .tc main_arg5)).trans (at5_arg5 m ρ c)
theorem at6_arg6 : W6 m ρ c (Proc.devRef .tc main_arg6) = 𝔸6 :=
  ((W6_of_ne m ρ c main_arg6 (by decide)) : W6 m ρ c (Proc.devRef .tc main_arg6) = W5 m ρ c (Proc.devRef .tc main_arg6)).trans (at5_arg6 m ρ c)
theorem at6_arg7 : W6 m ρ c (Proc.devRef .tc main_arg7) = 𝔸7 :=
  ((W6_of_ne m ρ c main_arg7 (by decide)) : W6 m ρ c (Proc.devRef .tc main_arg7) = W5 m ρ c (Proc.devRef .tc main_arg7)).trans (at5_arg7 m ρ c)
theorem at6_arg8 : W6 m ρ c (Proc.devRef .tc main_arg8) = 𝔸8 :=
  ((W6_of_ne m ρ c main_arg8 (by decide)) : W6 m ρ c (Proc.devRef .tc main_arg8) = W5 m ρ c (Proc.devRef .tc main_arg8)).trans (at5_arg8 m ρ c)
theorem at6_arg9 : W6 m ρ c (Proc.devRef .tc main_arg9) = 𝔸9 :=
  ((W6_of_ne m ρ c main_arg9 (by decide)) : W6 m ρ c (Proc.devRef .tc main_arg9) = W5 m ρ c (Proc.devRef .tc main_arg9)).trans (at5_arg9 m ρ c)
theorem at6_v1 : W6 m ρ c (Proc.devRef .tc main_v1) = (Cert.Net.rowI 𝔸1) :=
  ((W6_of_ne m ρ c main_v1 (by decide)) : W6 m ρ c (Proc.devRef .tc main_v1) = W5 m ρ c (Proc.devRef .tc main_v1)).trans (at5_v1 m ρ c)
theorem at6_v15 : W6 m ρ c (Proc.devRef .tc main_v15) = (Cert.Net.dc 𝔸1) :=
  (((W6_arr m ρ c 2).trans (((dat2 (V5 m ρ) c).arrAt_in 2 rfl _).trans (A_eq2 (V5 m ρ) c 2))) : W6 m ρ c (Proc.devRef .tc main_v15) = W5 m ρ c (Proc.devRef .tc main_v15)).trans (at5_v15 m ρ c)
theorem at6_v17 : W6 m ρ c (Proc.devRef .tc main_v17) = (Cert.Net.nc 𝔸1) :=
  (((W6_arr m ρ c 3).trans (((dat2 (V5 m ρ) c).arrAt_in 3 rfl _).trans (A_eq2 (V5 m ρ) c 3))) : W6 m ρ c (Proc.devRef .tc main_v17) = W5 m ρ c (Proc.devRef .tc main_v17)).trans (at5_v17 m ρ c)
theorem at6_v3 : W6 m ρ c (Proc.devRef .tc main_v3) = (Cert.Net.colI 𝔸1) :=
  ((W6_of_ne m ρ c main_v3 (by decide)) : W6 m ρ c (Proc.devRef .tc main_v3) = W5 m ρ c (Proc.devRef .tc main_v3)).trans (at5_v3 m ρ c)
theorem at6_v62 : W6 m ρ c (Proc.devRef .tc main_v62) = (Cert.Net.Y1 𝔸0 𝔸1 𝔸2 𝔸3 𝔸4 𝔸5 𝔸6 𝔸7) :=
  (W6_arr m ρ c 8).trans ((Cert.KernelIdeal.Region2.final (V5 m ρ) c).trans (by
    show Cert.ChebStep.res (W5 m ρ c (Proc.devRef .tc main_v45)) (W5 m ρ c (Proc.devRef .tc main_v61)) (W5 m ρ c (Proc.devRef .tc main_v15)) (W5 m ρ c (Proc.devRef .tc main_v17)) (W5 m ρ c (Proc.devRef .tc main_v47)) (W5 m ρ c (Proc.devRef .tc main_v49)) (W5 m ρ c (Proc.devRef .tc main_v51)) (W5 m ρ c (Proc.devRef .tc main_v28)) = _
    rw [at5_v45 m ρ c, at5_v61 m ρ c, at5_v15 m ρ c, at5_v17 m ρ c, at5_v47 m ρ c, at5_v49 m ρ c, at5_v51 m ρ c, at5_v28 m ρ c]
    rfl))

/-! ## Boundary 7: after host stretch 3 -/
theorem at7_arg10 : W7 m ρ c (Proc.devRef .tc main_arg10) = 𝔸10 :=
  ((by host_keep hostOps3) : W7 m ρ c (Proc.devRef .tc main_arg10) = W6 m ρ c (Proc.devRef .tc main_arg10)).trans (at6_arg10 m ρ c)
theorem at7_arg5 : W7 m ρ c (Proc.devRef .tc main_arg5) = 𝔸5 :=
  ((by host_keep hostOps3) : W7 m ρ c (Proc.devRef .tc main_arg5) = W6 m ρ c (Proc.devRef .tc main_arg5)).trans (at6_arg5 m ρ c)
theorem at7_arg6 : W7 m ρ c (Proc.devRef .tc main_arg6) = 𝔸6 :=
  ((by host_keep hostOps3) : W7 m ρ c (Proc.devRef .tc main_arg6) = W6 m ρ c (Proc.devRef .tc main_arg6)).trans (at6_arg6 m ρ c)
theorem at7_arg7 : W7 m ρ c (Proc.devRef .tc main_arg7) = 𝔸7 :=
  ((by host_keep hostOps3) : W7 m ρ c (Proc.devRef .tc main_arg7) = W6 m ρ c (Proc.devRef .tc main_arg7)).trans (at6_arg7 m ρ c)
theorem at7_arg8 : W7 m ρ c (Proc.devRef .tc main_arg8) = 𝔸8 :=
  ((by host_keep hostOps3) : W7 m ρ c (Proc.devRef .tc main_arg8) = W6 m ρ c (Proc.devRef .tc main_arg8)).trans (at6_arg8 m ρ c)
theorem at7_arg9 : W7 m ρ c (Proc.devRef .tc main_arg9) = 𝔸9 :=
  ((by host_keep hostOps3) : W7 m ρ c (Proc.devRef .tc main_arg9) = W6 m ρ c (Proc.devRef .tc main_arg9)).trans (at6_arg9 m ρ c)
theorem at7_v1 : W7 m ρ c (Proc.devRef .tc main_v1) = (Cert.Net.rowI 𝔸1) :=
  ((by host_keep hostOps3) : W7 m ρ c (Proc.devRef .tc main_v1) = W6 m ρ c (Proc.devRef .tc main_v1)).trans (at6_v1 m ρ c)
theorem at7_v15 : W7 m ρ c (Proc.devRef .tc main_v15) = (Cert.Net.dc 𝔸1) :=
  ((by host_keep hostOps3) : W7 m ρ c (Proc.devRef .tc main_v15) = W6 m ρ c (Proc.devRef .tc main_v15)).trans (at6_v15 m ρ c)
theorem at7_v17 : W7 m ρ c (Proc.devRef .tc main_v17) = (Cert.Net.nc 𝔸1) :=
  ((by host_keep hostOps3) : W7 m ρ c (Proc.devRef .tc main_v17) = W6 m ρ c (Proc.devRef .tc main_v17)).trans (at6_v17 m ρ c)
theorem at7_v3 : W7 m ρ c (Proc.devRef .tc main_v3) = (Cert.Net.colI 𝔸1) :=
  ((by host_keep hostOps3) : W7 m ρ c (Proc.devRef .tc main_v3) = W6 m ρ c (Proc.devRef .tc main_v3)).trans (at6_v3 m ρ c)
theorem at7_v62 : W7 m ρ c (Proc.devRef .tc main_v62) = (Cert.Net.Y1 𝔸0 𝔸1 𝔸2 𝔸3 𝔸4 𝔸5 𝔸6 𝔸7) :=
  ((by host_keep hostOps3) : W7 m ρ c (Proc.devRef .tc main_v62) = W6 m ρ c (Proc.devRef .tc main_v62)).trans (at6_v62 m ρ c)
theorem at7_v64 : W7 m ρ c (Proc.devRef .tc main_v64) = (Cert.Net.w0s2 𝔸5) := by
  show StableHlo.after hostOps3 (W6 m ρ c) (Proc.devRef .tc main_v64) = _
  after_results_simp
  try simp only [at6_arg5 m ρ c]
  rfl
theorem at7_v66 : W7 m ρ c (Proc.devRef .tc main_v66) = (Cert.Net.w0s2 𝔸6) := by
  show StableHlo.after hostOps3 (W6 m ρ c) (Proc.devRef .tc main_v66) = _
  after_results_simp
  try simp only [at6_arg6 m ρ c]
  rfl
theorem at7_v68 : W7 m ρ c (Proc.devRef .tc main_v68) = (Cert.Net.bs2 𝔸7) := by
  show StableHlo.after hostOps3 (W6 m ρ c) (Proc.devRef .tc main_v68) = _
  after_results_simp
  try simp only [at6_arg7 m ρ c]
  rfl
theorem at7_v78 : W7 m ρ c (Proc.devRef .tc main_v78) = (Cert.Net.agg 𝔸1 (Cert.Net.Y1 𝔸0 𝔸1 𝔸2 𝔸3 𝔸4 𝔸5 𝔸6 𝔸7)) := by
  show StableHlo.after hostOps3 (W6 m ρ c) (Proc.devRef .tc main_v78) = _
  after_results_simp
  try simp only [at6_v1 m ρ c, at6_v3 m ρ c, at6_v62 m ρ c]
  rfl

/-! ## Boundary 8: after launch 3 -/
theorem at8_arg10 : W8 m ρ c (Proc.devRef .tc main_arg10) = 𝔸10 :=
  ((W8_of_ne m ρ c main_arg10 (by decide)) : W8 m ρ c (Proc.devRef .tc main_arg10) = W7 m ρ c (Proc.devRef .tc main_arg10)).trans (at7_arg10 m ρ c)
theorem at8_arg5 : W8 m ρ c (Proc.devRef .tc main_arg5) = 𝔸5 :=
  ((W8_of_ne m ρ c main_arg5 (by decide)) : W8 m ρ c (Proc.devRef .tc main_arg5) = W7 m ρ c (Proc.devRef .tc main_arg5)).trans (at7_arg5 m ρ c)
theorem at8_arg6 : W8 m ρ c (Proc.devRef .tc main_arg6) = 𝔸6 :=
  ((W8_of_ne m ρ c main_arg6 (by decide)) : W8 m ρ c (Proc.devRef .tc main_arg6) = W7 m ρ c (Proc.devRef .tc main_arg6)).trans (at7_arg6 m ρ c)
theorem at8_arg7 : W8 m ρ c (Proc.devRef .tc main_arg7) = 𝔸7 :=
  ((W8_of_ne m ρ c main_arg7 (by decide)) : W8 m ρ c (Proc.devRef .tc main_arg7) = W7 m ρ c (Proc.devRef .tc main_arg7)).trans (at7_arg7 m ρ c)
theorem at8_arg8 : W8 m ρ c (Proc.devRef .tc main_arg8) = 𝔸8 :=
  ((W8_of_ne m ρ c main_arg8 (by decide)) : W8 m ρ c (Proc.devRef .tc main_arg8) = W7 m ρ c (Proc.devRef .tc main_arg8)).trans (at7_arg8 m ρ c)
theorem at8_arg9 : W8 m ρ c (Proc.devRef .tc main_arg9) = 𝔸9 :=
  ((W8_of_ne m ρ c main_arg9 (by decide)) : W8 m ρ c (Proc.devRef .tc main_arg9) = W7 m ρ c (Proc.devRef .tc main_arg9)).trans (at7_arg9 m ρ c)
theorem at8_v1 : W8 m ρ c (Proc.devRef .tc main_v1) = (Cert.Net.rowI 𝔸1) :=
  ((W8_of_ne m ρ c main_v1 (by decide)) : W8 m ρ c (Proc.devRef .tc main_v1) = W7 m ρ c (Proc.devRef .tc main_v1)).trans (at7_v1 m ρ c)
theorem at8_v15 : W8 m ρ c (Proc.devRef .tc main_v15) = (Cert.Net.dc 𝔸1) :=
  (((W8_arr m ρ c 2).trans (((dat3 (V7 m ρ) c).arrAt_in 2 rfl _).trans (A_eq3 (V7 m ρ) c 2))) : W8 m ρ c (Proc.devRef .tc main_v15) = W7 m ρ c (Proc.devRef .tc main_v15)).trans (at7_v15 m ρ c)
theorem at8_v17 : W8 m ρ c (Proc.devRef .tc main_v17) = (Cert.Net.nc 𝔸1) :=
  (((W8_arr m ρ c 3).trans (((dat3 (V7 m ρ) c).arrAt_in 3 rfl _).trans (A_eq3 (V7 m ρ) c 3))) : W8 m ρ c (Proc.devRef .tc main_v17) = W7 m ρ c (Proc.devRef .tc main_v17)).trans (at7_v17 m ρ c)
theorem at8_v3 : W8 m ρ c (Proc.devRef .tc main_v3) = (Cert.Net.colI 𝔸1) :=
  ((W8_of_ne m ρ c main_v3 (by decide)) : W8 m ρ c (Proc.devRef .tc main_v3) = W7 m ρ c (Proc.devRef .tc main_v3)).trans (at7_v3 m ρ c)
theorem at8_v62 : W8 m ρ c (Proc.devRef .tc main_v62) = (Cert.Net.Y1 𝔸0 𝔸1 𝔸2 𝔸3 𝔸4 𝔸5 𝔸6 𝔸7) :=
  (((W8_arr m ρ c 0).trans (((dat3 (V7 m ρ) c).arrAt_in 0 rfl _).trans (A_eq3 (V7 m ρ) c 0))) : W8 m ρ c (Proc.devRef .tc main_v62) = W7 m ρ c (Proc.devRef .tc main_v62)).trans (at7_v62 m ρ c)
theorem at8_v79 : W8 m ρ c (Proc.devRef .tc main_v79) = (Cert.Net.H2 𝔸0 𝔸1 𝔸2 𝔸3 𝔸4 𝔸5 𝔸6 𝔸7) :=
  (W8_arr m ρ c 7).trans ((Cert.KernelIdeal.Region3.final (V7 m ρ) c).trans (by
    show Cert.ChebStep.relu (W7 m ρ c (Proc.devRef .tc main_v62)) (W7 m ρ c (Proc.devRef .tc main_v78)) (W7 m ρ c (Proc.devRef .tc main_v15)) (W7 m ρ c (Proc.devRef .tc main_v17)) (W7 m ρ c (Proc.devRef .tc main_v64)) (W7 m ρ c (Proc.devRef .tc main_v66)) (W7 m ρ c (Proc.devRef .tc main_v68)) = _
    rw [at7_v62 m ρ c, at7_v78 m ρ c, at7_v15 m ρ c, at7_v17 m ρ c, at7_v64 m ρ c, at7_v66 m ρ c, at7_v68 m ρ c]
    rfl))

/-! ## Boundary 9: after host stretch 4 -/
theorem at9_arg10 : W9 m ρ c (Proc.devRef .tc main_arg10) = 𝔸10 :=
  ((by host_keep hostOps4) : W9 m ρ c (Proc.devRef .tc main_arg10) = W8 m ρ c (Proc.devRef .tc main_arg10)).trans (at8_arg10 m ρ c)
theorem at9_arg5 : W9 m ρ c (Proc.devRef .tc main_arg5) = 𝔸5 :=
  ((by host_keep hostOps4) : W9 m ρ c (Proc.devRef .tc main_arg5) = W8 m ρ c (Proc.devRef .tc main_arg5)).trans (at8_arg5 m ρ c)
theorem at9_arg6 : W9 m ρ c (Proc.devRef .tc main_arg6) = 𝔸6 :=
  ((by host_keep hostOps4) : W9 m ρ c (Proc.devRef .tc main_arg6) = W8 m ρ c (Proc.devRef .tc main_arg6)).trans (at8_arg6 m ρ c)
theorem at9_arg7 : W9 m ρ c (Proc.devRef .tc main_arg7) = 𝔸7 :=
  ((by host_keep hostOps4) : W9 m ρ c (Proc.devRef .tc main_arg7) = W8 m ρ c (Proc.devRef .tc main_arg7)).trans (at8_arg7 m ρ c)
theorem at9_arg8 : W9 m ρ c (Proc.devRef .tc main_arg8) = 𝔸8 :=
  ((by host_keep hostOps4) : W9 m ρ c (Proc.devRef .tc main_arg8) = W8 m ρ c (Proc.devRef .tc main_arg8)).trans (at8_arg8 m ρ c)
theorem at9_arg9 : W9 m ρ c (Proc.devRef .tc main_arg9) = 𝔸9 :=
  ((by host_keep hostOps4) : W9 m ρ c (Proc.devRef .tc main_arg9) = W8 m ρ c (Proc.devRef .tc main_arg9)).trans (at8_arg9 m ρ c)
theorem at9_v1 : W9 m ρ c (Proc.devRef .tc main_v1) = (Cert.Net.rowI 𝔸1) :=
  ((by host_keep hostOps4) : W9 m ρ c (Proc.devRef .tc main_v1) = W8 m ρ c (Proc.devRef .tc main_v1)).trans (at8_v1 m ρ c)
theorem at9_v15 : W9 m ρ c (Proc.devRef .tc main_v15) = (Cert.Net.dc 𝔸1) :=
  ((by host_keep hostOps4) : W9 m ρ c (Proc.devRef .tc main_v15) = W8 m ρ c (Proc.devRef .tc main_v15)).trans (at8_v15 m ρ c)
theorem at9_v17 : W9 m ρ c (Proc.devRef .tc main_v17) = (Cert.Net.nc 𝔸1) :=
  ((by host_keep hostOps4) : W9 m ρ c (Proc.devRef .tc main_v17) = W8 m ρ c (Proc.devRef .tc main_v17)).trans (at8_v17 m ρ c)
theorem at9_v3 : W9 m ρ c (Proc.devRef .tc main_v3) = (Cert.Net.colI 𝔸1) :=
  ((by host_keep hostOps4) : W9 m ρ c (Proc.devRef .tc main_v3) = W8 m ρ c (Proc.devRef .tc main_v3)).trans (at8_v3 m ρ c)
theorem at9_v62 : W9 m ρ c (Proc.devRef .tc main_v62) = (Cert.Net.Y1 𝔸0 𝔸1 𝔸2 𝔸3 𝔸4 𝔸5 𝔸6 𝔸7) :=
  ((by host_keep hostOps4) : W9 m ρ c (Proc.devRef .tc main_v62) = W8 m ρ c (Proc.devRef .tc main_v62)).trans (at8_v62 m ρ c)
theorem at9_v79 : W9 m ρ c (Proc.devRef .tc main_v79) = (Cert.Net.H2 𝔸0 𝔸1 𝔸2 𝔸3 𝔸4 𝔸5 𝔸6 𝔸7) :=
  ((by host_keep hostOps4) : W9 m ρ c (Proc.devRef .tc main_v79) = W8 m ρ c (Proc.devRef .tc main_v79)).trans (at8_v79 m ρ c)
theorem at9_v81 : W9 m ρ c (Proc.devRef .tc main_v81) = (Cert.Net.w0s3 𝔸5) := by
  show StableHlo.after hostOps4 (W8 m ρ c) (Proc.devRef .tc main_v81) = _
  after_results_simp
  try simp only [at8_arg5 m ρ c]
  rfl
theorem at9_v83 : W9 m ρ c (Proc.devRef .tc main_v83) = (Cert.Net.w0s3 𝔸6) := by
  show StableHlo.after hostOps4 (W8 m ρ c) (Proc.devRef .tc main_v83) = _
  after_results_simp
  try simp only [at8_arg6 m ρ c]
  rfl
theorem at9_v85 : W9 m ρ c (Proc.devRef .tc main_v85) = (Cert.Net.bs3 𝔸7) := by
  show StableHlo.after hostOps4 (W8 m ρ c) (Proc.devRef .tc main_v85) = _
  after_results_simp
  try simp only [at8_arg7 m ρ c]
  rfl
theorem at9_v95 : W9 m ρ c (Proc.devRef .tc main_v95) = (Cert.Net.agg 𝔸1 (Cert.Net.H2 𝔸0 𝔸1 𝔸2 𝔸3 𝔸4 𝔸5 𝔸6 𝔸7)) := by
  show StableHlo.after hostOps4 (W8 m ρ c) (Proc.devRef .tc main_v95) = _
  after_results_simp
  try simp only [at8_v1 m ρ c, at8_v3 m ρ c, at8_v79 m ρ c]
  rfl

/-! ## Boundary 10: after launch 4 -/
theorem at10_arg10 : W10 m ρ c (Proc.devRef .tc main_arg10) = 𝔸10 :=
  ((W10_of_ne m ρ c main_arg10 (by decide)) : W10 m ρ c (Proc.devRef .tc main_arg10) = W9 m ρ c (Proc.devRef .tc main_arg10)).trans (at9_arg10 m ρ c)
theorem at10_arg5 : W10 m ρ c (Proc.devRef .tc main_arg5) = 𝔸5 :=
  ((W10_of_ne m ρ c main_arg5 (by decide)) : W10 m ρ c (Proc.devRef .tc main_arg5) = W9 m ρ c (Proc.devRef .tc main_arg5)).trans (at9_arg5 m ρ c)
theorem at10_arg6 : W10 m ρ c (Proc.devRef .tc main_arg6) = 𝔸6 :=
  ((W10_of_ne m ρ c main_arg6 (by decide)) : W10 m ρ c (Proc.devRef .tc main_arg6) = W9 m ρ c (Proc.devRef .tc main_arg6)).trans (at9_arg6 m ρ c)
theorem at10_arg7 : W10 m ρ c (Proc.devRef .tc main_arg7) = 𝔸7 :=
  ((W10_of_ne m ρ c main_arg7 (by decide)) : W10 m ρ c (Proc.devRef .tc main_arg7) = W9 m ρ c (Proc.devRef .tc main_arg7)).trans (at9_arg7 m ρ c)
theorem at10_arg8 : W10 m ρ c (Proc.devRef .tc main_arg8) = 𝔸8 :=
  ((W10_of_ne m ρ c main_arg8 (by decide)) : W10 m ρ c (Proc.devRef .tc main_arg8) = W9 m ρ c (Proc.devRef .tc main_arg8)).trans (at9_arg8 m ρ c)
theorem at10_arg9 : W10 m ρ c (Proc.devRef .tc main_arg9) = 𝔸9 :=
  ((W10_of_ne m ρ c main_arg9 (by decide)) : W10 m ρ c (Proc.devRef .tc main_arg9) = W9 m ρ c (Proc.devRef .tc main_arg9)).trans (at9_arg9 m ρ c)
theorem at10_v1 : W10 m ρ c (Proc.devRef .tc main_v1) = (Cert.Net.rowI 𝔸1) :=
  ((W10_of_ne m ρ c main_v1 (by decide)) : W10 m ρ c (Proc.devRef .tc main_v1) = W9 m ρ c (Proc.devRef .tc main_v1)).trans (at9_v1 m ρ c)
theorem at10_v15 : W10 m ρ c (Proc.devRef .tc main_v15) = (Cert.Net.dc 𝔸1) :=
  (((W10_arr m ρ c 2).trans (((dat4 (V9 m ρ) c).arrAt_in 2 rfl _).trans (A_eq4 (V9 m ρ) c 2))) : W10 m ρ c (Proc.devRef .tc main_v15) = W9 m ρ c (Proc.devRef .tc main_v15)).trans (at9_v15 m ρ c)
theorem at10_v17 : W10 m ρ c (Proc.devRef .tc main_v17) = (Cert.Net.nc 𝔸1) :=
  (((W10_arr m ρ c 3).trans (((dat4 (V9 m ρ) c).arrAt_in 3 rfl _).trans (A_eq4 (V9 m ρ) c 3))) : W10 m ρ c (Proc.devRef .tc main_v17) = W9 m ρ c (Proc.devRef .tc main_v17)).trans (at9_v17 m ρ c)
theorem at10_v3 : W10 m ρ c (Proc.devRef .tc main_v3) = (Cert.Net.colI 𝔸1) :=
  ((W10_of_ne m ρ c main_v3 (by decide)) : W10 m ρ c (Proc.devRef .tc main_v3) = W9 m ρ c (Proc.devRef .tc main_v3)).trans (at9_v3 m ρ c)
theorem at10_v96 : W10 m ρ c (Proc.devRef .tc main_v96) = (Cert.Net.Y2 𝔸0 𝔸1 𝔸2 𝔸3 𝔸4 𝔸5 𝔸6 𝔸7) :=
  (W10_arr m ρ c 8).trans ((Cert.KernelIdeal.Region4.final (V9 m ρ) c).trans (by
    show Cert.ChebStep.res (W9 m ρ c (Proc.devRef .tc main_v79)) (W9 m ρ c (Proc.devRef .tc main_v95)) (W9 m ρ c (Proc.devRef .tc main_v15)) (W9 m ρ c (Proc.devRef .tc main_v17)) (W9 m ρ c (Proc.devRef .tc main_v81)) (W9 m ρ c (Proc.devRef .tc main_v83)) (W9 m ρ c (Proc.devRef .tc main_v85)) (W9 m ρ c (Proc.devRef .tc main_v62)) = _
    rw [at9_v79 m ρ c, at9_v95 m ρ c, at9_v15 m ρ c, at9_v17 m ρ c, at9_v81 m ρ c, at9_v83 m ρ c, at9_v85 m ρ c, at9_v62 m ρ c]
    rfl))

/-! ## Boundary 11: after host stretch 5 -/
theorem at11_arg10 : W11 m ρ c (Proc.devRef .tc main_arg10) = 𝔸10 :=
  ((by host_keep hostOps5) : W11 m ρ c (Proc.devRef .tc main_arg10) = W10 m ρ c (Proc.devRef .tc main_arg10)).trans (at10_arg10 m ρ c)
theorem at11_arg5 : W11 m ρ c (Proc.devRef .tc main_arg5) = 𝔸5 :=
  ((by host_keep hostOps5) : W11 m ρ c (Proc.devRef .tc main_arg5) = W10 m ρ c (Proc.devRef .tc main_arg5)).trans (at10_arg5 m ρ c)
theorem at11_arg6 : W11 m ρ c (Proc.devRef .tc main_arg6) = 𝔸6 :=
  ((by host_keep hostOps5) : W11 m ρ c (Proc.devRef .tc main_arg6) = W10 m ρ c (Proc.devRef .tc main_arg6)).trans (at10_arg6 m ρ c)
theorem at11_arg7 : W11 m ρ c (Proc.devRef .tc main_arg7) = 𝔸7 :=
  ((by host_keep hostOps5) : W11 m ρ c (Proc.devRef .tc main_arg7) = W10 m ρ c (Proc.devRef .tc main_arg7)).trans (at10_arg7 m ρ c)
theorem at11_arg8 : W11 m ρ c (Proc.devRef .tc main_arg8) = 𝔸8 :=
  ((by host_keep hostOps5) : W11 m ρ c (Proc.devRef .tc main_arg8) = W10 m ρ c (Proc.devRef .tc main_arg8)).trans (at10_arg8 m ρ c)
theorem at11_arg9 : W11 m ρ c (Proc.devRef .tc main_arg9) = 𝔸9 :=
  ((by host_keep hostOps5) : W11 m ρ c (Proc.devRef .tc main_arg9) = W10 m ρ c (Proc.devRef .tc main_arg9)).trans (at10_arg9 m ρ c)
theorem at11_v1 : W11 m ρ c (Proc.devRef .tc main_v1) = (Cert.Net.rowI 𝔸1) :=
  ((by host_keep hostOps5) : W11 m ρ c (Proc.devRef .tc main_v1) = W10 m ρ c (Proc.devRef .tc main_v1)).trans (at10_v1 m ρ c)
theorem at11_v100 : W11 m ρ c (Proc.devRef .tc main_v100) = (Cert.Net.w0s4 𝔸6) := by
  show StableHlo.after hostOps5 (W10 m ρ c) (Proc.devRef .tc main_v100) = _
  after_results_simp
  try simp only [at10_arg6 m ρ c]
  rfl
theorem at11_v102 : W11 m ρ c (Proc.devRef .tc main_v102) = (Cert.Net.bs4 𝔸7) := by
  show StableHlo.after hostOps5 (W10 m ρ c) (Proc.devRef .tc main_v102) = _
  after_results_simp
  try simp only [at10_arg7 m ρ c]
  rfl
theorem at11_v112 : W11 m ρ c (Proc.devRef .tc main_v112) = (Cert.Net.agg 𝔸1 (Cert.Net.Y2 𝔸0 𝔸1 𝔸2 𝔸3 𝔸4 𝔸5 𝔸6 𝔸7)) := by
  show StableHlo.after hostOps5 (W10 m ρ c) (Proc.devRef .tc main_v112) = _
  after_results_simp
  try simp only [at10_v1 m ρ c, at10_v3 m ρ c, at10_v96 m ρ c]
  rfl
theorem at11_v15 : W11 m ρ c (Proc.devRef .tc main_v15) = (Cert.Net.dc 𝔸1) :=
  ((by host_keep hostOps5) : W11 m ρ c (Proc.devRef .tc main_v15) = W10 m ρ c (Proc.devRef .tc main_v15)).trans (at10_v15 m ρ c)
theorem at11_v17 : W11 m ρ c (Proc.devRef .tc main_v17) = (Cert.Net.nc 𝔸1) :=
  ((by host_keep hostOps5) : W11 m ρ c (Proc.devRef .tc main_v17) = W10 m ρ c (Proc.devRef .tc main_v17)).trans (at10_v17 m ρ c)
theorem at11_v3 : W11 m ρ c (Proc.devRef .tc main_v3) = (Cert.Net.colI 𝔸1) :=
  ((by host_keep hostOps5) : W11 m ρ c (Proc.devRef .tc main_v3) = W10 m ρ c (Proc.devRef .tc main_v3)).trans (at10_v3 m ρ c)
theorem at11_v96 : W11 m ρ c (Proc.devRef .tc main_v96) = (Cert.Net.Y2 𝔸0 𝔸1 𝔸2 𝔸3 𝔸4 𝔸5 𝔸6 𝔸7) :=
  ((by host_keep hostOps5) : W11 m ρ c (Proc.devRef .tc main_v96) = W10 m ρ c (Proc.devRef .tc main_v96)).trans (at10_v96 m ρ c)
theorem at11_v98 : W11 m ρ c (Proc.devRef .tc main_v98) = (Cert.Net.w0s4 𝔸5) := by
  show StableHlo.after hostOps5 (W10 m ρ c) (Proc.devRef .tc main_v98) = _
  after_results_simp
  try simp only [at10_arg5 m ρ c]
  rfl

/-! ## Boundary 12: after launch 5 -/
theorem at12_arg10 : W12 m ρ c (Proc.devRef .tc main_arg10) = 𝔸10 :=
  ((W12_of_ne m ρ c main_arg10 (by decide)) : W12 m ρ c (Proc.devRef .tc main_arg10) = W11 m ρ c (Proc.devRef .tc main_arg10)).trans (at11_arg10 m ρ c)
theorem at12_arg5 : W12 m ρ c (Proc.devRef .tc main_arg5) = 𝔸5 :=
  ((W12_of_ne m ρ c main_arg5 (by decide)) : W12 m ρ c (Proc.devRef .tc main_arg5) = W11 m ρ c (Proc.devRef .tc main_arg5)).trans (at11_arg5 m ρ c)
theorem at12_arg6 : W12 m ρ c (Proc.devRef .tc main_arg6) = 𝔸6 :=
  ((W12_of_ne m ρ c main_arg6 (by decide)) : W12 m ρ c (Proc.devRef .tc main_arg6) = W11 m ρ c (Proc.devRef .tc main_arg6)).trans (at11_arg6 m ρ c)
theorem at12_arg7 : W12 m ρ c (Proc.devRef .tc main_arg7) = 𝔸7 :=
  ((W12_of_ne m ρ c main_arg7 (by decide)) : W12 m ρ c (Proc.devRef .tc main_arg7) = W11 m ρ c (Proc.devRef .tc main_arg7)).trans (at11_arg7 m ρ c)
theorem at12_arg8 : W12 m ρ c (Proc.devRef .tc main_arg8) = 𝔸8 :=
  ((W12_of_ne m ρ c main_arg8 (by decide)) : W12 m ρ c (Proc.devRef .tc main_arg8) = W11 m ρ c (Proc.devRef .tc main_arg8)).trans (at11_arg8 m ρ c)
theorem at12_arg9 : W12 m ρ c (Proc.devRef .tc main_arg9) = 𝔸9 :=
  ((W12_of_ne m ρ c main_arg9 (by decide)) : W12 m ρ c (Proc.devRef .tc main_arg9) = W11 m ρ c (Proc.devRef .tc main_arg9)).trans (at11_arg9 m ρ c)
theorem at12_v1 : W12 m ρ c (Proc.devRef .tc main_v1) = (Cert.Net.rowI 𝔸1) :=
  ((W12_of_ne m ρ c main_v1 (by decide)) : W12 m ρ c (Proc.devRef .tc main_v1) = W11 m ρ c (Proc.devRef .tc main_v1)).trans (at11_v1 m ρ c)
theorem at12_v113 : W12 m ρ c (Proc.devRef .tc main_v113) = (Cert.Net.H3 𝔸0 𝔸1 𝔸2 𝔸3 𝔸4 𝔸5 𝔸6 𝔸7) :=
  (W12_arr m ρ c 7).trans ((Cert.KernelIdeal.Region5.final (V11 m ρ) c).trans (by
    show Cert.ChebStep.relu (W11 m ρ c (Proc.devRef .tc main_v96)) (W11 m ρ c (Proc.devRef .tc main_v112)) (W11 m ρ c (Proc.devRef .tc main_v15)) (W11 m ρ c (Proc.devRef .tc main_v17)) (W11 m ρ c (Proc.devRef .tc main_v98)) (W11 m ρ c (Proc.devRef .tc main_v100)) (W11 m ρ c (Proc.devRef .tc main_v102)) = _
    rw [at11_v96 m ρ c, at11_v112 m ρ c, at11_v15 m ρ c, at11_v17 m ρ c, at11_v98 m ρ c, at11_v100 m ρ c, at11_v102 m ρ c]
    rfl))
theorem at12_v15 : W12 m ρ c (Proc.devRef .tc main_v15) = (Cert.Net.dc 𝔸1) :=
  (((W12_arr m ρ c 2).trans (((dat5 (V11 m ρ) c).arrAt_in 2 rfl _).trans (A_eq5 (V11 m ρ) c 2))) : W12 m ρ c (Proc.devRef .tc main_v15) = W11 m ρ c (Proc.devRef .tc main_v15)).trans (at11_v15 m ρ c)
theorem at12_v17 : W12 m ρ c (Proc.devRef .tc main_v17) = (Cert.Net.nc 𝔸1) :=
  (((W12_arr m ρ c 3).trans (((dat5 (V11 m ρ) c).arrAt_in 3 rfl _).trans (A_eq5 (V11 m ρ) c 3))) : W12 m ρ c (Proc.devRef .tc main_v17) = W11 m ρ c (Proc.devRef .tc main_v17)).trans (at11_v17 m ρ c)
theorem at12_v3 : W12 m ρ c (Proc.devRef .tc main_v3) = (Cert.Net.colI 𝔸1) :=
  ((W12_of_ne m ρ c main_v3 (by decide)) : W12 m ρ c (Proc.devRef .tc main_v3) = W11 m ρ c (Proc.devRef .tc main_v3)).trans (at11_v3 m ρ c)
theorem at12_v96 : W12 m ρ c (Proc.devRef .tc main_v96) = (Cert.Net.Y2 𝔸0 𝔸1 𝔸2 𝔸3 𝔸4 𝔸5 𝔸6 𝔸7) :=
  (((W12_arr m ρ c 0).trans (((dat5 (V11 m ρ) c).arrAt_in 0 rfl _).trans (A_eq5 (V11 m ρ) c 0))) : W12 m ρ c (Proc.devRef .tc main_v96) = W11 m ρ c (Proc.devRef .tc main_v96)).trans (at11_v96 m ρ c)

/-! ## Boundary 13: after host stretch 6 -/
theorem at13_arg10 : W13 m ρ c (Proc.devRef .tc main_arg10) = 𝔸10 :=
  ((by host_keep hostOps6) : W13 m ρ c (Proc.devRef .tc main_arg10) = W12 m ρ c (Proc.devRef .tc main_arg10)).trans (at12_arg10 m ρ c)
theorem at13_arg8 : W13 m ρ c (Proc.devRef .tc main_arg8) = 𝔸8 :=
  ((by host_keep hostOps6) : W13 m ρ c (Proc.devRef .tc main_arg8) = W12 m ρ c (Proc.devRef .tc main_arg8)).trans (at12_arg8 m ρ c)
theorem at13_arg9 : W13 m ρ c (Proc.devRef .tc main_arg9) = 𝔸9 :=
  ((by host_keep hostOps6) : W13 m ρ c (Proc.devRef .tc main_arg9) = W12 m ρ c (Proc.devRef .tc main_arg9)).trans (at12_arg9 m ρ c)
theorem at13_v1 : W13 m ρ c (Proc.devRef .tc main_v1) = (Cert.Net.rowI 𝔸1) :=
  ((by host_keep hostOps6) : W13 m ρ c (Proc.devRef .tc main_v1) = W12 m ρ c (Proc.devRef .tc main_v1)).trans (at12_v1 m ρ c)
theorem at13_v113 : W13 m ρ c (Proc.devRef .tc main_v113) = (Cert.Net.H3 𝔸0 𝔸1 𝔸2 𝔸3 𝔸4 𝔸5 𝔸6 𝔸7) :=
  ((by host_keep hostOps6) : W13 m ρ c (Proc.devRef .tc main_v113) = W12 m ρ c (Proc.devRef .tc main_v113)).trans (at12_v113 m ρ c)
theorem at13_v115 : W13 m ρ c (Proc.devRef .tc main_v115) = (Cert.Net.w0s5 𝔸5) := by
  show StableHlo.after hostOps6 (W12 m ρ c) (Proc.devRef .tc main_v115) = _
  after_results_simp
  try simp only [at12_arg5 m ρ c]
  rfl
theorem at13_v117 : W13 m ρ c (Proc.devRef .tc main_v117) = (Cert.Net.w0s5 𝔸6) := by
  show StableHlo.after hostOps6 (W12 m ρ c) (Proc.devRef .tc main_v117) = _
  after_results_simp
  try simp only [at12_arg6 m ρ c]
  rfl
theorem at13_v119 : W13 m ρ c (Proc.devRef .tc main_v119) = (Cert.Net.bs5 𝔸7) := by
  show StableHlo.after hostOps6 (W12 m ρ c) (Proc.devRef .tc main_v119) = _
  after_results_simp
  try simp only [at12_arg7 m ρ c]
  rfl
theorem at13_v129 : W13 m ρ c (Proc.devRef .tc main_v129) = (Cert.Net.agg 𝔸1 (Cert.Net.H3 𝔸0 𝔸1 𝔸2 𝔸3 𝔸4 𝔸5 𝔸6 𝔸7)) := by
  show StableHlo.after hostOps6 (W12 m ρ c) (Proc.devRef .tc main_v129) = _
  after_results_simp
  try simp only [at12_v1 m ρ c, at12_v3 m ρ c, at12_v113 m ρ c]
  rfl
theorem at13_v15 : W13 m ρ c (Proc.devRef .tc main_v15) = (Cert.Net.dc 𝔸1) :=
  ((by host_keep hostOps6) : W13 m ρ c (Proc.devRef .tc main_v15) = W12 m ρ c (Proc.devRef .tc main_v15)).trans (at12_v15 m ρ c)
theorem at13_v17 : W13 m ρ c (Proc.devRef .tc main_v17) = (Cert.Net.nc 𝔸1) :=
  ((by host_keep hostOps6) : W13 m ρ c (Proc.devRef .tc main_v17) = W12 m ρ c (Proc.devRef .tc main_v17)).trans (at12_v17 m ρ c)
theorem at13_v3 : W13 m ρ c (Proc.devRef .tc main_v3) = (Cert.Net.colI 𝔸1) :=
  ((by host_keep hostOps6) : W13 m ρ c (Proc.devRef .tc main_v3) = W12 m ρ c (Proc.devRef .tc main_v3)).trans (at12_v3 m ρ c)
theorem at13_v96 : W13 m ρ c (Proc.devRef .tc main_v96) = (Cert.Net.Y2 𝔸0 𝔸1 𝔸2 𝔸3 𝔸4 𝔸5 𝔸6 𝔸7) :=
  ((by host_keep hostOps6) : W13 m ρ c (Proc.devRef .tc main_v96) = W12 m ρ c (Proc.devRef .tc main_v96)).trans (at12_v96 m ρ c)

/-! ## Boundary 14: after launch 6 -/
theorem at14_arg10 : W14 m ρ c (Proc.devRef .tc main_arg10) = 𝔸10 :=
  ((W14_of_ne m ρ c main_arg10 (by decide)) : W14 m ρ c (Proc.devRef .tc main_arg10) = W13 m ρ c (Proc.devRef .tc main_arg10)).trans (at13_arg10 m ρ c)
theorem at14_arg8 : W14 m ρ c (Proc.devRef .tc main_arg8) = 𝔸8 :=
  ((W14_of_ne m ρ c main_arg8 (by decide)) : W14 m ρ c (Proc.devRef .tc main_arg8) = W13 m ρ c (Proc.devRef .tc main_arg8)).trans (at13_arg8 m ρ c)
theorem at14_arg9 : W14 m ρ c (Proc.devRef .tc main_arg9) = 𝔸9 :=
  ((W14_of_ne m ρ c main_arg9 (by decide)) : W14 m ρ c (Proc.devRef .tc main_arg9) = W13 m ρ c (Proc.devRef .tc main_arg9)).trans (at13_arg9 m ρ c)
theorem at14_v1 : W14 m ρ c (Proc.devRef .tc main_v1) = (Cert.Net.rowI 𝔸1) :=
  ((W14_of_ne m ρ c main_v1 (by decide)) : W14 m ρ c (Proc.devRef .tc main_v1) = W13 m ρ c (Proc.devRef .tc main_v1)).trans (at13_v1 m ρ c)
theorem at14_v130 : W14 m ρ c (Proc.devRef .tc main_v130) = (Cert.Net.Y3 𝔸0 𝔸1 𝔸2 𝔸3 𝔸4 𝔸5 𝔸6 𝔸7) :=
  (W14_arr m ρ c 8).trans ((Cert.KernelIdeal.Region6.final (V13 m ρ) c).trans (by
    show Cert.ChebStep.res (W13 m ρ c (Proc.devRef .tc main_v113)) (W13 m ρ c (Proc.devRef .tc main_v129)) (W13 m ρ c (Proc.devRef .tc main_v15)) (W13 m ρ c (Proc.devRef .tc main_v17)) (W13 m ρ c (Proc.devRef .tc main_v115)) (W13 m ρ c (Proc.devRef .tc main_v117)) (W13 m ρ c (Proc.devRef .tc main_v119)) (W13 m ρ c (Proc.devRef .tc main_v96)) = _
    rw [at13_v113 m ρ c, at13_v129 m ρ c, at13_v15 m ρ c, at13_v17 m ρ c, at13_v115 m ρ c, at13_v117 m ρ c, at13_v119 m ρ c, at13_v96 m ρ c]
    rfl))
theorem at14_v15 : W14 m ρ c (Proc.devRef .tc main_v15) = (Cert.Net.dc 𝔸1) :=
  (((W14_arr m ρ c 2).trans (((dat6 (V13 m ρ) c).arrAt_in 2 rfl _).trans (A_eq6 (V13 m ρ) c 2))) : W14 m ρ c (Proc.devRef .tc main_v15) = W13 m ρ c (Proc.devRef .tc main_v15)).trans (at13_v15 m ρ c)
theorem at14_v17 : W14 m ρ c (Proc.devRef .tc main_v17) = (Cert.Net.nc 𝔸1) :=
  (((W14_arr m ρ c 3).trans (((dat6 (V13 m ρ) c).arrAt_in 3 rfl _).trans (A_eq6 (V13 m ρ) c 3))) : W14 m ρ c (Proc.devRef .tc main_v17) = W13 m ρ c (Proc.devRef .tc main_v17)).trans (at13_v17 m ρ c)
theorem at14_v3 : W14 m ρ c (Proc.devRef .tc main_v3) = (Cert.Net.colI 𝔸1) :=
  ((W14_of_ne m ρ c main_v3 (by decide)) : W14 m ρ c (Proc.devRef .tc main_v3) = W13 m ρ c (Proc.devRef .tc main_v3)).trans (at13_v3 m ρ c)

/-! ## Boundary 15: after host stretch 7 -/
theorem at15_arg10 : W15 m ρ c (Proc.devRef .tc main_arg10) = 𝔸10 :=
  ((by host_keep hostOps7) : W15 m ρ c (Proc.devRef .tc main_arg10) = W14 m ρ c (Proc.devRef .tc main_arg10)).trans (at14_arg10 m ρ c)
theorem at15_arg8 : W15 m ρ c (Proc.devRef .tc main_arg8) = 𝔸8 :=
  ((by host_keep hostOps7) : W15 m ρ c (Proc.devRef .tc main_arg8) = W14 m ρ c (Proc.devRef .tc main_arg8)).trans (at14_arg8 m ρ c)
theorem at15_arg9 : W15 m ρ c (Proc.devRef .tc main_arg9) = 𝔸9 :=
  ((by host_keep hostOps7) : W15 m ρ c (Proc.devRef .tc main_arg9) = W14 m ρ c (Proc.devRef .tc main_arg9)).trans (at14_arg9 m ρ c)
theorem at15_v130 : W15 m ρ c (Proc.devRef .tc main_v130) = (Cert.Net.Y3 𝔸0 𝔸1 𝔸2 𝔸3 𝔸4 𝔸5 𝔸6 𝔸7) :=
  ((by host_keep hostOps7) : W15 m ρ c (Proc.devRef .tc main_v130) = W14 m ρ c (Proc.devRef .tc main_v130)).trans (at14_v130 m ρ c)
theorem at15_v140 : W15 m ρ c (Proc.devRef .tc main_v140) = (Cert.Net.agg 𝔸1 (Cert.Net.Y3 𝔸0 𝔸1 𝔸2 𝔸3 𝔸4 𝔸5 𝔸6 𝔸7)) := by
  show StableHlo.after hostOps7 (W14 m ρ c) (Proc.devRef .tc main_v140) = _
  after_results_simp
  try simp only [at14_v1 m ρ c, at14_v3 m ρ c, at14_v130 m ρ c]
  rfl
theorem at15_v15 : W15 m ρ c (Proc.devRef .tc main_v15) = (Cert.Net.dc 𝔸1) :=
  ((by host_keep hostOps7) : W15 m ρ c (Proc.devRef .tc main_v15) = W14 m ρ c (Proc.devRef .tc main_v15)).trans (at14_v15 m ρ c)
theorem at15_v17 : W15 m ρ c (Proc.devRef .tc main_v17) = (Cert.Net.nc 𝔸1) :=
  ((by host_keep hostOps7) : W15 m ρ c (Proc.devRef .tc main_v17) = W14 m ρ c (Proc.devRef .tc main_v17)).trans (at14_v17 m ρ c)

/-! ## Boundary 16: after launch 7 -/
theorem at16_v130 : W16 m ρ c (Proc.devRef .tc main_v130) = (Cert.Net.Y3 𝔸0 𝔸1 𝔸2 𝔸3 𝔸4 𝔸5 𝔸6 𝔸7) :=
  (((W16_arr m ρ c 0).trans (((dat7 (V15 m ρ) c).arrAt_in 0 rfl _).trans (A_eq7 (V15 m ρ) c 0))) : W16 m ρ c (Proc.devRef .tc main_v130) = W15 m ρ c (Proc.devRef .tc main_v130)).trans (at15_v130 m ρ c)
theorem at16_v141 : W16 m ρ c (Proc.devRef .tc main_v141) = (Cert.Net.Z 𝔸0 𝔸1 𝔸2 𝔸3 𝔸4 𝔸5 𝔸6 𝔸7 𝔸8 𝔸9 𝔸10) :=
  (W16_arr m ρ c 7).trans ((Cert.KernelIdeal.Region7.final (V15 m ρ) c).trans (by
    show Cert.ChebStep.pre (W15 m ρ c (Proc.devRef .tc main_v130)) (W15 m ρ c (Proc.devRef .tc main_v140)) (W15 m ρ c (Proc.devRef .tc main_v15)) (W15 m ρ c (Proc.devRef .tc main_v17)) (W15 m ρ c (Proc.devRef .tc main_arg8)) (W15 m ρ c (Proc.devRef .tc main_arg9)) (W15 m ρ c (Proc.devRef .tc main_arg10)) = _
    rw [at15_v130 m ρ c, at15_v140 m ρ c, at15_v15 m ρ c, at15_v17 m ρ c, at15_arg8 m ρ c, at15_arg9 m ρ c, at15_arg10 m ρ c]
    rfl))

end Cert.KernelIdeal.Chain

end
-- ==== Proof.RefNet.lean ====
/-
  The reference's run, read one operation at a time, is the network of Net.lean.

  Each layer of the reference is the host's form of the step (LibChebStep `host_relu`, `host_res`, `host_pre`) applied to
  the previous layer, to its neighbour sums, to the coefficient vector and the scalar (spread by broadcasts where the kernel
  program recasts them), and to the layer's weights; the index rows, the degrees and the weight slices are the same
  operations of the arguments that Net.lean names.
-/
import proofs.«159116_j1211180777897_1_alg».proof.Proof.RefRead
import proofs.«159116_j1211180777897_1_alg».proof.Proof.Net

set_option maxRecDepth 16384

noncomputable section

namespace Cert.Net

open Cert.ReferenceIdeal Cert.ReferenceIdeal.Gen Cert.ReferenceIdeal.Read
open Idealize.ShloMosaic Idealize.ShloMosaic.ValueIdx

section Ref
variable (x0 : A3) (e : EI) (x2 x3 : FVec Ideal S3x256 .f32) (x4 : B256)
  (x5 x6 : FVec Ideal S6x256x256 .f32) (x7 : FVec Ideal S6x256 .f32)
  (x8 x9 : FVec Ideal S256x3 .f32) (x10 : FVec Ideal S3 .f32)

/-! ## The reference, layer by layer -/

theorem ref_L0 : val_main_v38 (F := Ideal) x0 e x2 x3 x4 = Y0 x0 e x2 x3 x4 :=
  Cert.ChebStep.host_relu dot_S50000x3_S3x256_S50000x256_1_0_0_1_n_n rfl x0 (agg3 e x0)
    (val_main_v14 (F := Ideal) e) (val_main_v15 (F := Ideal) e) x2 x3 x4
    bcast_S_S50000x3 bcast_S50000_S50000x1_0 bcast_S50000x1_S50000x3_0_1 bcast_S256_S1x256_1 bcast_S1x256_S50000x256_0_1
    bcast_S_S50000x256 hcd hcn

theorem ref_L1 : val_main_v67 (F := Ideal) x0 e x2 x3 x4 x5 x6 x7
    = stepRelu e (val_main_v38 (F := Ideal) x0 e x2 x3 x4) (val_main_v40 (F := Ideal) x5) (val_main_v42 (F := Ideal) x6) (val_main_v44 (F := Ideal) x7) :=
  Cert.ChebStep.host_relu dot_S50000x256_S256x256_S50000x256_1_0_0_1_n_n rfl (val_main_v38 (F := Ideal) x0 e x2 x3 x4)
    (agg e (val_main_v38 (F := Ideal) x0 e x2 x3 x4))
    (val_main_v14 (F := Ideal) e) (val_main_v15 (F := Ideal) e) (val_main_v40 (F := Ideal) x5) (val_main_v42 (F := Ideal) x6) (val_main_v44 (F := Ideal) x7)
    bcast_S_S50000x256 bcast_S50000_S50000x1_0 bcast_S50000x1_S50000x256_0_1 bcast_S256_S1x256_1 bcast_S1x256_S50000x256_0_1
    bcast_S_S50000x256 hcd hcn

theorem ref_L2 : val_main_v99 (F := Ideal) x0 e x2 x3 x4 x5 x6 x7
    = stepRes e (val_main_v67 (F := Ideal) x0 e x2 x3 x4 x5 x6 x7) (val_main_v38 (F := Ideal) x0 e x2 x3 x4)
        (val_main_v69 (F := Ideal) x5) (val_main_v71 (F := Ideal) x6) (val_main_v73 (F := Ideal) x7) :=
  Cert.ChebStep.host_res dot_S50000x256_S256x256_S50000x256_1_0_0_1_n_n rfl (val_main_v67 (F := Ideal) x0 e x2 x3 x4 x5 x6 x7)
    (agg e (val_main_v67 (F := Ideal) x0 e x2 x3 x4 x5 x6 x7))
    (val_main_v14 (F := Ideal) e) (val_main_v15 (F := Ideal) e) (val_main_v69 (F := Ideal) x5) (val_main_v71 (F := Ideal) x6) (val_main_v73 (F := Ideal) x7)
    (val_main_v38 (F := Ideal) x0 e x2 x3 x4)
    bcast_S_S50000x256 bcast_S50000_S50000x1_0 bcast_S50000x1_S50000x256_0_1 bcast_S256_S1x256_1 bcast_S1x256_S50000x256_0_1
    bcast_S_S50000x256 hcd hcn

theorem ref_L3 : val_main_v128 (F := Ideal) x0 e x2 x3 x4 x5 x6 x7
    = stepRelu e (val_main_v99 (F := Ideal) x0 e x2 x3 x4 x5 x6 x7) (val_main_v101 (F := Ideal) x5) (val_main_v103 (F := Ideal) x6) (val_main_v105 (F := Ideal) x7) :=
  Cert.ChebStep.host_relu dot_S50000x256_S256x256_S50000x256_1_0_0_1_n_n rfl (val_main_v99 (F := Ideal) x0 e x2 x3 x4 x5 x6 x7)
    (agg e (val_main_v99 (F := Ideal) x0 e x2 x3 x4 x5 x6 x7))
    (val_main_v14 (F := Ideal) e) (val_main_v15 (F := Ideal) e) (val_main_v101 (F := Ideal) x5) (val_main_v103 (F := Ideal) x6) (val_main_v105 (F := Ideal) x7)
    bcast_S_S50000x256 bcast_S50000_S50000x1_0 bcast_S50000x1_S50000x256_0_1 bcast_S256_S1x256_1 bcast_S1x256_S50000x256_0_1
    bcast_S_S50000x256 hcd hcn

theorem ref_L4 : val_main_v160 (F := Ideal) x0 e x2 x3 x4 x5 x6 x7
    = stepRes e (val_main_v128 (F := Ideal) x0 e x2 x3 x4 x5 x6 x7) (val_main_v99 (F := Ideal) x0 e x2 x3 x4 x5 x6 x7)
        (val_main_v130 (F := Ideal) x5) (val_main_v132 (F := Ideal) x6) (val_main_v134 (F := Ideal) x7) :=
  Cert.ChebStep.host_res dot_S50000x256_S256x256_S50000x256_1_0_0_1_n_n rfl (val_main_v128 (F := Ideal) x0 e x2 x3 x4 x5 x6 x7)
    (agg e (val_main_v128 (F := Ideal) x0 e x2 x3 x4 x5 x6 x7))
    (val_main_v14 (F := Ideal) e) (val_main_v15 (F := Ideal) e) (val_main_v130 (F := Ideal) x5) (val_main_v132 (F := Ideal) x6) (val_main_v134 (F := Ideal) x7)
    (val_main_v99 (F := Ideal) x0 e x2 x3 x4 x5 x6 x7)
    bcast_S_S50000x256 bcast_S50000_S50000x1_0 bcast_S50000x1_S50000x256_0_1 bcast_S256_S1x256_1 bcast_S1x256_S50000x256_0_1
    bcast_S_S50000x256 hcd hcn

theorem ref_L5 : val_main_v189 (F := Ideal) x0 e x2 x3 x4 x5 x6 x7
    = stepRelu e (val_main_v160 (F := Ideal) x0 e x2 x3 x4 x5 x6 x7) (val_main_v162 (F := Ideal) x5) (val_main_v164 (F := Ideal) x6) (val_main_v166 (F := Ideal) x7) :=
  Cert.ChebStep.host_relu dot_S50000x256_S256x256_S50000x256_1_0_0_1_n_n rfl (val_main_v160 (F := Ideal) x0 e x2 x3 x4 x5 x6 x7)
    (agg e (val_main_v160 (F := Ideal) x0 e x2 x3 x4 x5 x6 x7))
    (val_main_v14 (F := Ideal) e) (val_main_v15 (F := Ideal) e) (val_main_v162 (F := Ideal) x5) (val_main_v164 (F := Ideal) x6) (val_main_v166 (F := Ideal) x7)
    bcast_S_S50000x256 bcast_S50000_S50000x1_0 bcast_S50000x1_S50000x256_0_1 bcast_S256_S1x256_1 bcast_S1x256_S50000x256_0_1
    bcast_S_S50000x256 hcd hcn

theorem ref_L6 : val_main_v221 (F := Ideal) x0 e x2 x3 x4 x5 x6 x7
    = stepRes e (val_main_v189 (F := Ideal) x0 e x2 x3 x4 x5 x6 x7) (val_main_v160 (F := Ideal) x0 e x2 x3 x4 x5 x6 x7)
        (val_main_v191 (F := Ideal) x5) (val_main_v193 (F := Ideal) x6) (val_main_v195 (F := Ideal) x7) :=
  Cert.ChebStep.host_res dot_S50000x256_S256x256_S50000x256_1_0_0_1_n_n rfl (val_main_v189 (F := Ideal) x0 e x2 x3 x4 x5 x6 x7)
    (agg e (val_main_v189 (F := Ideal) x0 e x2 x3 x4 x5 x6 x7))
    (val_main_v14 (F := Ideal) e) (val_main_v15 (F := Ideal) e) (val_main_v191 (F := Ideal) x5) (val_main_v193 (F := Ideal) x6) (val_main_v195 (F := Ideal) x7)
    (val_main_v160 (F := Ideal) x0 e x2 x3 x4 x5 x6 x7)
    bcast_S_S50000x256 bcast_S50000_S50000x1_0 bcast_S50000x1_S50000x256_0_1 bcast_S256_S1x256_1 bcast_S1x256_S50000x256_0_1
    bcast_S_S50000x256 hcd hcn

theorem ref_L7 : val_main_v243 (F := Ideal) x0 e x2 x3 x4 x5 x6 x7 x8 x9 x10
    = stepOut e (val_main_v221 (F := Ideal) x0 e x2 x3 x4 x5 x6 x7) x8 x9 x10 :=
  Cert.ChebStep.host_pre dot_S50000x256_S256x3_S50000x3_1_0_0_1_n_n rfl (val_main_v221 (F := Ideal) x0 e x2 x3 x4 x5 x6 x7)
    (agg e (val_main_v221 (F := Ideal) x0 e x2 x3 x4 x5 x6 x7))
    (val_main_v14 (F := Ideal) e) (val_main_v15 (F := Ideal) e) x8 x9 x10
    bcast_S_S50000x256 bcast_S50000_S50000x1_0 bcast_S50000x1_S50000x256_0_1 bcast_S3_S1x3_1 bcast_S1x3_S50000x3_0_1 hcd hcn

/-- The reference's second result is the last residual average. -/
theorem ref_Y3 : val_main_v221 (F := Ideal) x0 e x2 x3 x4 x5 x6 x7 = Y3 x0 e x2 x3 x4 x5 x6 x7 := by
  rw [ref_L6, ref_L5, ref_L4, ref_L3, ref_L2, ref_L1, ref_L0]
  rfl

/-- The reference's first result is the last step of it. -/
theorem ref_Z : val_main_v243 (F := Ideal) x0 e x2 x3 x4 x5 x6 x7 x8 x9 x10 = Z x0 e x2 x3 x4 x5 x6 x7 x8 x9 x10 := by
  rw [ref_L7, ref_Y3]
  rfl

end Ref

end Cert.Net

end
-- ==== Proof.lean ====
/-
  The certificate of the Chebyshev network: a kernel program of eight launches of one dense step among stretches of host
  operations, against a reference written with host operations only.

  Both programs compute, from the edge list, the node degrees, the scale 2/(2·max degree), the coefficient vector
  scale·degree − 1 and the scalar −scale, and then eight steps

      x·W₀ + (−scale·agg(x) + coefficient∘x)·W₁ + b,

  six of them clipped at zero, three of those averaged with an earlier layer; agg gathers rows along the edges' sources and
  scatter-adds them at the edges' targets.  The kernel program computes each step block by block on the vector unit with
  two matrix products into zero accumulators and averages by a product with ½; the reference computes it on whole arrays with
  two `dot_general`s and averages by a quotient by 2.  Over the extended reals both are the network of Net.lean, entry by
  entry: a matrix product is the same finite sum either way, a change of float format is the identity, and a quotient by the
  real 2 is the product with the real ½ at every extended real.  No step of the argument needs the inputs finite.

  The three frames: the two kernel programs' are the generated frame certificates; the reference's is its run with the
  results dropped.  The idealization rewrote no operation, so `preserves` is trivial.
-/
import proofs.«159116_j1211180777897_1_alg».proof.Defs
import proofs.«159116_j1211180777897_1_alg».proof.Proof.Gen.Kernel
import proofs.«159116_j1211180777897_1_alg».proof.Proof.Gen.Kernel.Skeleton
import proofs.«159116_j1211180777897_1_alg».proof.Proof.Gen.Kernel.Launch
import proofs.«159116_j1211180777897_1_alg».proof.Proof.Gen.Kernel.Points
import proofs.«159116_j1211180777897_1_alg».proof.Proof.Gen.Kernel.Frame
import proofs.«159116_j1211180777897_1_alg».proof.Proof.Gen.KernelIdeal
import proofs.«159116_j1211180777897_1_alg».proof.Proof.Gen.KernelIdeal.Skeleton
import proofs.«159116_j1211180777897_1_alg».proof.Proof.Gen.KernelIdeal.Launch
import proofs.«159116_j1211180777897_1_alg».proof.Proof.Gen.KernelIdeal.Points
import proofs.«159116_j1211180777897_1_alg».proof.Proof.Gen.KernelIdeal.Frame
import proofs.«159116_j1211180777897_1_alg».proof.Proof.Gen.ReferenceIdeal
import proofs.«159116_j1211180777897_1_alg».proof.Proof.Gen.Pre_finite_inputs
import proofs.«159116_j1211180777897_1_alg».proof.Proof.KernelRun
import proofs.«159116_j1211180777897_1_alg».proof.Proof.KernelChain
import proofs.«159116_j1211180777897_1_alg».proof.Proof.RefRun
import proofs.«159116_j1211180777897_1_alg».proof.Proof.RefNet
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
/-- The reference's frame is its run with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- Both programs end with the network's last step and its last residual average of the argument arrays. -/
theorem algebraic : Cert.algebraic_KernelIdeal_ReferenceIdeal := by
  intro m ρ m' ρ' _ hagree
  refine ⟨fun c => Cert.Net.Z (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    fun c => Cert.Net.Y3 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Chain.at16_v141 m ρ c), (h c).2.1.trans (Cert.KernelIdeal.Chain.at16_v130 m ρ c), (h c).2.2⟩)
      (Cert.KernelIdeal.RunValue.run (F := Ideal) m ρ)
  · refine (θ_run Cert.ReferenceIdeal.defs _ _).mono (fun r h c => ⟨(h c).1.trans ?_, (h c).2.1.trans ?_, (h c).2.2⟩)
      (Cert.ReferenceIdeal.Value.run (F := Ideal) m' ρ')
    · rw [Cert.Net.ref_Z, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2]
    · rw [Cert.Net.ref_Y3, (hagree c).1, (hagree c).2.1, (hagree c).2.2.1, (hagree c).2.2.2.1, (hagree c).2.2.2.2.1, (hagree c).2.2.2.2.2.1, (hagree c).2.2.2.2.2.2.1, (hagree c).2.2.2.2.2.2.2.1]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
